-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S2x16000000 : Shape := ⟨2, ![2, 16000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S500000x3 .f32) (main_arg1 : IVec S2x16000000 32) (main_arg2 : FVec F S3x16 .f32) (main_arg3 : FVec F S16 .f32) (main_arg4 : FVec F S16x7 .f32) (main_arg5 : FVec F S7 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S500000x3 : Shape := ⟨2, ![500000, 3]⟩
abbrev S2x16000000 : Shape := ⟨2, ![2, 16000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S500000x16 : Shape := ⟨2, ![500000, 16]⟩
abbrev S5000x3 : Shape := ⟨2, ![5000, 3]⟩
abbrev S5000x16 : Shape := ⟨2, ![5000, 16]⟩
abbrev S16500000x16 : Shape := ⟨2, ![16500000, 16]⟩
abbrev S6000x16 : Shape := ⟨2, ![6000, 16]⟩
abbrev S6000x1 : Shape := ⟨2, ![6000, 1]⟩
abbrev S1x16 : Shape := ⟨2, ![1, 16]⟩
abbrev S500000x7 : Shape := ⟨2, ![500000, 7]⟩
abbrev S5000x7 : Shape := ⟨2, ![5000, 7]⟩
abbrev S16500000x7 : Shape := ⟨2, ![16500000, 7]⟩
abbrev S6000x7 : Shape := ⟨2, ![6000, 7]⟩
abbrev S1x7 : Shape := ⟨2, ![1, 7]⟩
abbrev S5000 : Shape := ⟨1, ![5000]⟩
abbrev S5000x1 : Shape := ⟨2, ![5000, 1]⟩

abbrev nBuf : Space → Nat
  | .hbm => 82
  | .vmem => 32
  | .smem => 0
  | _ => 0

abbrev bufTy : (tb : Table) → Fin (tcTables nBuf tb) → BufTy
  | .hbm, ⟨0, _⟩ => ⟨S500000x3, .f32⟩
  | .hbm, ⟨1, _⟩ => ⟨S2x16000000, .i32⟩
  | .hbm, ⟨2, _⟩ => ⟨S3x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S500000, .i32⟩
  | .hbm, ⟨7, _⟩ => ⟨S1x16000000, .i32⟩
  | .hbm, ⟨8, _⟩ => ⟨S16000000, .i32⟩
  | .hbm, ⟨9, _⟩ => ⟨S16500000, .i32⟩
  | .hbm, ⟨10, _⟩ => ⟨S1x16000000, .i32⟩
  | .hbm, ⟨11, _⟩ => ⟨S16000000, .i32⟩
  | .hbm, ⟨12, _⟩ => ⟨S16500000, .i32⟩
  | .hbm, ⟨13, _⟩ => ⟨S_, .f32⟩
  | .hbm, ⟨14, _⟩ => ⟨S16500000, .f32⟩
  | .hbm, ⟨15, _⟩ => ⟨S_, .f32⟩
  | .hbm, ⟨16, _⟩ => ⟨S500000, .f32⟩
  | .hbm, ⟨17, _⟩ => ⟨S16500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S500000, .f32⟩
  | .hbm, ⟨23, _⟩ => ⟨S_, .f32⟩
  | .hbm, ⟨24, _⟩ => ⟨S_, .f32⟩
  | .hbm, ⟨25, _⟩ => ⟨S500000, .f32⟩
  | .hbm, ⟨26, _⟩ => ⟨S500000, .f32⟩
  | .hbm, ⟨27, _⟩ => ⟨S_, .i32⟩
  | .hbm, ⟨28, _⟩ => ⟨S16500000, .i32⟩
  | .hbm, ⟨29, _⟩ => ⟨S16500000, .i1⟩
  | .hbm, ⟨30, _⟩ => ⟨S_, .i32⟩
  | .hbm, ⟨31, _⟩ => ⟨S16500000, .i32⟩
  | .hbm, ⟨32, _⟩ => ⟨S16500000, .i32⟩
  | .hbm, ⟨33, _⟩ => ⟨S16500000, .i32⟩
  | .hbm, ⟨34, _⟩ => ⟨S16500000x1, .i32⟩
  | .hbm, ⟨35, _⟩ => ⟨S16500000, .f32⟩
  | .hbm, ⟨36, _⟩ => ⟨S_, .i32⟩
  | .hbm, ⟨37, _⟩ => ⟨S16500000, .i32⟩
  | .hbm, ⟨38, _⟩ => ⟨S16500000, .i1⟩
  | .hbm, ⟨39, _⟩ => ⟨S_, .i32⟩
  | .hbm, ⟨40, _⟩ => ⟨S16500000, .i32⟩
  | .hbm, ⟨41, _⟩ => ⟨S16500000, .i32⟩
  | .hbm, ⟨42, _⟩ => ⟨S16500000, .i32⟩
  | .hbm, ⟨43, _⟩ => ⟨S16500000x1, .i32⟩
  | .hbm, ⟨44, _⟩ => ⟨S16500000, .f32⟩
  | .hbm, ⟨45, _⟩ => ⟨S16500000, .f32⟩
  | .hbm, ⟨46, _⟩ => ⟨S500000x16, .f32⟩
  | .hbm, ⟨47, _⟩ => ⟨S_, .i32⟩
  | .hbm, ⟨48, _⟩ => ⟨S16500000, .i32⟩
  | .hbm, ⟨49, _⟩ => ⟨S16500000, .i1⟩
  | .hbm, ⟨50, _⟩ => ⟨S_, .i32⟩
  | .hbm, ⟨51, _⟩ => ⟨S16500000, .i32⟩
  | .hbm, ⟨52, _⟩ => ⟨S16500000, .i32⟩
  | .hbm, ⟨53, _⟩ => ⟨S16500000, .i32⟩
  | .hbm, ⟨54, _⟩ => ⟨S16500000x1, .i32⟩
  | .hbm, ⟨55, _⟩ => ⟨S16500000x16, .f32⟩
  | .hbm, ⟨56, _⟩ => ⟨S16500000x1, .f32⟩
  | .hbm, ⟨57, _⟩ => ⟨S16500000x16, .f32⟩
  | .hbm, ⟨58, _⟩ => ⟨S_, .f32⟩
  | .hbm, ⟨59, _⟩ => ⟨S500000x16, .f32⟩
  | .hbm, ⟨60, _⟩ => ⟨S16500000x1, .i32⟩
  | .hbm, ⟨61, _⟩ => ⟨S500000x16, .f32⟩
  | .hbm, ⟨62, _⟩ => ⟨S1x16, .f32⟩
  | .hbm, ⟨63, _⟩ => ⟨S500000x16, .f32⟩
  | .hbm, ⟨64, _⟩ => ⟨S500000x7, .f32⟩
  | .hbm, ⟨65, _⟩ => ⟨S_, .i32⟩
  | .hbm, ⟨66, _⟩ => ⟨S16500000, .i32⟩
  | .hbm, ⟨67, _⟩ => ⟨S16500000, .i1⟩
  | .hbm, ⟨68, _⟩ => ⟨S_, .i32⟩
  | .hbm, ⟨69, _⟩ => ⟨S16500000, .i32⟩
  | .hbm, ⟨70, _⟩ => ⟨S16500000, .i32⟩
  | .hbm, ⟨71, _⟩ => ⟨S16500000, .i32⟩
  | .hbm, ⟨72, _⟩ => ⟨S16500000x1, .i32⟩
  | .hbm, ⟨73, _⟩ => ⟨S16500000x7, .f32⟩
  | .hbm, ⟨74, _⟩ => ⟨S16500000x1, .f32⟩
  | .hbm, ⟨75, _⟩ => ⟨S16500000x7, .f32⟩
  | .hbm, ⟨76, _⟩ => ⟨S_, .f32⟩
  | .hbm, ⟨77, _⟩ => ⟨S500000x7, .f32⟩
  | .hbm, ⟨78, _⟩ => ⟨S16500000x1, .i32⟩
  | .hbm, ⟨79, _⟩ => ⟨S500000x7, .f32⟩
  | .hbm, ⟨80, _⟩ => ⟨S1x7, .f32⟩
  | .hbm, ⟨81, _⟩ => ⟨S500000x7, .f32⟩
  | .local _ .vmem, ⟨0, _⟩ => ⟨S5000x3, .f32⟩
  | .local _ .vmem, ⟨1, _⟩ => ⟨S5000x3, .f32⟩
  | .local _ .vmem, ⟨2, _⟩ => ⟨S3x16, .f32⟩
  | .local _ .vmem, ⟨3, _⟩ => ⟨S5000x16, .f32⟩
  | .local _ .vmem, ⟨4, _⟩ => ⟨S5000x16, .f32⟩
  | .local _ .vmem, ⟨5, _⟩ => ⟨S6000x16, .f32⟩
  | .local _ .vmem, ⟨6, _⟩ => ⟨S6000x16, .f32⟩
  | .local _ .vmem, ⟨7, _⟩ => ⟨S6000x1, .f32⟩
  | .local _ .vmem, ⟨8, _⟩ => ⟨S6000x1, .f32⟩
  | .local _ .vmem, ⟨9, _⟩ => ⟨S6000x16, .f32⟩
  | .local _ .vmem, ⟨10, _⟩ => ⟨S6000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x7, .f32⟩
  | .local _ .vmem, ⟨19, _⟩ => ⟨S5000x7, .f32⟩
  | .local _ .vmem, ⟨20, _⟩ => ⟨S5000x7, .f32⟩
  | .local _ .vmem, ⟨21, _⟩ => ⟨S6000x7, .f32⟩
  | .local _ .vmem, ⟨22, _⟩ => ⟨S6000x7, .f32⟩
  | .local _ .vmem, ⟨23, _⟩ => ⟨S6000x1, .f32⟩
  | .local _ .vmem, ⟨24, _⟩ => ⟨S6000x1, .f32⟩
  | .local _ .vmem, ⟨25, _⟩ => ⟨S6000x7, .f32⟩
  | .local _ .vmem, ⟨26, _⟩ => ⟨S6000x7, .f32⟩
  | .local _ .vmem, ⟨27, _⟩ => ⟨S5000x7, .f32⟩
  | .local _ .vmem, ⟨28, _⟩ => ⟨S5000x7, .f32⟩
  | .local _ .vmem, ⟨29, _⟩ => ⟨S1x7, .f32⟩
  | .local _ .vmem, ⟨30, _⟩ => ⟨S5000x7, .f32⟩
  | .local _ .vmem, ⟨31, _⟩ => ⟨S5000x7, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2750], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![2750], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x7 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6000x7 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x7 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x7 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x7 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S5000x16_S5000x16_0_0 : ∀ a, (![0, 0] : Fin 2 → Nat) a + S5000x16.size a ≤ S5000x16.size a
  h_S5000x16 : 0 < S5000x16.numel
  shapeCasts_S16500000_S16500000x1 : S16500000.ShapeCasts S16500000x1
  inb_S6000x16_S6000x16_0_0 : ∀ a, (![0, 0] : Fin 2 → Nat) a + S6000x16.size a ≤ S6000x16.size a
  h_S6000x16 : 0 < S6000x16.numel
  shapeCasts_S6000x16_S6000x16 : S6000x16.ShapeCasts S6000x16
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x16 : S6000x1.Broadcasts S6000x16
  bcast_S_S500000x16 : S_.BroadcastsInDim S500000x16 (![] : Fin 0 → Fin S500000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  inb_S6000x7_S6000x7_0_0 : ∀ a, (![0, 0] : Fin 2 → Nat) a + S6000x7.size a ≤ S6000x7.size a
  h_S6000x7 : 0 < S6000x7.numel
  shapeCasts_S6000x7_S6000x7 : S6000x7.ShapeCasts S6000x7
  broadcasts_S6000x1_S6000x7 : S6000x1.Broadcasts S6000x7
  bcast_S_S500000x7 : S_.BroadcastsInDim S500000x7 (![] : Fin 0 → Fin S500000x7.rank)
  shapeCasts_S7_S1x7 : S7.ShapeCasts S1x7
  shapeCasts_S5000x7_S5000x7 : S5000x7.ShapeCasts S5000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  reduces_S5000x7_S5000 : S5000x7.Reduces [1] S5000
  shapeCasts_S5000_S5000x1 : S5000.ShapeCasts S5000x1
  broadcasts_S5000x1_S5000x7 : S5000x1.Broadcasts S5000x7
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S5000x3_S3x16_S5000x16_1_0_0_1_n_n_wf : DotDims.WF S5000x3 S3x16 S5000x16 [1] [0] [0] [1] [] []
  gather_S500000x16_S16500000x1_S16500000x16_1_0_n_n_0_1_116_wf : GatherDims.WF S500000x16 S16500000x1 S16500000x16 [1] [0] [] [0] [] 1 ![1, 16]
  scatter_S500000x16_S16500000x1_S16500000x16_1_0_0_1_wf : ScatterDims.WF S500000x16 S16500000x1 S16500000x16 [1] [0] [0] 1
  dot_S5000x16_S16x7_S5000x7_1_0_0_1_n_n_wf : DotDims.WF S5000x16 S16x7 S5000x7 [1] [0] [0] [1] [] []
  gather_S500000x7_S16500000x1_S16500000x7_1_0_n_n_0_1_17_wf : GatherDims.WF S500000x7 S16500000x1 S16500000x7 [1] [0] [] [0] [] 1 ![1, 7]
  scatter_S500000x7_S16500000x1_S16500000x7_1_0_0_1_wf : ScatterDims.WF S500000x7 S16500000x1 S16500000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S500000x3.size a
  hwx0_0 : ∀ i : grid0.Coords, EltTy.bits .f32 = 32 ∨ (Rect.block (s := S500000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S500000x16.size a
  hwx0_2 : ∀ i : grid0.Coords, EltTy.bits .f32 = 32 ∨ (Rect.block (s := S500000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x16.size a ≤ S16500000x16.size a
  hwx1_0 : ∀ i : grid1.Coords, EltTy.bits .f32 = 32 ∨ (Rect.block (s := S16500000x16) S6000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x1.size a ≤ S16500000x1.size a
  hwx1_1 : ∀ i : grid1.Coords, EltTy.bits .f32 = 32 ∨ (Rect.block (s := S16500000x1) S6000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x16.size a ≤ S16500000x16.size a
  hwx1_2 : ∀ i : grid1.Coords, EltTy.bits .f32 = 32 ∨ (Rect.block (s := S16500000x16) S6000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S500000x16.size a
  hwx2_0 : ∀ i : grid2.Coords, EltTy.bits .f32 = 32 ∨ (Rect.block (s := S500000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S500000x16.size a
  hwx2_2 : ∀ i : grid2.Coords, EltTy.bits .f32 = 32 ∨ (Rect.block (s := S500000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S500000x16.size a
  hwx3_0 : ∀ i : grid3.Coords, EltTy.bits .f32 = 32 ∨ (Rect.block (s := S500000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x7.size a ≤ S16x7.size a
  hwx3_1 : ∀ i : grid3.Coords, EltTy.bits .f32 = 32 ∨ (Rect.block (s := S16x7) S16x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x7.size a ≤ S500000x7.size a
  hwx3_2 : ∀ i : grid3.Coords, EltTy.bits .f32 = 32 ∨ (Rect.block (s := S500000x7) S5000x7.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x7.size a ≤ S16500000x7.size a
  hwx4_0 : ∀ i : grid4.Coords, EltTy.bits .f32 = 32 ∨ (Rect.block (s := S16500000x7) S6000x7.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x1.size a ≤ S16500000x1.size a
  hwx4_1 : ∀ i : grid4.Coords, EltTy.bits .f32 = 32 ∨ (Rect.block (s := S16500000x1) S6000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x7.size a ≤ S16500000x7.size a
  hwx4_2 : ∀ i : grid4.Coords, EltTy.bits .f32 = 32 ∨ (Rect.block (s := S16500000x7) S6000x7.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x7.size a ≤ S500000x7.size a
  hwx5_0 : ∀ i : grid5.Coords, EltTy.bits .f32 = 32 ∨ (Rect.block (s := S500000x7) S5000x7.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x7.size a ≤ S1x7.size a
  hwx5_1 : ∀ i : grid5.Coords, EltTy.bits .f32 = 32 ∨ (Rect.block (s := S1x7) S1x7.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x7.size a ≤ S500000x7.size a
  hwx5_2 : ∀ i : grid5.Coords, EltTy.bits .f32 = 32 ∨ (Rect.block (s := S500000x7) S5000x7.size (cc5_transform_2 i) (hinb5_2 i)).WholeWords (EltTy.packing .f32)

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S5000x3_S3x16_S5000x16_1_0_0_1_n_n : DotDims S5000x3 S3x16 S5000x16 where
  lhsContracting := [1]
  rhsContracting := [0]
  lhsNonContracting := [0]
  rhsNonContracting := [1]
  lhsBatch := []
  rhsBatch := []
  wf := dot_S5000x3_S3x16_S5000x16_1_0_0_1_n_n_wf
def gather_S500000x16_S16500000x1_S16500000x16_1_0_n_n_0_1_116 : GatherDims S500000x16 S16500000x1 S16500000x16 where
  offsetDims := [1]
  collapsedSliceDims := [0]
  operandBatchingDims := []
  startIndicesBatchingDims := []
  startIndexMap := [0]
  indexVectorDim := 1
  sliceSizes := ![1, 16]
  wf := gather_S500000x16_S16500000x1_S16500000x16_1_0_n_n_0_1_116_wf
def scatter_S500000x16_S16500000x1_S16500000x16_1_0_0_1 : ScatterDims S500000x16 S16500000x1 S16500000x16 where
  updateWindowDims := [1]
  insertedWindowDims := [0]
  scatterDimsToOperandDims := [0]
  indexVectorDim := 1
  wf := scatter_S500000x16_S16500000x1_S16500000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S500000x7_S16500000x1_S16500000x7_1_0_n_n_0_1_17 : GatherDims S500000x7 S16500000x1 S16500000x7 where
  offsetDims := [1]
  collapsedSliceDims := [0]
  operandBatchingDims := []
  startIndicesBatchingDims := []
  startIndexMap := [0]
  indexVectorDim := 1
  sliceSizes := ![1, 7]
  wf := gather_S500000x7_S16500000x1_S16500000x7_1_0_n_n_0_1_17_wf
def scatter_S500000x7_S16500000x1_S16500000x7_1_0_0_1 : ScatterDims S500000x7 S16500000x1 S16500000x7 where
  updateWindowDims := [1]
  insertedWindowDims := [0]
  scatterDimsToOperandDims := [0]
  indexVectorDim := 1
  wf := scatter_S500000x7_S16500000x1_S16500000x7_1_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S6000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S6000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S6000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S6000x7.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S6000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S6000x7.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x7.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x7.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S5000x7.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S500000x3 : Shape := ⟨2, ![500000, 3]⟩
abbrev S2x16000000 : Shape := ⟨2, ![2, 16000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S500000x16 : Shape := ⟨2, ![500000, 16]⟩
abbrev S_ : Shape := ⟨0, ![]⟩
abbrev S16500000x1 : Shape := ⟨2, ![16500000, 1]⟩
abbrev S16500000x16 : Shape := ⟨2, ![16500000, 16]⟩
abbrev S1x16 : Shape := ⟨2, ![1, 16]⟩
abbrev S500000x7 : Shape := ⟨2, ![500000, 7]⟩
abbrev S16500000x7 : Shape := ⟨2, ![16500000, 7]⟩
abbrev S1x7 : Shape := ⟨2, ![1, 7]⟩
abbrev S500000x1 : Shape := ⟨2, ![500000, 1]⟩

abbrev nBuf : Space → Nat
  | .hbm => 137
  | .vmem => 0
  | .smem => 0
  | _ => 0

abbrev hbmTy0_0 (i : Nat) : BufTy := match i % 128 with
  | 0 => ⟨S500000x3, .f32⟩
  | 1 => ⟨S2x16000000, .i32⟩
  | 2 => ⟨S3x16, .f32⟩
  | 3 => ⟨S16, .f32⟩
  | 4 => ⟨S16x7, .f32⟩
  | 5 => ⟨S7, .f32⟩
  | 6 => ⟨S500000, .i32⟩
  | 7 => ⟨S1x16000000, .i32⟩
  | 8 => ⟨S16000000, .i32⟩
  | 9 => ⟨S16500000, .i32⟩
  | 10 => ⟨S1x16000000, .i32⟩
  | 11 => ⟨S16000000, .i32⟩
  | 12 => ⟨S16500000, .i32⟩
  | 13 => ⟨S500000x16, .f32⟩
  | 14 => ⟨S_, .f32⟩
  | 15 => ⟨S16500000, .f32⟩
  | 16 => ⟨S_, .f32⟩
  | 17 => ⟨S500000, .f32⟩
  | 18 => ⟨S16500000x1, .i32⟩
  | 19 => ⟨S500000, .f32⟩
  | 20 => ⟨S_, .f32⟩
  | 21 => ⟨S500000, .f32⟩
  | 22 => ⟨S500000, .i1⟩
  | 23 => ⟨S500000, .f32⟩
  | 24 => ⟨S_, .f32⟩
  | 25 => ⟨S_, .f32⟩
  | 26 => ⟨S500000, .f32⟩
  | 27 => ⟨S500000, .f32⟩
  | 28 => ⟨S_, .i32⟩
  | 29 => ⟨S16500000, .i32⟩
  | 30 => ⟨S16500000, .i1⟩
  | 31 => ⟨S_, .i32⟩
  | 32 => ⟨S16500000, .i32⟩
  | 33 => ⟨S16500000, .i32⟩
  | 34 => ⟨S16500000, .i32⟩
  | 35 => ⟨S16500000x1, .i32⟩
  | 36 => ⟨S16500000, .f32⟩
  | 37 => ⟨S_, .i32⟩
  | 38 => ⟨S16500000, .i32⟩
  | 39 => ⟨S16500000, .i1⟩
  | 40 => ⟨S_, .i32⟩
  | 41 => ⟨S16500000, .i32⟩
  | 42 => ⟨S16500000, .i32⟩
  | 43 => ⟨S16500000, .i32⟩
  | 44 => ⟨S16500000x1, .i32⟩
  | 45 => ⟨S16500000, .f32⟩
  | 46 => ⟨S16500000, .f32⟩
  | 47 => ⟨S16500000x1, .f32⟩
  | 48 => ⟨S_, .i32⟩
  | 49 => ⟨S16500000, .i32⟩
  | 50 => ⟨S16500000, .i1⟩
  | 51 => ⟨S_, .i32⟩
  | 52 => ⟨S16500000, .i32⟩
  | 53 => ⟨S16500000, .i32⟩
  | 54 => ⟨S16500000, .i32⟩
  | 55 => ⟨S16500000x1, .i32⟩
  | 56 => ⟨S16500000x16, .f32⟩
  | 57 => ⟨S16500000x16, .f32⟩
  | 58 => ⟨S16500000x16, .f32⟩
  | 59 => ⟨S_, .f32⟩
  | 60 => ⟨S500000x16, .f32⟩
  | 61 => ⟨S16500000x1, .i32⟩
  | 62 => ⟨S500000x16, .f32⟩
  | 63 => ⟨S1x16, .f32⟩
  | 64 => ⟨S500000x16, .f32⟩
  | 65 => ⟨S500000x16, .f32⟩
  | 66 => ⟨S_, .f32⟩
  | 67 => ⟨S500000x16, .f32⟩
  | 68 => ⟨S500000x16, .f32⟩
  | 69 => ⟨S500000x7, .f32⟩
  | 70 => ⟨S_, .f32⟩
  | 71 => ⟨S16500000, .f32⟩
  | 72 => ⟨S_, .f32⟩
  | 73 => ⟨S500000, .f32⟩
  | 74 => ⟨S16500000x1, .i32⟩
  | 75 => ⟨S500000, .f32⟩
  | 76 => ⟨S_, .f32⟩
  | 77 => ⟨S500000, .f32⟩
  | 78 => ⟨S500000, .i1⟩
  | 79 => ⟨S500000, .f32⟩
  | 80 => ⟨S_, .f32⟩
  | 81 => ⟨S_, .f32⟩
  | 82 => ⟨S500000, .f32⟩
  | 83 => ⟨S500000, .f32⟩
  | 84 => ⟨S_, .i32⟩
  | 85 => ⟨S16500000, .i32⟩
  | 86 => ⟨S16500000, .i1⟩
  | 87 => ⟨S_, .i32⟩
  | 88 => ⟨S16500000, .i32⟩
  | 89 => ⟨S16500000, .i32⟩
  | 90 => ⟨S16500000, .i32⟩
  | 91 => ⟨S16500000x1, .i32⟩
  | 92 => ⟨S16500000, .f32⟩
  | 93 => ⟨S_, .i32⟩
  | 94 => ⟨S16500000, .i32⟩
  | 95 => ⟨S16500000, .i1⟩
  | 96 => ⟨S_, .i32⟩
  | 97 => ⟨S16500000, .i32⟩
  | 98 => ⟨S16500000, .i32⟩
  | 99 => ⟨S16500000, .i32⟩
  | 100 => ⟨S16500000x1, .i32⟩
  | 101 => ⟨S16500000, .f32⟩
  | 102 => ⟨S16500000, .f32⟩
  | 103 => ⟨S16500000x1, .f32⟩
  | 104 => ⟨S_, .i32⟩
  | 105 => ⟨S16500000, .i32⟩
  | 106 => ⟨S16500000, .i1⟩
  | 107 => ⟨S_, .i32⟩
  | 108 => ⟨S16500000, .i32⟩
  | 109 => ⟨S16500000, .i32⟩
  | 110 => ⟨S16500000, .i32⟩
  | 111 => ⟨S16500000x1, .i32⟩
  | 112 => ⟨S16500000x7, .f32⟩
  | 113 => ⟨S16500000x7, .f32⟩
  | 114 => ⟨S16500000x7, .f32⟩
  | 115 => ⟨S_, .f32⟩
  | 116 => ⟨S500000x7, .f32⟩
  | 117 => ⟨S16500000x1, .i32⟩
  | 118 => ⟨S500000x7, .f32⟩
  | 119 => ⟨S1x7, .f32⟩
  | 120 => ⟨S500000x7, .f32⟩
  | 121 => ⟨S500000x7, .f32⟩
  | 122 => ⟨S_, .f32⟩
  | 123 => ⟨S500000, .f32⟩
  | 124 => ⟨S_, .f32⟩
  | 125 => ⟨S500000, .f32⟩
  | 126 => ⟨S500000, .f32⟩
  | 127 => ⟨S500000x1, .f32⟩
  | _ => ⟨S500000x3, .f32⟩

abbrev hbmTy0_1 (i : Nat) : BufTy := match i % 128 with
  | 0 => ⟨S500000x7, .f32⟩
  | 1 => ⟨S500000x7, .f32⟩
  | 2 => ⟨S500000x7, .f32⟩
  | 3 => ⟨S_, .f32⟩
  | 4 => ⟨S500000, .f32⟩
  | 5 => ⟨S500000x1, .f32⟩
  | 6 => ⟨S500000x1, .f32⟩
  | 7 => ⟨S500000x7, .f32⟩
  | 8 => ⟨S500000x7, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  bcast_S16500000x1_S16500000x16_0_1 : S16500000x1.BroadcastsInDim S16500000x16 (![0, 1] : Fin 2 → Fin S16500000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S16500000x1_S16500000x7_0_1 : S16500000x1.BroadcastsInDim S16500000x7 (![0, 1] : Fin 2 → Fin S16500000x7.rank)
  bcast_S_S500000x7 : S_.BroadcastsInDim S500000x7 (![] : Fin 0 → Fin S500000x7.rank)
  bcast_S7_S1x7_1 : S7.BroadcastsInDim S1x7 (![1] : Fin 1 → Fin S1x7.rank)
  bcast_S1x7_S500000x7_0_1 : S1x7.BroadcastsInDim S500000x7 (![0, 1] : Fin 2 → Fin S500000x7.rank)
  reducesTo_S500000x7_S500000_d1 : S500000x7.ReducesTo [1] S500000
  h_S_ : 0 < S_.numel
  bcast_S500000_S500000x1_0 : S500000.BroadcastsInDim S500000x1 (![0] : Fin 1 → Fin S500000x1.rank)
  bcast_S500000x1_S500000x7_0_1 : S500000x1.BroadcastsInDim S500000x7 (![0, 1] : Fin 2 → Fin S500000x7.rank)
  dot_S500000x3_S3x16_S500000x16_1_0_0_1_n_n_wf : DotDims.WF S500000x3 S3x16 S500000x16 [1] [0] [0] [1] [] []
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  gather_S500000x16_S16500000x1_S16500000x16_1_0_n_n_0_1_116_wf : GatherDims.WF S500000x16 S16500000x1 S16500000x16 [1] [0] [] [0] [] 1 ![1, 16]
  scatter_S500000x16_S16500000x1_S16500000x16_1_0_0_1_wf : ScatterDims.WF S500000x16 S16500000x1 S16500000x16 [1] [0] [0] 1
  dot_S500000x16_S16x7_S500000x7_1_0_0_1_n_n_wf : DotDims.WF S500000x16 S16x7 S500000x7 [1] [0] [0] [1] [] []
  gather_S500000x7_S16500000x1_S16500000x7_1_0_n_n_0_1_17_wf : GatherDims.WF S500000x7 S16500000x1 S16500000x7 [1] [0] [] [0] [] 1 ![1, 7]
  scatter_S500000x7_S16500000x1_S16500000x7_1_0_0_1_wf : ScatterDims.WF S500000x7 S16500000x1 S16500000x7 [1] [0] [0] 1

variable [Facts₀]

def dot_S500000x3_S3x16_S500000x16_1_0_0_1_n_n : DotDims S500000x3 S3x16 S500000x16 where
  lhsContracting := [1]
  rhsContracting := [0]
  lhsNonContracting := [0]
  rhsNonContracting := [1]
  lhsBatch := []
  rhsBatch := []
  wf := dot_S500000x3_S3x16_S500000x16_1_0_0_1_n_n_wf
def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def gather_S500000x16_S16500000x1_S16500000x16_1_0_n_n_0_1_116 : GatherDims S500000x16 S16500000x1 S16500000x16 where
  offsetDims := [1]
  collapsedSliceDims := [0]
  operandBatchingDims := []
  startIndicesBatchingDims := []
  startIndexMap := [0]
  indexVectorDim := 1
  sliceSizes := ![1, 16]
  wf := gather_S500000x16_S16500000x1_S16500000x16_1_0_n_n_0_1_116_wf
def scatter_S500000x16_S16500000x1_S16500000x16_1_0_0_1 : ScatterDims S500000x16 S16500000x1 S16500000x16 where
  updateWindowDims := [1]
  insertedWindowDims := [0]
  scatterDimsToOperandDims := [0]
  indexVectorDim := 1
  wf := scatter_S500000x16_S16500000x1_S16500000x16_1_0_0_1_wf
def dot_S500000x16_S16x7_S500000x7_1_0_0_1_n_n : DotDims S500000x16 S16x7 S500000x7 where
  lhsContracting := [1]
  rhsContracting := [0]
  lhsNonContracting := [0]
  rhsNonContracting := [1]
  lhsBatch := []
  rhsBatch := []
  wf := dot_S500000x16_S16x7_S500000x7_1_0_0_1_n_n_wf
def gather_S500000x7_S16500000x1_S16500000x7_1_0_n_n_0_1_17 : GatherDims S500000x7 S16500000x1 S16500000x7 where
  offsetDims := [1]
  collapsedSliceDims := [0]
  operandBatchingDims := []
  startIndicesBatchingDims := []
  startIndexMap := [0]
  indexVectorDim := 1
  sliceSizes := ![1, 7]
  wf := gather_S500000x7_S16500000x1_S16500000x7_1_0_n_n_0_1_17_wf
def scatter_S500000x7_S16500000x1_S16500000x7_1_0_0_1 : ScatterDims S500000x7 S16500000x1 S16500000x7 where
  updateWindowDims := [1]
  insertedWindowDims := [0]
  scatterDimsToOperandDims := [0]
  indexVectorDim := 1
  wf := scatter_S500000x7_S16500000x1_S16500000x7_1_0_0_1_wf

class Facts : Prop extends Facts₀ where

variable [Facts]
-- ==== Proof.RefValue.lean ====
import proofs.«156346_j3951369912440_2_alg».proof.Proof.RefRead

/-!
# The reference program's result buffer, read back stage by stage

The reference program is a straight line of 131 operations, each writing one buffer from the buffers written before it
and the six arguments. Its result is the fold of the line over the launch contents, read at the last buffer. The line
is cut into thirteen consecutive stretches at the values that later stretches share (the two edge lists, the inverse
square roots of the degrees, the edge coefficients, the first aggregation, the first layer's output times the second
weights, …, and, inside the closing log-softmax, at its two reductions along the classes). Folding a concatenation is folding its parts in turn; each stretch is read on its own, from ANY contents
that hold the values it reads, as the next named value of the reference; a buffer a stretch does not write keeps its
contents across it. Chaining the thirteen stretches gives the result as the reference's last named value of the arguments.
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP (ops)
open Cert.ReferenceIdeal.ReadP

variable {F : FTy → Type} [FloatOps F]

/-- Folding two lines one after the other is folding their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Each operation of a literal stretch writes one buffer, a member of the stretch's list of written buffers. -/
macro "writes_sub" : tactic =>
  `(tactic| (simp only [List.Forall, nullary_writes, unary_writes, binary_writes, ternary_writes, reshape_writes,
               Finset.singleton_subset_iff, List.mem_toFinset]
             repeat' apply And.intro
             all_goals exact List.mem_map_of_mem (by decide)))

/-! ## The thirteen stretches -/

/-- Operations 1 to 7 of the program. -/
abbrev s1 : List (HloOp τ sig (Elt F)) := (ops (F := F)).take 7
/-- The buffers they write, in order. -/
abbrev w1 : List (Ref sig .tc) := [main_v0, main_v1, main_v2, main_v3, main_v4, main_v5, main_v6]

/-- Operations 8 to 22 of the program. -/
abbrev s2 : List (HloOp τ sig (Elt F)) := ((ops (F := F)).drop 7).take 15
/-- The buffers they write, in order. -/
abbrev w2 : List (Ref sig .tc) := [main_v7, main_cst, main_v8, main_cst_0, main_v9, main_v10, main_v11, main_cst_1, main_v12, main_v13, main_v14, main_cst_2, main_call0_v0, main_call0_v1, main_v15]

/-- Operations 23 to 41 of the program. -/
abbrev s3 : List (HloOp τ sig (Elt F)) := ((ops (F := F)).drop 22).take 19
/-- The buffers they write, in order. -/
abbrev w3 : List (Ref sig .tc) := [main_c, main_v16, main_v17, main_c_3, main_v18, main_v19, main_v20, main_v21, main_v22, main_c_4, main_v23, main_v24, main_c_5, main_v25, main_v26, main_v27, main_v28, main_v29, main_v30]

/-- Operations 42 to 57 of the program. -/
abbrev s4 : List (HloOp τ sig (Elt F)) := ((ops (F := F)).drop 41).take 16
/-- The buffers they write, in order. -/
abbrev w4 : List (Ref sig .tc) := [main_v31, main_c_6, main_v32, main_v33, main_c_7, main_v34, main_v35, main_v36, main_v37, main_v38, main_v39, main_v40, main_cst_8, main_v41, main_v42, main_v43]

/-- Operations 58 to 64 of the program. -/
abbrev s5 : List (HloOp τ sig (Elt F)) := ((ops (F := F)).drop 57).take 7
/-- The buffers they write, in order. -/
abbrev w5 : List (Ref sig .tc) := [main_v44, main_v45, main_v46, main_call1_cst, main_call1_v0, main_v47, main_v48]

/-- Operations 65 to 78 of the program. -/
abbrev s6 : List (HloOp τ sig (Elt F)) := ((ops (F := F)).drop 64).take 14
/-- The buffers they write, in order. -/
abbrev w6 : List (Ref sig .tc) := [main_cst_9, main_v49, main_cst_10, main_v50, main_v51, main_v52, main_cst_11, main_v53, main_v54, main_v55, main_cst_12, main_call2_v0, main_call2_v1, main_v56]

/-- Operations 79 to 97 of the program. -/
abbrev s7 : List (HloOp τ sig (Elt F)) := ((ops (F := F)).drop 78).take 19
/-- The buffers they write, in order. -/
abbrev w7 : List (Ref sig .tc) := [main_c_13, main_v57, main_v58, main_c_14, main_v59, main_v60, main_v61, main_v62, main_v63, main_c_15, main_v64, main_v65, main_c_16, main_v66, main_v67, main_v68, main_v69, main_v70, main_v71]

/-- Operations 98 to 113 of the program. -/
abbrev s8 : List (HloOp τ sig (Elt F)) := ((ops (F := F)).drop 97).take 16
/-- The buffers they write, in order. -/
abbrev w8 : List (Ref sig .tc) := [main_v72, main_c_17, main_v73, main_v74, main_c_18, main_v75, main_v76, main_v77, main_v78, main_v79, main_v80, main_v81, main_cst_19, main_v82, main_v83, main_v84]

/-- Operations 114 to 116 of the program. -/
abbrev s9 : List (HloOp τ sig (Elt F)) := ((ops (F := F)).drop 113).take 3
/-- The buffers they write, in order. -/
abbrev w9 : List (Ref sig .tc) := [main_v85, main_v86, main_v87]

/-- Operations 117 to 118 of the program. -/
abbrev s10 : List (HloOp τ sig (Elt F)) := ((ops (F := F)).drop 116).take 2
/-- The buffers they write, in order. -/
abbrev w10 : List (Ref sig .tc) := [main_call3_cst, main_call3_v0]

/-- Operations 119 to 125 of the program. -/
abbrev s11 : List (HloOp τ sig (Elt F)) := ((ops (F := F)).drop 118).take 7
/-- The buffers they write, in order. -/
abbrev w11 : List (Ref sig .tc) := [main_call3_cst_0, main_call3_v1, main_call3_v2, main_call3_v3, main_call3_v4, main_call3_v5, main_call3_v6]

/-- Operations 126 to 127 of the program. -/
abbrev s12 : List (HloOp τ sig (Elt F)) := ((ops (F := F)).drop 125).take 2
/-- The buffers they write, in order. -/
abbrev w12 : List (Ref sig .tc) := [main_call3_cst_1, main_call3_v7]

/-- Operations 128 to 131 of the program. -/
abbrev s13 : List (HloOp τ sig (Elt F)) := (ops (F := F)).drop 127
/-- The buffers they write, in order. -/
abbrev w13 : List (Ref sig .tc) := [main_call3_v8, main_call3_v9, main_call3_v10, main_v88]

set_option maxRecDepth 8192 in
/-- The line is its thirteen stretches in order. -/
theorem ops_eq : ops (F := F) = s1 ++ (s2 ++ (s3 ++ (s4 ++ (s5 ++ (s6 ++ (s7 ++ (s8 ++ (s9 ++ (s10 ++ (s11 ++ (s12 ++ s13))))))))))) := rfl

/-! ## What each stretch writes, and what it keeps -/

theorem writes1 : (s1 (F := F)).Forall fun op => op.writes ⊆ (w1.map (Proc.devRef (τ := τ) .tc)).toFinset := by
  show List.Forall _ [_, _, _, _, _, _, _]
  writes_sub
/-- A buffer the stretch does not write keeps its contents. -/
theorem keep1 (W : Valuation τ sig (Elt F)) (r : Ref sig .tc) (hr : r ∉ w1) :
    after (s1 (F := F)) W (Proc.devRef .tc r) = W (Proc.devRef .tc r) :=
  after_of_writes_sub _ W writes1 hr

theorem writes2 : (s2 (F := F)).Forall fun op => op.writes ⊆ (w2.map (Proc.devRef (τ := τ) .tc)).toFinset := by
  show List.Forall _ [_, _, _, _, _, _, _, _, _, _, _, _, _, _, _]
  writes_sub
/-- A buffer the stretch does not write keeps its contents. -/
theorem keep2 (W : Valuation τ sig (Elt F)) (r : Ref sig .tc) (hr : r ∉ w2) :
    after (s2 (F := F)) W (Proc.devRef .tc r) = W (Proc.devRef .tc r) :=
  after_of_writes_sub _ W writes2 hr

theorem writes3 : (s3 (F := F)).Forall fun op => op.writes ⊆ (w3.map (Proc.devRef (τ := τ) .tc)).toFinset := by
  show List.Forall _ [_, _, _, _, _, _, _, _, _, _, _, _, _, _, _, _, _, _, _]
  writes_sub
/-- A buffer the stretch does not write keeps its contents. -/
theorem keep3 (W : Valuation τ sig (Elt F)) (r : Ref sig .tc) (hr : r ∉ w3) :
    after (s3 (F := F)) W (Proc.devRef .tc r) = W (Proc.devRef .tc r) :=
  after_of_writes_sub _ W writes3 hr

theorem writes4 : (s4 (F := F)).Forall fun op => op.writes ⊆ (w4.map (Proc.devRef (τ := τ) .tc)).toFinset := by
  show List.Forall _ [_, _, _, _, _, _, _, _, _, _, _, _, _, _, _, _]
  writes_sub
/-- A buffer the stretch does not write keeps its contents. -/
theorem keep4 (W : Valuation τ sig (Elt F)) (r : Ref sig .tc) (hr : r ∉ w4) :
    after (s4 (F := F)) W (Proc.devRef .tc r) = W (Proc.devRef .tc r) :=
  after_of_writes_sub _ W writes4 hr

theorem writes5 : (s5 (F := F)).Forall fun op => op.writes ⊆ (w5.map (Proc.devRef (τ := τ) .tc)).toFinset := by
  show List.Forall _ [_, _, _, _, _, _, _]
  writes_sub
/-- A buffer the stretch does not write keeps its contents. -/
theorem keep5 (W : Valuation τ sig (Elt F)) (r : Ref sig .tc) (hr : r ∉ w5) :
    after (s5 (F := F)) W (Proc.devRef .tc r) = W (Proc.devRef .tc r) :=
  after_of_writes_sub _ W writes5 hr

theorem writes6 : (s6 (F := F)).Forall fun op => op.writes ⊆ (w6.map (Proc.devRef (τ := τ) .tc)).toFinset := by
  show List.Forall _ [_, _, _, _, _, _, _, _, _, _, _, _, _, _]
  writes_sub
/-- A buffer the stretch does not write keeps its contents. -/
theorem keep6 (W : Valuation τ sig (Elt F)) (r : Ref sig .tc) (hr : r ∉ w6) :
    after (s6 (F := F)) W (Proc.devRef .tc r) = W (Proc.devRef .tc r) :=
  after_of_writes_sub _ W writes6 hr

theorem writes7 : (s7 (F := F)).Forall fun op => op.writes ⊆ (w7.map (Proc.devRef (τ := τ) .tc)).toFinset := by
  show List.Forall _ [_, _, _, _, _, _, _, _, _, _, _, _, _, _, _, _, _, _, _]
  writes_sub
/-- A buffer the stretch does not write keeps its contents. -/
theorem keep7 (W : Valuation τ sig (Elt F)) (r : Ref sig .tc) (hr : r ∉ w7) :
    after (s7 (F := F)) W (Proc.devRef .tc r) = W (Proc.devRef .tc r) :=
  after_of_writes_sub _ W writes7 hr

theorem writes8 : (s8 (F := F)).Forall fun op => op.writes ⊆ (w8.map (Proc.devRef (τ := τ) .tc)).toFinset := by
  show List.Forall _ [_, _, _, _, _, _, _, _, _, _, _, _, _, _, _, _]
  writes_sub
/-- A buffer the stretch does not write keeps its contents. -/
theorem keep8 (W : Valuation τ sig (Elt F)) (r : Ref sig .tc) (hr : r ∉ w8) :
    after (s8 (F := F)) W (Proc.devRef .tc r) = W (Proc.devRef .tc r) :=
  after_of_writes_sub _ W writes8 hr

theorem writes9 : (s9 (F := F)).Forall fun op => op.writes ⊆ (w9.map (Proc.devRef (τ := τ) .tc)).toFinset := by
  show List.Forall _ [_, _, _]
  writes_sub
/-- A buffer the stretch does not write keeps its contents. -/
theorem keep9 (W : Valuation τ sig (Elt F)) (r : Ref sig .tc) (hr : r ∉ w9) :
    after (s9 (F := F)) W (Proc.devRef .tc r) = W (Proc.devRef .tc r) :=
  after_of_writes_sub _ W writes9 hr

theorem writes10 : (s10 (F := F)).Forall fun op => op.writes ⊆ (w10.map (Proc.devRef (τ := τ) .tc)).toFinset := by
  show List.Forall _ [_, _]
  writes_sub
/-- A buffer the stretch does not write keeps its contents. -/
theorem keep10 (W : Valuation τ sig (Elt F)) (r : Ref sig .tc) (hr : r ∉ w10) :
    after (s10 (F := F)) W (Proc.devRef .tc r) = W (Proc.devRef .tc r) :=
  after_of_writes_sub _ W writes10 hr

theorem writes11 : (s11 (F := F)).Forall fun op => op.writes ⊆ (w11.map (Proc.devRef (τ := τ) .tc)).toFinset := by
  show List.Forall _ [_, _, _, _, _, _, _]
  writes_sub
/-- A buffer the stretch does not write keeps its contents. -/
theorem keep11 (W : Valuation τ sig (Elt F)) (r : Ref sig .tc) (hr : r ∉ w11) :
    after (s11 (F := F)) W (Proc.devRef .tc r) = W (Proc.devRef .tc r) :=
  after_of_writes_sub _ W writes11 hr

theorem writes12 : (s12 (F := F)).Forall fun op => op.writes ⊆ (w12.map (Proc.devRef (τ := τ) .tc)).toFinset := by
  show List.Forall _ [_, _]
  writes_sub
/-- A buffer the stretch does not write keeps its contents. -/
theorem keep12 (W : Valuation τ sig (Elt F)) (r : Ref sig .tc) (hr : r ∉ w12) :
    after (s12 (F := F)) W (Proc.devRef .tc r) = W (Proc.devRef .tc r) :=
  after_of_writes_sub _ W writes12 hr

theorem writes13 : (s13 (F := F)).Forall fun op => op.writes ⊆ (w13.map (Proc.devRef (τ := τ) .tc)).toFinset := by
  show List.Forall _ [_, _, _, _]
  writes_sub
/-- A buffer the stretch does not write keeps its contents. -/
theorem keep13 (W : Valuation τ sig (Elt F)) (r : Ref sig .tc) (hr : r ∉ w13) :
    after (s13 (F := F)) W (Proc.devRef .tc r) = W (Proc.devRef .tc r) :=
  after_of_writes_sub _ W writes13 hr

/-! ## The called function's typed buffers

The last stretch is a called function's body: its operations move each value between the value's own type and the
type of the buffer that holds it. At these literal buffers the two types are the same by computation and the move is
the identity; stated once per buffer, so that the moves can be rewritten away before two long terms are compared. -/

theorem toBuf_v87 (h h2 h3) (v : (⟨S500000x7, .f32⟩ : BufTy).Contents (Elt F)) :
    (TRef.of (T := ⟨S500000x7, .f32⟩) main_v87 h h2 h3).toBuf (Val := Elt F) v = v := rfl
theorem ofBuf_v87 (h h2 h3) (v : (⟨S500000x7, .f32⟩ : BufTy).Contents (Elt F)) :
    (TRef.of (T := ⟨S500000x7, .f32⟩) main_v87 h h2 h3).ofBuf (Val := Elt F) v = v := rfl
theorem toBuf_call3_cst (h h2 h3) (v : (⟨S_, .f32⟩ : BufTy).Contents (Elt F)) :
    (TRef.of (T := ⟨S_, .f32⟩) main_call3_cst h h2 h3).toBuf (Val := Elt F) v = v := rfl
theorem ofBuf_call3_cst (h h2 h3) (v : (⟨S_, .f32⟩ : BufTy).Contents (Elt F)) :
    (TRef.of (T := ⟨S_, .f32⟩) main_call3_cst h h2 h3).ofBuf (Val := Elt F) v = v := rfl
theorem toBuf_call3_v0 (h h2 h3) (v : (⟨S500000, .f32⟩ : BufTy).Contents (Elt F)) :
    (TRef.of (T := ⟨S500000, .f32⟩) main_call3_v0 h h2 h3).toBuf (Val := Elt F) v = v := rfl
theorem ofBuf_call3_v0 (h h2 h3) (v : (⟨S500000, .f32⟩ : BufTy).Contents (Elt F)) :
    (TRef.of (T := ⟨S500000, .f32⟩) main_call3_v0 h h2 h3).ofBuf (Val := Elt F) v = v := rfl
theorem toBuf_call3_cst_0 (h h2 h3) (v : (⟨S_, .f32⟩ : BufTy).Contents (Elt F)) :
    (TRef.of (T := ⟨S_, .f32⟩) main_call3_cst_0 h h2 h3).toBuf (Val := Elt F) v = v := rfl
theorem ofBuf_call3_cst_0 (h h2 h3) (v : (⟨S_, .f32⟩ : BufTy).Contents (Elt F)) :
    (TRef.of (T := ⟨S_, .f32⟩) main_call3_cst_0 h h2 h3).ofBuf (Val := Elt F) v = v := rfl
theorem toBuf_call3_v1 (h h2 h3) (v : (⟨S500000, .f32⟩ : BufTy).Contents (Elt F)) :
    (TRef.of (T := ⟨S500000, .f32⟩) main_call3_v1 h h2 h3).toBuf (Val := Elt F) v = v := rfl
theorem ofBuf_call3_v1 (h h2 h3) (v : (⟨S500000, .f32⟩ : BufTy).Contents (Elt F)) :
    (TRef.of (T := ⟨S500000, .f32⟩) main_call3_v1 h h2 h3).ofBuf (Val := Elt F) v = v := rfl
theorem toBuf_call3_v2 (h h2 h3) (v : (⟨S500000, .f32⟩ : BufTy).Contents (Elt F)) :
    (TRef.of (T := ⟨S500000, .f32⟩) main_call3_v2 h h2 h3).toBuf (Val := Elt F) v = v := rfl
theorem ofBuf_call3_v2 (h h2 h3) (v : (⟨S500000, .f32⟩ : BufTy).Contents (Elt F)) :
    (TRef.of (T := ⟨S500000, .f32⟩) main_call3_v2 h h2 h3).ofBuf (Val := Elt F) v = v := rfl
theorem toBuf_call3_v3 (h h2 h3) (v : (⟨S500000x1, .f32⟩ : BufTy).Contents (Elt F)) :
    (TRef.of (T := ⟨S500000x1, .f32⟩) main_call3_v3 h h2 h3).toBuf (Val := Elt F) v = v := rfl
theorem ofBuf_call3_v3 (h h2 h3) (v : (⟨S500000x1, .f32⟩ : BufTy).Contents (Elt F)) :
    (TRef.of (T := ⟨S500000x1, .f32⟩) main_call3_v3 h h2 h3).ofBuf (Val := Elt F) v = v := rfl
theorem toBuf_call3_v4 (h h2 h3) (v : (⟨S500000x7, .f32⟩ : BufTy).Contents (Elt F)) :
    (TRef.of (T := ⟨S500000x7, .f32⟩) main_call3_v4 h h2 h3).toBuf (Val := Elt F) v = v := rfl
theorem ofBuf_call3_v4 (h h2 h3) (v : (⟨S500000x7, .f32⟩ : BufTy).Contents (Elt F)) :
    (TRef.of (T := ⟨S500000x7, .f32⟩) main_call3_v4 h h2 h3).ofBuf (Val := Elt F) v = v := rfl
theorem toBuf_call3_v5 (h h2 h3) (v : (⟨S500000x7, .f32⟩ : BufTy).Contents (Elt F)) :
    (TRef.of (T := ⟨S500000x7, .f32⟩) main_call3_v5 h h2 h3).toBuf (Val := Elt F) v = v := rfl
theorem ofBuf_call3_v5 (h h2 h3) (v : (⟨S500000x7, .f32⟩ : BufTy).Contents (Elt F)) :
    (TRef.of (T := ⟨S500000x7, .f32⟩) main_call3_v5 h h2 h3).ofBuf (Val := Elt F) v = v := rfl
theorem toBuf_call3_v6 (h h2 h3) (v : (⟨S500000x7, .f32⟩ : BufTy).Contents (Elt F)) :
    (TRef.of (T := ⟨S500000x7, .f32⟩) main_call3_v6 h h2 h3).toBuf (Val := Elt F) v = v := rfl
theorem ofBuf_call3_v6 (h h2 h3) (v : (⟨S500000x7, .f32⟩ : BufTy).Contents (Elt F)) :
    (TRef.of (T := ⟨S500000x7, .f32⟩) main_call3_v6 h h2 h3).ofBuf (Val := Elt F) v = v := rfl
theorem toBuf_call3_cst_1 (h h2 h3) (v : (⟨S_, .f32⟩ : BufTy).Contents (Elt F)) :
    (TRef.of (T := ⟨S_, .f32⟩) main_call3_cst_1 h h2 h3).toBuf (Val := Elt F) v = v := rfl
theorem ofBuf_call3_cst_1 (h h2 h3) (v : (⟨S_, .f32⟩ : BufTy).Contents (Elt F)) :
    (TRef.of (T := ⟨S_, .f32⟩) main_call3_cst_1 h h2 h3).ofBuf (Val := Elt F) v = v := rfl
theorem toBuf_call3_v7 (h h2 h3) (v : (⟨S500000, .f32⟩ : BufTy).Contents (Elt F)) :
    (TRef.of (T := ⟨S500000, .f32⟩) main_call3_v7 h h2 h3).toBuf (Val := Elt F) v = v := rfl
theorem ofBuf_call3_v7 (h h2 h3) (v : (⟨S500000, .f32⟩ : BufTy).Contents (Elt F)) :
    (TRef.of (T := ⟨S500000, .f32⟩) main_call3_v7 h h2 h3).ofBuf (Val := Elt F) v = v := rfl
theorem toBuf_call3_v8 (h h2 h3) (v : (⟨S500000x1, .f32⟩ : BufTy).Contents (Elt F)) :
    (TRef.of (T := ⟨S500000x1, .f32⟩) main_call3_v8 h h2 h3).toBuf (Val := Elt F) v = v := rfl
theorem ofBuf_call3_v8 (h h2 h3) (v : (⟨S500000x1, .f32⟩ : BufTy).Contents (Elt F)) :
    (TRef.of (T := ⟨S500000x1, .f32⟩) main_call3_v8 h h2 h3).ofBuf (Val := Elt F) v = v := rfl
theorem toBuf_call3_v9 (h h2 h3) (v : (⟨S500000x1, .f32⟩ : BufTy).Contents (Elt F)) :
    (TRef.of (T := ⟨S500000x1, .f32⟩) main_call3_v9 h h2 h3).toBuf (Val := Elt F) v = v := rfl
theorem ofBuf_call3_v9 (h h2 h3) (v : (⟨S500000x1, .f32⟩ : BufTy).Contents (Elt F)) :
    (TRef.of (T := ⟨S500000x1, .f32⟩) main_call3_v9 h h2 h3).ofBuf (Val := Elt F) v = v := rfl
theorem toBuf_call3_v10 (h h2 h3) (v : (⟨S500000x7, .f32⟩ : BufTy).Contents (Elt F)) :
    (TRef.of (T := ⟨S500000x7, .f32⟩) main_call3_v10 h h2 h3).toBuf (Val := Elt F) v = v := rfl
theorem ofBuf_call3_v10 (h h2 h3) (v : (⟨S500000x7, .f32⟩ : BufTy).Contents (Elt F)) :
    (TRef.of (T := ⟨S500000x7, .f32⟩) main_call3_v10 h h2 h3).ofBuf (Val := Elt F) v = v := rfl
theorem toBuf_v88 (h h2 h3) (v : (⟨S500000x7, .f32⟩ : BufTy).Contents (Elt F)) :
    (TRef.of (T := ⟨S500000x7, .f32⟩) main_v88 h h2 h3).toBuf (Val := Elt F) v = v := rfl
theorem ofBuf_v88 (h h2 h3) (v : (⟨S500000x7, .f32⟩ : BufTy).Contents (Elt F)) :
    (TRef.of (T := ⟨S500000x7, .f32⟩) main_v88 h h2 h3).ofBuf (Val := Elt F) v = v := rfl

/-! ## Each stretch read at the value it hands on -/

set_option maxRecDepth 8192 in
set_option maxHeartbeats 2000000 in
theorem read1_v3 (W : Valuation τ sig (Elt F)) (x1 : (⟨S2x16000000, .i32⟩ : BufTy).Contents (Elt F))
    (h1 : W (Proc.devRef .tc main_arg1) = x1) :
    after (s1 (F := F)) W (Proc.devRef .tc main_v3) = val_main_v3 (F := F) x1 := by
  show after [_, _, _, _, _, _, _] W _ = _
  after_results
  rw [h1]
  rfl

set_option maxRecDepth 8192 in
set_option maxHeartbeats 2000000 in
theorem read1_v6 (W : Valuation τ sig (Elt F)) (x1 : (⟨S2x16000000, .i32⟩ : BufTy).Contents (Elt F))
    (h1 : W (Proc.devRef .tc main_arg1) = x1) :
    after (s1 (F := F)) W (Proc.devRef .tc main_v6) = val_main_v6 (F := F) x1 := by
  show after [_, _, _, _, _, _, _] W _ = _
  after_results
  rw [h1]
  rfl

set_option maxRecDepth 8192 in
set_option maxHeartbeats 2000000 in
theorem read2_v7 (W : Valuation τ sig (Elt F)) (x0 : (⟨S500000x3, .f32⟩ : BufTy).Contents (Elt F)) (x2 : (⟨S3x16, .f32⟩ : BufTy).Contents (Elt F))
    (h0 : W (Proc.devRef .tc main_arg0) = x0) (h2 : W (Proc.devRef .tc main_arg2) = x2) :
    after (s2 (F := F)) W (Proc.devRef .tc main_v7) = val_main_v7 (F := F) x0 x2 := by
  show after [_, _, _, _, _, _, _, _, _, _, _, _, _, _, _] W _ = _
  after_results
  rw [h0, h2]
  rfl

set_option maxRecDepth 8192 in
set_option maxHeartbeats 2000000 in
theorem read2_v15 (W : Valuation τ sig (Elt F)) (x1 : (⟨S2x16000000, .i32⟩ : BufTy).Contents (Elt F))
    (h6 : W (Proc.devRef .tc main_v6) = val_main_v6 (F := F) x1) :
    after (s2 (F := F)) W (Proc.devRef .tc main_v15) = val_main_v15 (F := F) x1 := by
  show after [_, _, _, _, _, _, _, _, _, _, _, _, _, _, _] W _ = _
  after_results
  rw [h6]
  rfl

set_option maxRecDepth 8192 in
set_option maxHeartbeats 2000000 in
theorem read3_v30 (W : Valuation τ sig (Elt F)) (x1 : (⟨S2x16000000, .i32⟩ : BufTy).Contents (Elt F))
    (h3 : W (Proc.devRef .tc main_v3) = val_main_v3 (F := F) x1) (h6 : W (Proc.devRef .tc main_v6) = val_main_v6 (F := F) x1) (h15 : W (Proc.devRef .tc main_v15) = val_main_v15 (F := F) x1) :
    after (s3 (F := F)) W (Proc.devRef .tc main_v30) = val_main_v30 (F := F) x1 := by
  show after [_, _, _, _, _, _, _, _, _, _, _, _, _, _, _, _, _, _, _] W _ = _
  after_results_simp
  rw [h3, h6, h15]
  rfl

set_option maxRecDepth 8192 in
set_option maxHeartbeats 2000000 in
theorem read4_v43 (W : Valuation τ sig (Elt F)) (x0 : (⟨S500000x3, .f32⟩ : BufTy).Contents (Elt F)) (x1 : (⟨S2x16000000, .i32⟩ : BufTy).Contents (Elt F)) (x2 : (⟨S3x16, .f32⟩ : BufTy).Contents (Elt F))
    (h30 : W (Proc.devRef .tc main_v30) = val_main_v30 (F := F) x1) (h3 : W (Proc.devRef .tc main_v3) = val_main_v3 (F := F) x1) (h7 : W (Proc.devRef .tc main_v7) = val_main_v7 (F := F) x0 x2) (h6 : W (Proc.devRef .tc main_v6) = val_main_v6 (F := F) x1) :
    after (s4 (F := F)) W (Proc.devRef .tc main_v43) = val_main_v43 (F := F) x0 x1 x2 := by
  show after [_, _, _, _, _, _, _, _, _, _, _, _, _, _, _, _] W _ = _
  after_results_simp
  rw [h30, h3, h7, h6]
  rfl

set_option maxRecDepth 8192 in
set_option maxHeartbeats 2000000 in
theorem read5_v48 (W : Valuation τ sig (Elt F)) (x0 : (⟨S500000x3, .f32⟩ : BufTy).Contents (Elt F)) (x1 : (⟨S2x16000000, .i32⟩ : BufTy).Contents (Elt F)) (x2 : (⟨S3x16, .f32⟩ : BufTy).Contents (Elt F)) (x3 : (⟨S16, .f32⟩ : BufTy).Contents (Elt F)) (x4 : (⟨S16x7, .f32⟩ : BufTy).Contents (Elt F))
    (h43 : W (Proc.devRef .tc main_v43) = val_main_v43 (F := F) x0 x1 x2) (e3 : W (Proc.devRef .tc main_arg3) = x3) (e4 : W (Proc.devRef .tc main_arg4) = x4) :
    after (s5 (F := F)) W (Proc.devRef .tc main_v48) = val_main_v48 (F := F) x0 x1 x2 x3 x4 := by
  show after [_, _, _, _, _, _, _] W _ = _
  after_results
  rw [h43, e3, e4]
  rfl

set_option maxRecDepth 8192 in
set_option maxHeartbeats 2000000 in
theorem read6_v56 (W : Valuation τ sig (Elt F)) (x1 : (⟨S2x16000000, .i32⟩ : BufTy).Contents (Elt F))
    (h6 : W (Proc.devRef .tc main_v6) = val_main_v6 (F := F) x1) :
    after (s6 (F := F)) W (Proc.devRef .tc main_v56) = val_main_v56 (F := F) x1 := by
  show after [_, _, _, _, _, _, _, _, _, _, _, _, _, _] W _ = _
  after_results
  rw [h6]
  rfl

set_option maxRecDepth 8192 in
set_option maxHeartbeats 2000000 in
theorem read7_v71 (W : Valuation τ sig (Elt F)) (x1 : (⟨S2x16000000, .i32⟩ : BufTy).Contents (Elt F))
    (h3 : W (Proc.devRef .tc main_v3) = val_main_v3 (F := F) x1) (h6 : W (Proc.devRef .tc main_v6) = val_main_v6 (F := F) x1) (h56 : W (Proc.devRef .tc main_v56) = val_main_v56 (F := F) x1) :
    after (s7 (F := F)) W (Proc.devRef .tc main_v71) = val_main_v71 (F := F) x1 := by
  show after [_, _, _, _, _, _, _, _, _, _, _, _, _, _, _, _, _, _, _] W _ = _
  after_results_simp
  rw [h3, h6, h56]
  rfl

set_option maxRecDepth 8192 in
set_option maxHeartbeats 2000000 in
theorem read8_v84 (W : Valuation τ sig (Elt F)) (x0 : (⟨S500000x3, .f32⟩ : BufTy).Contents (Elt F)) (x1 : (⟨S2x16000000, .i32⟩ : BufTy).Contents (Elt F)) (x2 : (⟨S3x16, .f32⟩ : BufTy).Contents (Elt F)) (x3 : (⟨S16, .f32⟩ : BufTy).Contents (Elt F)) (x4 : (⟨S16x7, .f32⟩ : BufTy).Contents (Elt F))
    (h71 : W (Proc.devRef .tc main_v71) = val_main_v71 (F := F) x1) (h3 : W (Proc.devRef .tc main_v3) = val_main_v3 (F := F) x1) (h48 : W (Proc.devRef .tc main_v48) = val_main_v48 (F := F) x0 x1 x2 x3 x4) (h6 : W (Proc.devRef .tc main_v6) = val_main_v6 (F := F) x1) :
    after (s8 (F := F)) W (Proc.devRef .tc main_v84) = val_main_v84 (F := F) x0 x1 x2 x3 x4 := by
  show after [_, _, _, _, _, _, _, _, _, _, _, _, _, _, _, _] W _ = _
  after_results_simp
  rw [h71, h3, h48, h6]
  rfl

set_option maxRecDepth 8192 in
set_option maxHeartbeats 2000000 in
theorem read9_v87 (W : Valuation τ sig (Elt F)) (x0 : (⟨S500000x3, .f32⟩ : BufTy).Contents (Elt F)) (x1 : (⟨S2x16000000, .i32⟩ : BufTy).Contents (Elt F)) (x2 : (⟨S3x16, .f32⟩ : BufTy).Contents (Elt F)) (x3 : (⟨S16, .f32⟩ : BufTy).Contents (Elt F)) (x4 : (⟨S16x7, .f32⟩ : BufTy).Contents (Elt F)) (x5 : (⟨S7, .f32⟩ : BufTy).Contents (Elt F))
    (h84 : W (Proc.devRef .tc main_v84) = val_main_v84 (F := F) x0 x1 x2 x3 x4) (e5 : W (Proc.devRef .tc main_arg5) = x5) :
    after (s9 (F := F)) W (Proc.devRef .tc main_v87) = val_main_v87 (F := F) x0 x1 x2 x3 x4 x5 := by
  show after [_, _, _] W _ = _
  after_results
  rw [h84, e5]
  rfl

set_option maxRecDepth 8192 in
set_option maxHeartbeats 2000000 in
theorem read10_call3_v0 (W : Valuation τ sig (Elt F)) (x0 : (⟨S500000x3, .f32⟩ : BufTy).Contents (Elt F)) (x1 : (⟨S2x16000000, .i32⟩ : BufTy).Contents (Elt F)) (x2 : (⟨S3x16, .f32⟩ : BufTy).Contents (Elt F)) (x3 : (⟨S16, .f32⟩ : BufTy).Contents (Elt F)) (x4 : (⟨S16x7, .f32⟩ : BufTy).Contents (Elt F)) (x5 : (⟨S7, .f32⟩ : BufTy).Contents (Elt F))
    (h87 : W (Proc.devRef .tc main_v87) = val_main_v87 (F := F) x0 x1 x2 x3 x4 x5) :
    after (s10 (F := F)) W (Proc.devRef .tc main_call3_v0) = val_main_call3_v0 (F := F) x0 x1 x2 x3 x4 x5 := by
  show after [_, _] W _ = _
  after_results
  rw [h87]
  rw [toBuf_call3_v0, ofBuf_v87, ofBuf_call3_cst, toBuf_call3_cst]
  rfl

set_option maxRecDepth 8192 in
set_option maxHeartbeats 2000000 in
theorem read11_call3_v5 (W : Valuation τ sig (Elt F)) (x0 : (⟨S500000x3, .f32⟩ : BufTy).Contents (Elt F)) (x1 : (⟨S2x16000000, .i32⟩ : BufTy).Contents (Elt F)) (x2 : (⟨S3x16, .f32⟩ : BufTy).Contents (Elt F)) (x3 : (⟨S16, .f32⟩ : BufTy).Contents (Elt F)) (x4 : (⟨S16x7, .f32⟩ : BufTy).Contents (Elt F)) (x5 : (⟨S7, .f32⟩ : BufTy).Contents (Elt F))
    (h87 : W (Proc.devRef .tc main_v87) = val_main_v87 (F := F) x0 x1 x2 x3 x4 x5) (k0 : W (Proc.devRef .tc main_call3_v0) = val_main_call3_v0 (F := F) x0 x1 x2 x3 x4 x5) :
    after (s11 (F := F)) W (Proc.devRef .tc main_call3_v5) = val_main_call3_v5 (F := F) x0 x1 x2 x3 x4 x5 := by
  show after [_, _, _, _, _, _, _] W _ = _
  after_results
  rw [h87, k0]
  rw [toBuf_call3_v5, ofBuf_v87, ofBuf_call3_v4, toBuf_call3_v4, ofBuf_call3_v3, toBuf_call3_v3, ofBuf_call3_v2, toBuf_call3_v2, ofBuf_call3_v1, toBuf_call3_v1, ofBuf_call3_cst_0, toBuf_call3_cst_0, ofBuf_call3_v0]
  rfl

set_option maxRecDepth 8192 in
set_option maxHeartbeats 2000000 in
theorem read11_call3_v6 (W : Valuation τ sig (Elt F)) (x0 : (⟨S500000x3, .f32⟩ : BufTy).Contents (Elt F)) (x1 : (⟨S2x16000000, .i32⟩ : BufTy).Contents (Elt F)) (x2 : (⟨S3x16, .f32⟩ : BufTy).Contents (Elt F)) (x3 : (⟨S16, .f32⟩ : BufTy).Contents (Elt F)) (x4 : (⟨S16x7, .f32⟩ : BufTy).Contents (Elt F)) (x5 : (⟨S7, .f32⟩ : BufTy).Contents (Elt F))
    (h87 : W (Proc.devRef .tc main_v87) = val_main_v87 (F := F) x0 x1 x2 x3 x4 x5) (k0 : W (Proc.devRef .tc main_call3_v0) = val_main_call3_v0 (F := F) x0 x1 x2 x3 x4 x5) :
    after (s11 (F := F)) W (Proc.devRef .tc main_call3_v6) = val_main_call3_v6 (F := F) x0 x1 x2 x3 x4 x5 := by
  show after [_, _, _, _, _, _, _] W _ = _
  after_results
  rw [h87, k0]
  rw [toBuf_call3_v6, ofBuf_call3_v5, toBuf_call3_v5, ofBuf_v87, ofBuf_call3_v4, toBuf_call3_v4, ofBuf_call3_v3, toBuf_call3_v3, ofBuf_call3_v2, toBuf_call3_v2, ofBuf_call3_v1, toBuf_call3_v1, ofBuf_call3_cst_0, toBuf_call3_cst_0, ofBuf_call3_v0]
  rfl

set_option maxRecDepth 8192 in
set_option maxHeartbeats 2000000 in
theorem read12_call3_v7 (W : Valuation τ sig (Elt F)) (x0 : (⟨S500000x3, .f32⟩ : BufTy).Contents (Elt F)) (x1 : (⟨S2x16000000, .i32⟩ : BufTy).Contents (Elt F)) (x2 : (⟨S3x16, .f32⟩ : BufTy).Contents (Elt F)) (x3 : (⟨S16, .f32⟩ : BufTy).Contents (Elt F)) (x4 : (⟨S16x7, .f32⟩ : BufTy).Contents (Elt F)) (x5 : (⟨S7, .f32⟩ : BufTy).Contents (Elt F))
    (k6 : W (Proc.devRef .tc main_call3_v6) = val_main_call3_v6 (F := F) x0 x1 x2 x3 x4 x5) :
    after (s12 (F := F)) W (Proc.devRef .tc main_call3_v7) = val_main_call3_v7 (F := F) x0 x1 x2 x3 x4 x5 := by
  show after [_, _] W _ = _
  after_results
  rw [k6]
  rw [toBuf_call3_v7, ofBuf_call3_v6, ofBuf_call3_cst_1, toBuf_call3_cst_1]
  rfl

set_option maxRecDepth 8192 in
set_option maxHeartbeats 2000000 in
theorem read13_v88 (W : Valuation τ sig (Elt F)) (x0 : (⟨S500000x3, .f32⟩ : BufTy).Contents (Elt F)) (x1 : (⟨S2x16000000, .i32⟩ : BufTy).Contents (Elt F)) (x2 : (⟨S3x16, .f32⟩ : BufTy).Contents (Elt F)) (x3 : (⟨S16, .f32⟩ : BufTy).Contents (Elt F)) (x4 : (⟨S16x7, .f32⟩ : BufTy).Contents (Elt F)) (x5 : (⟨S7, .f32⟩ : BufTy).Contents (Elt F))
    (k5 : W (Proc.devRef .tc main_call3_v5) = val_main_call3_v5 (F := F) x0 x1 x2 x3 x4 x5) (k7 : W (Proc.devRef .tc main_call3_v7) = val_main_call3_v7 (F := F) x0 x1 x2 x3 x4 x5) :
    after (s13 (F := F)) W (Proc.devRef .tc main_v88) = val_main_v88 (F := F) x0 x1 x2 x3 x4 x5 := by
  show after [_, _, _, _] W _ = _
  after_results
  rw [k5, k7]
  rw [toBuf_v88, ofBuf_call3_v5, ofBuf_call3_v10, toBuf_call3_v10, ofBuf_call3_v9, toBuf_call3_v9, ofBuf_call3_v8, toBuf_call3_v8, ofBuf_call3_v7]
  rfl

/-! ## The chain -/

/-- The whole line from any contents that hold the six arguments: the result buffer holds the reference's last
    named value of them. -/
theorem result_of (V : Valuation τ sig (Elt F)) (x0 : (⟨S500000x3, .f32⟩ : BufTy).Contents (Elt F)) (x1 : (⟨S2x16000000, .i32⟩ : BufTy).Contents (Elt F)) (x2 : (⟨S3x16, .f32⟩ : BufTy).Contents (Elt F)) (x3 : (⟨S16, .f32⟩ : BufTy).Contents (Elt F)) (x4 : (⟨S16x7, .f32⟩ : BufTy).Contents (Elt F)) (x5 : (⟨S7, .f32⟩ : BufTy).Contents (Elt F))
    (e0 : V (Proc.devRef .tc main_arg0) = x0) (e1 : V (Proc.devRef .tc main_arg1) = x1) (e2 : V (Proc.devRef .tc main_arg2) = x2)
    (e3 : V (Proc.devRef .tc main_arg3) = x3) (e4 : V (Proc.devRef .tc main_arg4) = x4) (e5 : V (Proc.devRef .tc main_arg5) = x5) :
    after (ops (F := F)) V (Proc.devRef .tc main_v88) = val_main_v88 (F := F) x0 x1 x2 x3 x4 x5 := by
  rw [ops_eq]
  simp only [after_append]
  -- after the first stretch: the two edge lists; the other arguments as they were
  have a3 := read1_v3 V x1 e1
  have a6 := read1_v6 V x1 e1
  have a_0 := (keep1 V main_arg0 (by decide)).trans e0
  have a_2 := (keep1 V main_arg2 (by decide)).trans e2
  have a_3 := (keep1 V main_arg3 (by decide)).trans e3
  have a_4 := (keep1 V main_arg4 (by decide)).trans e4
  have a_5 := (keep1 V main_arg5 (by decide)).trans e5
  -- after the second: the first product and the inverse square roots
  have b7 := read2_v7 _ x0 x2 a_0 a_2
  have b15 := read2_v15 _ x1 a6
  have b3 := (keep2 _ main_v3 (by decide)).trans a3
  have b6 := (keep2 _ main_v6 (by decide)).trans a6
  have b_3 := (keep2 _ main_arg3 (by decide)).trans a_3
  have b_4 := (keep2 _ main_arg4 (by decide)).trans a_4
  have b_5 := (keep2 _ main_arg5 (by decide)).trans a_5
  -- after the third: the edge coefficients
  have c30 := read3_v30 _ x1 b3 b6 b15
  have c3 := (keep3 _ main_v3 (by decide)).trans b3
  have c6 := (keep3 _ main_v6 (by decide)).trans b6
  have c7 := (keep3 _ main_v7 (by decide)).trans b7
  have c_3 := (keep3 _ main_arg3 (by decide)).trans b_3
  have c_4 := (keep3 _ main_arg4 (by decide)).trans b_4
  have c_5 := (keep3 _ main_arg5 (by decide)).trans b_5
  -- after the fourth: the first aggregation
  have d43 := read4_v43 _ x0 x1 x2 c30 c3 c7 c6
  have d3 := (keep4 _ main_v3 (by decide)).trans c3
  have d6 := (keep4 _ main_v6 (by decide)).trans c6
  have d_3 := (keep4 _ main_arg3 (by decide)).trans c_3
  have d_4 := (keep4 _ main_arg4 (by decide)).trans c_4
  have d_5 := (keep4 _ main_arg5 (by decide)).trans c_5
  -- after the fifth: the first layer's output times the second weights
  have f48 := read5_v48 _ x0 x1 x2 x3 x4 d43 d_3 d_4
  have f3 := (keep5 _ main_v3 (by decide)).trans d3
  have f6 := (keep5 _ main_v6 (by decide)).trans d6
  have f_5 := (keep5 _ main_arg5 (by decide)).trans d_5
  -- after the sixth: the inverse square roots again
  have g56 := read6_v56 _ x1 f6
  have g3 := (keep6 _ main_v3 (by decide)).trans f3
  have g6 := (keep6 _ main_v6 (by decide)).trans f6
  have g48 := (keep6 _ main_v48 (by decide)).trans f48
  have g_5 := (keep6 _ main_arg5 (by decide)).trans f_5
  -- after the seventh: the edge coefficients again
  have i71 := read7_v71 _ x1 g3 g6 g56
  have i3 := (keep7 _ main_v3 (by decide)).trans g3
  have i6 := (keep7 _ main_v6 (by decide)).trans g6
  have i48 := (keep7 _ main_v48 (by decide)).trans g48
  have i_5 := (keep7 _ main_arg5 (by decide)).trans g_5
  -- after the eighth: the second aggregation
  have j84 := read8_v84 _ x0 x1 x2 x3 x4 i71 i3 i48 i6
  have j_5 := (keep8 _ main_arg5 (by decide)).trans i_5
  -- after the ninth: the second layer's output with its bias
  have l87 := read9_v87 _ x0 x1 x2 x3 x4 x5 j84 j_5
  -- after the tenth: its largest entry along the classes
  have m0 := read10_call3_v0 _ x0 x1 x2 x3 x4 x5 l87
  have m87 := (keep10 _ main_v87 (by decide)).trans l87
  -- after the eleventh: the output minus that largest entry, and its exponential
  have n5 := read11_call3_v5 _ x0 x1 x2 x3 x4 x5 m87 m0
  have n6 := read11_call3_v6 _ x0 x1 x2 x3 x4 x5 m87 m0
  -- after the twelfth: the sum of the exponentials along the classes
  have p7 := read12_call3_v7 _ x0 x1 x2 x3 x4 x5 n6
  have p5 := (keep12 _ main_call3_v5 (by decide)).trans n5
  -- the thirteenth: minus the logarithm of that sum
  exact read13_v88 _ x0 x1 x2 x3 x4 x5 p5 p7

/-- The reference program's result buffer, from the launch contents: its last named value of the six arguments. -/
theorem result_eq (m : (ℓ : Loc nD τ sig) → Buf (Elt F) ℓ) (c : Dev nD) :
    after (ops (F := F)) (launchContents m c) (Proc.devRef .tc main_v88)
      = val_main_v88 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  result_of (launchContents m c) _ _ _ _ _ _ rfl rfl rfl rfl rfl rfl

end Cert.ReferenceIdeal.RefValue

end
-- ==== Proof.KernelRun.lean ====
import proofs.«156346_j3951369912440_2_alg».proof.Proof.Gen.KernelIdeal.Frame

/-!
# The kernel program's run, with its result named

Every weakly fair execution of the six-region program ends with the result array holding what the last
region's write-backs leave in it (the last boundary's contents read at the result buffer), and the arguments as launched.
-/

-- membership in a rectangle of production extents (`View.cover_of_tiled`): the elaborator's structural look
-- recurses once per coordinate of the long axes
set_option maxRecDepth 16384

noncomputable section

namespace Cert.KernelIdeal.NamedRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the launch theorem's implicit arguments are found by unifying its conclusion with this one, which takes unfolding
-- plain definitions in a metavariable's type
set_option backward.isDefEq.respectTransparency.types false in
theorem run_named : θ_run defs (onTc (τ := τ) (main (F := F))) ⟨m, fun _ => 0, ρ⟩ (fun r => ∀ c : Dev nD,
      r.2.mem ((c.tc : Thread nD τ).loc main_v59) = W13 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v59 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.NamedRun

end
-- ==== Proof.Matmul16.lean ====
import proofs.«156346_j3951369912440_2_alg».proof.Proof.Gen.KernelIdeal.Frame
import proofs.«156346_j3951369912440_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-!
# The first matrix product, as one function of its two arrays

The kernel walks the 500000 rows of the left array in 100 blocks of 5000 rows and has the whole 3×16 right array at
every block; block `t` of the output holds, at row `r` and column `f`, the sum over the 3 contraction indices `k` of
the left array at `(5000 t + r, k)` times the right array at `(k, f)`. (The block's operands pass through a narrower
float format first; over the extended reals a change of format is the identity.) The blocks tile the array, so the
array after the region is, at every `(e, f)`, the sum over `k` of left `(e, k)` times right `(k, f)`: the matrix
product, which is also what the reference's contraction is at every index.
-/

noncomputable section

namespace Cert.KernelIdeal.Matmul16

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The left array's index for output index `i` and contraction index `k`: row of `i`, column `k`. -/
abbrev lhsAt (i : S500000x16.Idx) (k : Fin 3) : S500000x3.Idx := fun a => match a with
  | ⟨0, _⟩ => ⟨(i 0).val, (i 0).isLt⟩
  | ⟨1, _⟩ => ⟨k.val, k.isLt⟩

/-- The right array's index for output index `i` and contraction index `k`: row `k`, column of `i`. -/
abbrev rhsAt (i : S500000x16.Idx) (k : Fin 3) : S3x16.Idx := fun a => match a with
  | ⟨0, _⟩ => ⟨k.val, k.isLt⟩
  | ⟨1, _⟩ => ⟨(i 1).val, (i 1).isLt⟩

/-- The matrix product of the two arrays. -/
def product (x : FVec Ideal S500000x3 .f32) (w : FVec Ideal S3x16 .f32) : FVec Ideal S500000x16 .f32 :=
  fun i => ∑ k : Fin 3, x (lhsAt i k) * w (rhsAt i k)

/-- The product read at an index. -/
theorem product_apply (x : FVec Ideal S500000x3 .f32) (w : FVec Ideal S3x16 .f32) (i : S500000x16.Idx) :
    product x w i = ∑ k : Fin 3, x (lhsAt i k) * w (rhsAt i k) := rfl

/-! ## Inside a block -/

/-- The same two indices inside a block of 5000 rows. -/
abbrev blkL (j : S5000x16.Idx) (k : Fin 3) : S5000x3.Idx := fun a => match a with
  | ⟨0, _⟩ => ⟨(j 0).val, (j 0).isLt⟩
  | ⟨1, _⟩ => ⟨k.val, k.isLt⟩
abbrev blkR (j : S5000x16.Idx) (k : Fin 3) : S3x16.Idx := fun a => match a with
  | ⟨0, _⟩ => ⟨k.val, k.isLt⟩
  | ⟨1, _⟩ => ⟨(j 1).val, (j 1).isLt⟩

/-- The block contraction's operand indices, coordinate by coordinate: a free axis carries the output's coordinate,
    the contracted axis the contraction index. -/
theorem blk_lhs_0 (j : S5000x16.Idx) (q : Cert.KernelIdeal.dot_S5000x3_S3x16_S5000x16_1_0_0_1_n_n.contr.Idx) : (Cert.KernelIdeal.dot_S5000x3_S3x16_S5000x16_1_0_0_1_n_n.lhsIdx j q 0).val = (j 0).val := by
  unfold DotDims.lhsIdx
  rw [dif_neg (show ¬(0 : Fin S5000x3.rank) ∈ Cert.KernelIdeal.dot_S5000x3_S3x16_S5000x16_1_0_0_1_n_n.lhsBatch by decide), dif_pos (show (0 : Fin S5000x3.rank) ∈ Cert.KernelIdeal.dot_S5000x3_S3x16_S5000x16_1_0_0_1_n_n.lhsNonContracting by decide)]
  rfl
theorem blk_lhs_1 (j : S5000x16.Idx) (q : Cert.KernelIdeal.dot_S5000x3_S3x16_S5000x16_1_0_0_1_n_n.contr.Idx) : (Cert.KernelIdeal.dot_S5000x3_S3x16_S5000x16_1_0_0_1_n_n.lhsIdx j q 1).val = (q ⟨0, by decide⟩).val :=
  Cert.KernelIdeal.dot_S5000x3_S3x16_S5000x16_1_0_0_1_n_n.lhsIdx_val_of_single rfl j q
theorem blk_rhs_0 (j : S5000x16.Idx) (q : Cert.KernelIdeal.dot_S5000x3_S3x16_S5000x16_1_0_0_1_n_n.contr.Idx) : (Cert.KernelIdeal.dot_S5000x3_S3x16_S5000x16_1_0_0_1_n_n.rhsIdx j q 0).val = (q ⟨0, by decide⟩).val :=
  Cert.KernelIdeal.dot_S5000x3_S3x16_S5000x16_1_0_0_1_n_n.rhsIdx_val_of_single rfl j q
theorem blk_rhs_1 (j : S5000x16.Idx) (q : Cert.KernelIdeal.dot_S5000x3_S3x16_S5000x16_1_0_0_1_n_n.contr.Idx) : (Cert.KernelIdeal.dot_S5000x3_S3x16_S5000x16_1_0_0_1_n_n.rhsIdx j q 1).val = (j 1).val := by
  unfold DotDims.rhsIdx
  rw [dif_neg (show ¬(1 : Fin S3x16.rank) ∈ Cert.KernelIdeal.dot_S5000x3_S3x16_S5000x16_1_0_0_1_n_n.rhsBatch by decide), dif_pos (show (1 : Fin S3x16.rank) ∈ Cert.KernelIdeal.dot_S5000x3_S3x16_S5000x16_1_0_0_1_n_n.rhsNonContracting by decide)]
  rfl

/-- Inside a block: the sum over the contraction index of the products of the two blocks' entries. -/
theorem payload_apply (x0 : FVec Ideal S5000x3 .f32) (x1 : FVec Ideal S3x16 .f32) (j : S5000x16.Idx) :
    k0_pay1 (F := Ideal) x0 x1 j = ∑ k : Fin 3, x0 (blkL j k) * x1 (blkR j k) := by
  unfold k0_pay1
  show FloatOps.matmul (F := Ideal) Cert.KernelIdeal.dot_S5000x3_S3x16_S5000x16_1_0_0_1_n_n none (truncf (F := Ideal) .bf16 x0 bitsLt_bf16_f32) (truncf (F := Ideal) .bf16 x1 bitsLt_bf16_f32)
    (constant (F := Ideal) S5000x16 .f32 0x00000000#32) j = _
  refine (Ideal.matmul_constant_zero_apply Cert.KernelIdeal.dot_S5000x3_S3x16_S5000x16_1_0_0_1_n_n none _ _ j).trans ?_
  rw [← Equiv.sum_comp (ValueIdx.contrEquiv1 Cert.KernelIdeal.dot_S5000x3_S3x16_S5000x16_1_0_0_1_n_n 3 rfl rfl).symm]
  refine Finset.sum_congr rfl fun k _ => ?_
  have hk := ValueIdx.contrEquiv1_symm_val Cert.KernelIdeal.dot_S5000x3_S3x16_S5000x16_1_0_0_1_n_n 3 rfl rfl k
  have el : Cert.KernelIdeal.dot_S5000x3_S3x16_S5000x16_1_0_0_1_n_n.lhsIdx j ((ValueIdx.contrEquiv1 Cert.KernelIdeal.dot_S5000x3_S3x16_S5000x16_1_0_0_1_n_n 3 rfl rfl).symm k) = blkL j k := funext fun a => Fin.ext (by
    match a with
    | ⟨0, _⟩ => exact blk_lhs_0 _ _
    | ⟨1, _⟩ => exact (blk_lhs_1 _ _).trans hk)
  have er : Cert.KernelIdeal.dot_S5000x3_S3x16_S5000x16_1_0_0_1_n_n.rhsIdx j ((ValueIdx.contrEquiv1 Cert.KernelIdeal.dot_S5000x3_S3x16_S5000x16_1_0_0_1_n_n 3 rfl rfl).symm k) = blkR j k := funext fun a => Fin.ext (by
    match a with
    | ⟨0, _⟩ => exact (blk_rhs_0 _ _).trans hk
    | ⟨1, _⟩ => exact blk_rhs_1 _ _)
  show x0 (Cert.KernelIdeal.dot_S5000x3_S3x16_S5000x16_1_0_0_1_n_n.lhsIdx j _) * x1 (Cert.KernelIdeal.dot_S5000x3_S3x16_S5000x16_1_0_0_1_n_n.rhsIdx j _) = _
  rw [el, er]

/-! ## The blocks in the arrays -/

/-- The left window and the output window move together (block row `t`, column block 0); the right window stays
    at the whole right array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x3) zero_offsets, View.ld_unit_zero (S := S3x16) zero_offsets]
  obtain ⟨e0, e1, e2, e3, e4, e5⟩ := index_facts t
  funext j
  show k0_pay1 (F := Ideal) (iblk0 V c 0 t) (iblk0 V c 1 t) j
    = product (V c main_arg0) (V c main_arg2) (((cfg0.win 2).blk t).view.emb j)
  refine ((payload_apply _ _ j).trans ?_).trans (product_apply _ _ _).symm
  refine Finset.sum_congr rfl fun k _ => ?_
  have h0 : iblk0 V c 0 t (blkL j k) = V c main_arg0 (lhsAt (((cfg0.win 2).blk t).view.emb j) k) := by
    show V c main_arg0 (((cfg0.win 0).blk t).view.emb (blkL j k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 3 + 1 * k.val = k.val; omega
  have h1 : iblk0 V c 1 t (blkR j k) = V c main_arg2 (rhsAt (((cfg0.win 2).blk t).view.emb j) k) := by
    show V c main_arg2 (((cfg0.win 1).blk t).view.emb (blkR j k)) = _
    refine congrArg (V c main_arg2) ?_
    funext a; apply Fin.ext
    match a with
    | ⟨0, _⟩ => show win0_1.index t (0 : Fin 2) * 3 + 1 * k.val = k.val; omega
    | ⟨1, _⟩ => show win0_1.index t (1 : Fin 2) * 16 + 1 * (j 1).val = win0_2.index t (1 : Fin 2) * 16 + 1 * (j 1).val; omega
  rw [h0, h1]

/-- An index is in point `t`'s block iff each coordinate is in the block's range on its axis. -/
theorem mem_block (t : Fin cfg0.N) (i : S500000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Every index is in the block of the point its row falls in. -/
theorem covered (i : S500000x16.Idx) :
    ∃ t : Fin cfg0.N, (cfg0.win 2).flush t = true ∧ i ∈ ((cfg0.win 2).blk t).view.set := by
  have hi0 : (i 0).val < 500000 := (i 0).isLt
  have hi1 : (i 1).val < 16 := (i 1).isLt
  have hN : cfg0.N = 100 := N_0
  let t : Fin cfg0.N := ⟨(i 0).val / 5000, by rw [hN]; omega⟩
  obtain ⟨e0, e1, e2, e3, e4, e5⟩ := index_facts t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The array after the region: the product of the two arrays the region was entered with. -/
theorem final (c : Dev nD) :
    (dat0 V c).arrAt 2 cfg0.N = product (V c main_arg0) (V c main_arg2) :=
  (dat0 V c).arrAt_eq_of_cover 2 _ (fun t _ => flushed_eq V c t) covered

/-! ## The reference's contraction is the same sum -/

theorem ref_lhs_0 (i : S500000x16.Idx) (q : Cert.ReferenceIdeal.dot_S500000x3_S3x16_S500000x16_1_0_0_1_n_n.contr.Idx) : (Cert.ReferenceIdeal.dot_S500000x3_S3x16_S500000x16_1_0_0_1_n_n.lhsIdx i q 0).val = (i 0).val := by
  unfold DotDims.lhsIdx
  rw [dif_neg (show ¬(0 : Fin S500000x3.rank) ∈ Cert.ReferenceIdeal.dot_S500000x3_S3x16_S500000x16_1_0_0_1_n_n.lhsBatch by decide), dif_pos (show (0 : Fin S500000x3.rank) ∈ Cert.ReferenceIdeal.dot_S500000x3_S3x16_S500000x16_1_0_0_1_n_n.lhsNonContracting by decide)]
  rfl
theorem ref_lhs_1 (i : S500000x16.Idx) (q : Cert.ReferenceIdeal.dot_S500000x3_S3x16_S500000x16_1_0_0_1_n_n.contr.Idx) : (Cert.ReferenceIdeal.dot_S500000x3_S3x16_S500000x16_1_0_0_1_n_n.lhsIdx i q 1).val = (q ⟨0, by decide⟩).val :=
  Cert.ReferenceIdeal.dot_S500000x3_S3x16_S500000x16_1_0_0_1_n_n.lhsIdx_val_of_single rfl i q
theorem ref_rhs_0 (i : S500000x16.Idx) (q : Cert.ReferenceIdeal.dot_S500000x3_S3x16_S500000x16_1_0_0_1_n_n.contr.Idx) : (Cert.ReferenceIdeal.dot_S500000x3_S3x16_S500000x16_1_0_0_1_n_n.rhsIdx i q 0).val = (q ⟨0, by decide⟩).val :=
  Cert.ReferenceIdeal.dot_S500000x3_S3x16_S500000x16_1_0_0_1_n_n.rhsIdx_val_of_single rfl i q
theorem ref_rhs_1 (i : S500000x16.Idx) (q : Cert.ReferenceIdeal.dot_S500000x3_S3x16_S500000x16_1_0_0_1_n_n.contr.Idx) : (Cert.ReferenceIdeal.dot_S500000x3_S3x16_S500000x16_1_0_0_1_n_n.rhsIdx i q 1).val = (i 1).val := by
  unfold DotDims.rhsIdx
  rw [dif_neg (show ¬(1 : Fin S3x16.rank) ∈ Cert.ReferenceIdeal.dot_S500000x3_S3x16_S500000x16_1_0_0_1_n_n.rhsBatch by decide), dif_pos (show (1 : Fin S3x16.rank) ∈ Cert.ReferenceIdeal.dot_S500000x3_S3x16_S500000x16_1_0_0_1_n_n.rhsNonContracting by decide)]
  rfl

/-- The product is the reference's contraction of the same two arrays. -/
theorem product_eq_dot (x : FVec Ideal S500000x3 .f32) (w : FVec Ideal S3x16 .f32) :
    product x w = Host.dotGeneral (F := Ideal) Cert.ReferenceIdeal.dot_S500000x3_S3x16_S500000x16_1_0_0_1_n_n none x w := by
  funext i
  show ∑ k : Fin 3, x (lhsAt i k) * w (rhsAt i k) = FloatOps.dotGeneral (F := Ideal) Cert.ReferenceIdeal.dot_S500000x3_S3x16_S500000x16_1_0_0_1_n_n none .single x w i
  refine Eq.symm ((Ideal.dotGeneral_apply Cert.ReferenceIdeal.dot_S500000x3_S3x16_S500000x16_1_0_0_1_n_n none .single x w i).trans ?_)
  rw [← Equiv.sum_comp (ValueIdx.contrEquiv1 Cert.ReferenceIdeal.dot_S500000x3_S3x16_S500000x16_1_0_0_1_n_n 3 rfl rfl).symm]
  refine Finset.sum_congr rfl fun k _ => ?_
  have hk := ValueIdx.contrEquiv1_symm_val Cert.ReferenceIdeal.dot_S500000x3_S3x16_S500000x16_1_0_0_1_n_n 3 rfl rfl k
  have el : Cert.ReferenceIdeal.dot_S500000x3_S3x16_S500000x16_1_0_0_1_n_n.lhsIdx i ((ValueIdx.contrEquiv1 Cert.ReferenceIdeal.dot_S500000x3_S3x16_S500000x16_1_0_0_1_n_n 3 rfl rfl).symm k) = lhsAt i k := funext fun a => Fin.ext (by
    match a with
    | ⟨0, _⟩ => exact ref_lhs_0 _ _
    | ⟨1, _⟩ => exact (ref_lhs_1 _ _).trans hk)
  have er : Cert.ReferenceIdeal.dot_S500000x3_S3x16_S500000x16_1_0_0_1_n_n.rhsIdx i ((ValueIdx.contrEquiv1 Cert.ReferenceIdeal.dot_S500000x3_S3x16_S500000x16_1_0_0_1_n_n 3 rfl rfl).symm k) = rhsAt i k := funext fun a => Fin.ext (by
    match a with
    | ⟨0, _⟩ => exact (ref_rhs_0 _ _).trans hk
    | ⟨1, _⟩ => exact ref_rhs_1 _ _)
  rw [el, er]

end Cert.KernelIdeal.Matmul16

end
-- ==== Proof.Matmul7.lean ====
import proofs.«156346_j3951369912440_2_alg».proof.Proof.Gen.KernelIdeal.Frame
import proofs.«156346_j3951369912440_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-!
# The second matrix product, as one function of its two arrays

The kernel walks the 500000 rows of the left array in 100 blocks of 5000 rows and has the whole 16×7 right array at
every block; block `t` of the output holds, at row `r` and column `f`, the sum over the 16 contraction indices `k` of
the left array at `(5000 t + r, k)` times the right array at `(k, f)`. (The block's operands pass through a narrower
float format first; over the extended reals a change of format is the identity.) The blocks tile the array, so the
array after the region is, at every `(e, f)`, the sum over `k` of left `(e, k)` times right `(k, f)`: the matrix
product, which is also what the reference's contraction is at every index.
-/

noncomputable section

namespace Cert.KernelIdeal.Matmul7

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The left array's index for output index `i` and contraction index `k`: row of `i`, column `k`. -/
abbrev lhsAt (i : S500000x7.Idx) (k : Fin 16) : S500000x16.Idx := fun a => match a with
  | ⟨0, _⟩ => ⟨(i 0).val, (i 0).isLt⟩
  | ⟨1, _⟩ => ⟨k.val, k.isLt⟩

/-- The right array's index for output index `i` and contraction index `k`: row `k`, column of `i`. -/
abbrev rhsAt (i : S500000x7.Idx) (k : Fin 16) : S16x7.Idx := fun a => match a with
  | ⟨0, _⟩ => ⟨k.val, k.isLt⟩
  | ⟨1, _⟩ => ⟨(i 1).val, (i 1).isLt⟩

/-- The matrix product of the two arrays. -/
def product (x : FVec Ideal S500000x16 .f32) (w : FVec Ideal S16x7 .f32) : FVec Ideal S500000x7 .f32 :=
  fun i => ∑ k : Fin 16, x (lhsAt i k) * w (rhsAt i k)

/-- The product read at an index. -/
theorem product_apply (x : FVec Ideal S500000x16 .f32) (w : FVec Ideal S16x7 .f32) (i : S500000x7.Idx) :
    product x w i = ∑ k : Fin 16, x (lhsAt i k) * w (rhsAt i k) := rfl

/-! ## Inside a block -/

/-- The same two indices inside a block of 5000 rows. -/
abbrev blkL (j : S5000x7.Idx) (k : Fin 16) : S5000x16.Idx := fun a => match a with
  | ⟨0, _⟩ => ⟨(j 0).val, (j 0).isLt⟩
  | ⟨1, _⟩ => ⟨k.val, k.isLt⟩
abbrev blkR (j : S5000x7.Idx) (k : Fin 16) : S16x7.Idx := fun a => match a with
  | ⟨0, _⟩ => ⟨k.val, k.isLt⟩
  | ⟨1, _⟩ => ⟨(j 1).val, (j 1).isLt⟩

/-- The block contraction's operand indices, coordinate by coordinate: a free axis carries the output's coordinate,
    the contracted axis the contraction index. -/
theorem blk_lhs_0 (j : S5000x7.Idx) (q : Cert.KernelIdeal.dot_S5000x16_S16x7_S5000x7_1_0_0_1_n_n.contr.Idx) : (Cert.KernelIdeal.dot_S5000x16_S16x7_S5000x7_1_0_0_1_n_n.lhsIdx j q 0).val = (j 0).val := by
  unfold DotDims.lhsIdx
  rw [dif_neg (show ¬(0 : Fin S5000x16.rank) ∈ Cert.KernelIdeal.dot_S5000x16_S16x7_S5000x7_1_0_0_1_n_n.lhsBatch by decide), dif_pos (show (0 : Fin S5000x16.rank) ∈ Cert.KernelIdeal.dot_S5000x16_S16x7_S5000x7_1_0_0_1_n_n.lhsNonContracting by decide)]
  rfl
theorem blk_lhs_1 (j : S5000x7.Idx) (q : Cert.KernelIdeal.dot_S5000x16_S16x7_S5000x7_1_0_0_1_n_n.contr.Idx) : (Cert.KernelIdeal.dot_S5000x16_S16x7_S5000x7_1_0_0_1_n_n.lhsIdx j q 1).val = (q ⟨0, by decide⟩).val :=
  Cert.KernelIdeal.dot_S5000x16_S16x7_S5000x7_1_0_0_1_n_n.lhsIdx_val_of_single rfl j q
theorem blk_rhs_0 (j : S5000x7.Idx) (q : Cert.KernelIdeal.dot_S5000x16_S16x7_S5000x7_1_0_0_1_n_n.contr.Idx) : (Cert.KernelIdeal.dot_S5000x16_S16x7_S5000x7_1_0_0_1_n_n.rhsIdx j q 0).val = (q ⟨0, by decide⟩).val :=
  Cert.KernelIdeal.dot_S5000x16_S16x7_S5000x7_1_0_0_1_n_n.rhsIdx_val_of_single rfl j q
theorem blk_rhs_1 (j : S5000x7.Idx) (q : Cert.KernelIdeal.dot_S5000x16_S16x7_S5000x7_1_0_0_1_n_n.contr.Idx) : (Cert.KernelIdeal.dot_S5000x16_S16x7_S5000x7_1_0_0_1_n_n.rhsIdx j q 1).val = (j 1).val := by
  unfold DotDims.rhsIdx
  rw [dif_neg (show ¬(1 : Fin S16x7.rank) ∈ Cert.KernelIdeal.dot_S5000x16_S16x7_S5000x7_1_0_0_1_n_n.rhsBatch by decide), dif_pos (show (1 : Fin S16x7.rank) ∈ Cert.KernelIdeal.dot_S5000x16_S16x7_S5000x7_1_0_0_1_n_n.rhsNonContracting by decide)]
  rfl

/-- Inside a block: the sum over the contraction index of the products of the two blocks' entries. -/
theorem payload_apply (x0 : FVec Ideal S5000x16 .f32) (x1 : FVec Ideal S16x7 .f32) (j : S5000x7.Idx) :
    k3_pay1 (F := Ideal) x0 x1 j = ∑ k : Fin 16, x0 (blkL j k) * x1 (blkR j k) := by
  unfold k3_pay1
  show FloatOps.matmul (F := Ideal) Cert.KernelIdeal.dot_S5000x16_S16x7_S5000x7_1_0_0_1_n_n none
    (truncf (F := Ideal) .bf16 (shapeCast S5000x16 x0 shapeCasts_S5000x16_S5000x16) bitsLt_bf16_f32) (truncf (F := Ideal) .bf16 x1 bitsLt_bf16_f32)
    (constant (F := Ideal) S5000x7 .f32 0x00000000#32) j = _
  rw [shapeCast_self]
  refine (Ideal.matmul_constant_zero_apply Cert.KernelIdeal.dot_S5000x16_S16x7_S5000x7_1_0_0_1_n_n none _ _ j).trans ?_
  rw [← Equiv.sum_comp (ValueIdx.contrEquiv1 Cert.KernelIdeal.dot_S5000x16_S16x7_S5000x7_1_0_0_1_n_n 16 rfl rfl).symm]
  refine Finset.sum_congr rfl fun k _ => ?_
  have hk := ValueIdx.contrEquiv1_symm_val Cert.KernelIdeal.dot_S5000x16_S16x7_S5000x7_1_0_0_1_n_n 16 rfl rfl k
  have el : Cert.KernelIdeal.dot_S5000x16_S16x7_S5000x7_1_0_0_1_n_n.lhsIdx j ((ValueIdx.contrEquiv1 Cert.KernelIdeal.dot_S5000x16_S16x7_S5000x7_1_0_0_1_n_n 16 rfl rfl).symm k) = blkL j k := funext fun a => Fin.ext (by
    match a with
    | ⟨0, _⟩ => exact blk_lhs_0 _ _
    | ⟨1, _⟩ => exact (blk_lhs_1 _ _).trans hk)
  have er : Cert.KernelIdeal.dot_S5000x16_S16x7_S5000x7_1_0_0_1_n_n.rhsIdx j ((ValueIdx.contrEquiv1 Cert.KernelIdeal.dot_S5000x16_S16x7_S5000x7_1_0_0_1_n_n 16 rfl rfl).symm k) = blkR j k := funext fun a => Fin.ext (by
    match a with
    | ⟨0, _⟩ => exact (blk_rhs_0 _ _).trans hk
    | ⟨1, _⟩ => exact blk_rhs_1 _ _)
  show x0 (Cert.KernelIdeal.dot_S5000x16_S16x7_S5000x7_1_0_0_1_n_n.lhsIdx j _) * x1 (Cert.KernelIdeal.dot_S5000x16_S16x7_S5000x7_1_0_0_1_n_n.rhsIdx j _) = _
  rw [el, er]

/-! ## The blocks in the arrays -/

/-- The left window and the output window move together (block row `t`, column block 0); the right window stays
    at the whole right array. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the two arrays as the region finds them. -/
theorem flushed_eq (c : Dev nD) (t : Fin cfg3.N) :
    (dat3 V c).flushed 2 t = ((cfg3.win 2).blk t).view.read (Elt Ideal) (product (V c main_v44) (V c main_arg4)) := by
  show (cfg3.win 2).cut (grid3.coords t) ((dat3 V c).after 2 t) = _
  rw [after3_2]
  unfold out3_2
  rw [View.canon_unit_zero zero_offsets]
  simp only [View.ld_unit_zero (S := S5000x16) zero_offsets, View.ld_unit_zero (S := S16x7) zero_offsets]
  obtain ⟨e0, e1, e2, e3, e4, e5⟩ := index_facts t
  funext j
  show k3_pay1 (F := Ideal) (iblk3 V c 0 t) (iblk3 V c 1 t) j
    = product (V c main_v44) (V c main_arg4) (((cfg3.win 2).blk t).view.emb j)
  refine ((payload_apply _ _ j).trans ?_).trans (product_apply _ _ _).symm
  refine Finset.sum_congr rfl fun k _ => ?_
  have h0 : iblk3 V c 0 t (blkL j k) = V c main_v44 (lhsAt (((cfg3.win 2).blk t).view.emb j) k) := by
    show V c main_v44 (((cfg3.win 0).blk t).view.emb (blkL j k)) = _
    refine congrArg (V c main_v44) ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 16 + 1 * k.val = k.val; omega
  have h1 : iblk3 V c 1 t (blkR j k) = V c main_arg4 (rhsAt (((cfg3.win 2).blk t).view.emb j) k) := by
    show V c main_arg4 (((cfg3.win 1).blk t).view.emb (blkR j k)) = _
    refine congrArg (V c main_arg4) ?_
    funext a; apply Fin.ext
    match a with
    | ⟨0, _⟩ => show win3_1.index t (0 : Fin 2) * 16 + 1 * k.val = k.val; omega
    | ⟨1, _⟩ => show win3_1.index t (1 : Fin 2) * 7 + 1 * (j 1).val = win3_2.index t (1 : Fin 2) * 7 + 1 * (j 1).val; omega
  rw [h0, h1]

/-- An index is in point `t`'s block iff each coordinate is in the block's range on its axis. -/
theorem mem_block (t : Fin cfg3.N) (i : S500000x7.Idx) :
    i ∈ ((cfg3.win 2).blk t).view.set ↔ ∀ a : Fin 2, win3_2.index t a * S5000x7.size a ≤ (i a).val ∧ (i a).val < win3_2.index t a * S5000x7.size a + S5000x7.size a := by
  show i ∈ ((View.whole main_v45).slice (win3_2.rect t)).set ↔ _
  rw [View.set_slice_whole, Rect.mem_set_unit]
  exact Iff.rfl

/-- Every index is in the block of the point its row falls in. -/
theorem covered (i : S500000x7.Idx) :
    ∃ t : Fin cfg3.N, (cfg3.win 2).flush t = true ∧ i ∈ ((cfg3.win 2).blk t).view.set := by
  have hi0 : (i 0).val < 500000 := (i 0).isLt
  have hi1 : (i 1).val < 7 := (i 1).isLt
  have hN : cfg3.N = 100 := N_3
  let t : Fin cfg3.N := ⟨(i 0).val / 5000, by rw [hN]; omega⟩
  obtain ⟨e0, e1, e2, e3, e4, e5⟩ := index_facts t
  have ht : t.val = (i 0).val / 5000 := rfl
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 7 ≤ (i 1).val ∧ (i 1).val < win3_2.index t (1 : Fin 2) * 7 + 7; omega

/-- The array after the region: the product of the two arrays the region was entered with. -/
theorem final (c : Dev nD) :
    (dat3 V c).arrAt 2 cfg3.N = product (V c main_v44) (V c main_arg4) :=
  (dat3 V c).arrAt_eq_of_cover 2 _ (fun t _ => flushed_eq V c t) covered

/-! ## The reference's contraction is the same sum -/

theorem ref_lhs_0 (i : S500000x7.Idx) (q : Cert.ReferenceIdeal.dot_S500000x16_S16x7_S500000x7_1_0_0_1_n_n.contr.Idx) : (Cert.ReferenceIdeal.dot_S500000x16_S16x7_S500000x7_1_0_0_1_n_n.lhsIdx i q 0).val = (i 0).val := by
  unfold DotDims.lhsIdx
  rw [dif_neg (show ¬(0 : Fin S500000x16.rank) ∈ Cert.ReferenceIdeal.dot_S500000x16_S16x7_S500000x7_1_0_0_1_n_n.lhsBatch by decide), dif_pos (show (0 : Fin S500000x16.rank) ∈ Cert.ReferenceIdeal.dot_S500000x16_S16x7_S500000x7_1_0_0_1_n_n.lhsNonContracting by decide)]
  rfl
theorem ref_lhs_1 (i : S500000x7.Idx) (q : Cert.ReferenceIdeal.dot_S500000x16_S16x7_S500000x7_1_0_0_1_n_n.contr.Idx) : (Cert.ReferenceIdeal.dot_S500000x16_S16x7_S500000x7_1_0_0_1_n_n.lhsIdx i q 1).val = (q ⟨0, by decide⟩).val :=
  Cert.ReferenceIdeal.dot_S500000x16_S16x7_S500000x7_1_0_0_1_n_n.lhsIdx_val_of_single rfl i q
theorem ref_rhs_0 (i : S500000x7.Idx) (q : Cert.ReferenceIdeal.dot_S500000x16_S16x7_S500000x7_1_0_0_1_n_n.contr.Idx) : (Cert.ReferenceIdeal.dot_S500000x16_S16x7_S500000x7_1_0_0_1_n_n.rhsIdx i q 0).val = (q ⟨0, by decide⟩).val :=
  Cert.ReferenceIdeal.dot_S500000x16_S16x7_S500000x7_1_0_0_1_n_n.rhsIdx_val_of_single rfl i q
theorem ref_rhs_1 (i : S500000x7.Idx) (q : Cert.ReferenceIdeal.dot_S500000x16_S16x7_S500000x7_1_0_0_1_n_n.contr.Idx) : (Cert.ReferenceIdeal.dot_S500000x16_S16x7_S500000x7_1_0_0_1_n_n.rhsIdx i q 1).val = (i 1).val := by
  unfold DotDims.rhsIdx
  rw [dif_neg (show ¬(1 : Fin S16x7.rank) ∈ Cert.ReferenceIdeal.dot_S500000x16_S16x7_S500000x7_1_0_0_1_n_n.rhsBatch by decide), dif_pos (show (1 : Fin S16x7.rank) ∈ Cert.ReferenceIdeal.dot_S500000x16_S16x7_S500000x7_1_0_0_1_n_n.rhsNonContracting by decide)]
  rfl

/-- The product is the reference's contraction of the same two arrays. -/
theorem product_eq_dot (x : FVec Ideal S500000x16 .f32) (w : FVec Ideal S16x7 .f32) :
    product x w = Host.dotGeneral (F := Ideal) Cert.ReferenceIdeal.dot_S500000x16_S16x7_S500000x7_1_0_0_1_n_n none x w := by
  funext i
  show ∑ k : Fin 16, x (lhsAt i k) * w (rhsAt i k) = FloatOps.dotGeneral (F := Ideal) Cert.ReferenceIdeal.dot_S500000x16_S16x7_S500000x7_1_0_0_1_n_n none .single x w i
  refine Eq.symm ((Ideal.dotGeneral_apply Cert.ReferenceIdeal.dot_S500000x16_S16x7_S500000x7_1_0_0_1_n_n none .single x w i).trans ?_)
  rw [← Equiv.sum_comp (ValueIdx.contrEquiv1 Cert.ReferenceIdeal.dot_S500000x16_S16x7_S500000x7_1_0_0_1_n_n 16 rfl rfl).symm]
  refine Finset.sum_congr rfl fun k _ => ?_
  have hk := ValueIdx.contrEquiv1_symm_val Cert.ReferenceIdeal.dot_S500000x16_S16x7_S500000x7_1_0_0_1_n_n 16 rfl rfl k
  have el : Cert.ReferenceIdeal.dot_S500000x16_S16x7_S500000x7_1_0_0_1_n_n.lhsIdx i ((ValueIdx.contrEquiv1 Cert.ReferenceIdeal.dot_S500000x16_S16x7_S500000x7_1_0_0_1_n_n 16 rfl rfl).symm k) = lhsAt i k := funext fun a => Fin.ext (by
    match a with
    | ⟨0, _⟩ => exact ref_lhs_0 _ _
    | ⟨1, _⟩ => exact (ref_lhs_1 _ _).trans hk)
  have er : Cert.ReferenceIdeal.dot_S500000x16_S16x7_S500000x7_1_0_0_1_n_n.rhsIdx i ((ValueIdx.contrEquiv1 Cert.ReferenceIdeal.dot_S500000x16_S16x7_S500000x7_1_0_0_1_n_n 16 rfl rfl).symm k) = rhsAt i k := funext fun a => Fin.ext (by
    match a with
    | ⟨0, _⟩ => exact (ref_rhs_0 _ _).trans hk
    | ⟨1, _⟩ => exact ref_rhs_1 _ _)
  rw [el, er]

end Cert.KernelIdeal.Matmul7

end
-- ==== Proof.Scale16.lean ====
import proofs.«156346_j3951369912440_2_alg».proof.Proof.Gen.KernelIdeal.Frame
import proofs.«156346_j3951369912440_2_alg».proof.Proof.Gen.ReferenceIdeal
import Idealize.ShloMosaic.Lib.Pipeline.Value
import Idealize.ShloMosaic.Lib.ValueIdx
import Idealize.ShloMosaic.Lib.ValueLayout

/-!
# The first edge-wise scaling, as one function of its two arrays

The kernel walks the 16,500,000 gathered rows (16 features each) in 2750 blocks of 6000 rows; block `t` of the
output holds, at row `r` and feature `f`, the gathered value at `(6000 t + r, f)` times the edge coefficient at
`(6000 t + r, 0)`. The blocks tile the array, so the array after the region is, at every `(e, f)`,
the gathered value at `(e, f)` times the coefficient of edge `e`.
-/

noncomputable section

namespace Cert.KernelIdeal.Scale16

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The coefficient column's index for the edge of `i`: same row, column 0. -/
abbrev edgeOf (i : S16500000x16.Idx) : S16500000x1.Idx := fun a => match a with
  | ⟨0, _⟩ => ⟨(i 0).val, (i 0).isLt⟩
  | ⟨1, _⟩ => ⟨0, Nat.one_pos⟩

/-- Every gathered row times its edge's coefficient. -/
def scaled (h : FVec Ideal S16500000x16 .f32) (n : FVec Ideal S16500000x1 .f32) : FVec Ideal S16500000x16 .f32 :=
  fun i => FloatOps.mulf (F := Ideal) (h i) (n (edgeOf i))

/-- Inside a block: the product of the row's entry with the block's coefficient in that row. -/
theorem payload_apply (x0 : FVec Ideal S6000x16 .f32) (x1 : FVec Ideal S6000x1 .f32) (j : S6000x16.Idx) :
    k1_pay1 (F := Ideal) x0 x1 j = FloatOps.mulf (F := Ideal) (x0 j) (x1 (fun a => match a with
      | ⟨0, _⟩ => ⟨(j 0).val, (j 0).isLt⟩
      | ⟨1, _⟩ => ⟨0, Nat.one_pos⟩)) := by
  unfold k1_pay1
  show FloatOps.mulf (F := Ideal) (shapeCast S6000x16 x0 shapeCasts_S6000x16_S6000x16 j)
    (broadcastTo S6000x16 (shapeCast S6000x1 x1 shapeCasts_S6000x1_S6000x1) broadcasts_S6000x1_S6000x16 j) = _
  rw [shapeCast_self, shapeCast_self]
  refine congrArg (FloatOps.mulf (F := Ideal) (x0 j)) ?_
  exact broadcastTo_apply x1 broadcasts_S6000x1_S6000x16 j _ (fun a => match a with
    | ⟨0, _⟩ => by show (j 0).val = if (6000 : Nat) = 1 then 0 else (j 0).val; rw [if_neg (by decide)]
    | ⟨1, _⟩ => by show 0 = if (1 : Nat) = 1 then 0 else (j 1).val; rw [if_pos rfl])

/-- The three windows move together: at point `t` each is at block row `t`, column block 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `scaled` of the two arrays as the region finds them. -/
theorem flushed_eq (c : Dev nD) (t : Fin cfg1.N) :
    (dat1 V c).flushed 2 t = ((cfg1.win 2).blk t).view.read (Elt Ideal) (scaled (V c main_v37) (V c main_v38)) := by
  show (cfg1.win 2).cut (grid1.coords t) ((dat1 V c).after 2 t) = _
  rw [after1_2]
  unfold out1_2
  rw [View.canon_unit_zero zero_offsets]
  simp only [View.ld_unit_zero (S := S6000x16) zero_offsets, View.ld_unit_zero (S := S6000x1) zero_offsets]
  obtain ⟨e0, e1, e2, e3, e4, e5⟩ := index_facts t
  funext j
  show k1_pay1 (F := Ideal) (iblk1 V c 0 t) (iblk1 V c 1 t) j
    = scaled (V c main_v37) (V c main_v38) (((cfg1.win 2).blk t).view.emb j)
  refine (payload_apply _ _ j).trans ?_
  show _ = FloatOps.mulf (F := Ideal) (V c main_v37 (((cfg1.win 2).blk t).view.emb j))
    (V c main_v38 (edgeOf (((cfg1.win 2).blk t).view.emb j)))
  have h0 : iblk1 V c 0 t j = V c main_v37 (((cfg1.win 2).blk t).view.emb j) := by
    show V c main_v37 (((cfg1.win 0).blk t).view.emb j) = _
    refine congrArg (V c main_v37) ?_
    funext a; apply Fin.ext
    match a with
    | ⟨0, _⟩ => show win1_0.index t (0 : Fin 2) * 6000 + 1 * (j 0).val = win1_2.index t (0 : Fin 2) * 6000 + 1 * (j 0).val; omega
    | ⟨1, _⟩ => show win1_0.index t (1 : Fin 2) * 16 + 1 * (j 1).val = win1_2.index t (1 : Fin 2) * 16 + 1 * (j 1).val; omega
  have h1 : ∀ k : S6000x1.Idx, (k 0).val = (j 0).val → (k 1).val = 0 →
      iblk1 V c 1 t k = V c main_v38 (edgeOf (((cfg1.win 2).blk t).view.emb j)) := by
    intro k hk0 hk1
    show V c main_v38 (((cfg1.win 1).blk t).view.emb k) = _
    refine congrArg (V c main_v38) ?_
    funext a; apply Fin.ext
    match a with
    | ⟨0, _⟩ => show win1_1.index t (0 : Fin 2) * 6000 + 1 * (k 0).val = win1_2.index t (0 : Fin 2) * 6000 + 1 * (j 0).val; omega
    | ⟨1, _⟩ => show win1_1.index t (1 : Fin 2) * 1 + 1 * (k 1).val = 0; omega
  rw [h0]
  exact congrArg (FloatOps.mulf (F := Ideal) _) (h1 _ rfl rfl)

/-- An index is in point `t`'s block iff each coordinate is in the block's range on its axis. -/
theorem mem_block (t : Fin cfg1.N) (i : S16500000x16.Idx) :
    i ∈ ((cfg1.win 2).blk t).view.set ↔ ∀ a : Fin 2, win1_2.index t a * S6000x16.size a ≤ (i a).val ∧ (i a).val < win1_2.index t a * S6000x16.size a + S6000x16.size a := by
  show i ∈ ((View.whole main_v39).slice (win1_2.rect t)).set ↔ _
  rw [View.set_slice_whole, Rect.mem_set_unit]
  exact Iff.rfl

/-- Every index is in the block of the point its row falls in. -/
theorem covered (i : S16500000x16.Idx) :
    ∃ t : Fin cfg1.N, (cfg1.win 2).flush t = true ∧ i ∈ ((cfg1.win 2).blk t).view.set := by
  have hi0 : (i 0).val < 16500000 := (i 0).isLt
  have hi1 : (i 1).val < 16 := (i 1).isLt
  have hN : cfg1.N = 2750 := N_1
  let t : Fin cfg1.N := ⟨(i 0).val / 6000, by rw [hN]; omega⟩
  obtain ⟨e0, e1, e2, e3, e4, e5⟩ := index_facts t
  have ht : t.val = (i 0).val / 6000 := rfl
  refine ⟨t, flush1_2 t, ?_⟩
  rw [mem_block]
  intro a
  match a with
  | ⟨0, _⟩ => show win1_2.index t (0 : Fin 2) * 6000 ≤ (i 0).val ∧ (i 0).val < win1_2.index t (0 : Fin 2) * 6000 + 6000; omega
  | ⟨1, _⟩ => show win1_2.index t (1 : Fin 2) * 16 ≤ (i 1).val ∧ (i 1).val < win1_2.index t (1 : Fin 2) * 16 + 16; omega

/-- The array after the region: `scaled` of the two arrays the region was entered with. -/
theorem final (c : Dev nD) :
    (dat1 V c).arrAt 2 cfg1.N = scaled (V c main_v37) (V c main_v38) :=
  (dat1 V c).arrAt_eq_of_cover 2 _ (fun t _ => flushed_eq V c t) covered

/-- The reference multiplies the other way round, `coefficient × row`, with the coefficient vector broadcast twice
    (to a column, then along the features) where the kernel reshapes it to a column and broadcasts inside each block:
    at every `(e, f)` both are the product of the gathered value and the coefficient of edge `e`, and the product of
    extended reals commutes. -/
theorem scaled_eq_ref (g : FVec Ideal S16500000x16 .f32) (n : FVec Ideal S16500000 .f32) :
    scaled g (shapeCast S16500000x1 n shapeCasts_S16500000_S16500000x1)
      = mulf (F := Ideal) (broadcastInDim Cert.ReferenceIdeal.S16500000x16 ![0, 1] Cert.ReferenceIdeal.Gen.bcast_S16500000x1_S16500000x16_0_1
          (broadcastInDim Cert.ReferenceIdeal.S16500000x1 ![0] Cert.ReferenceIdeal.Gen.bcast_S16500000_S16500000x1_0 n)) g := by
  funext i
  have hcol : broadcastInDim Cert.ReferenceIdeal.S16500000x16 ![0, 1] Cert.ReferenceIdeal.Gen.bcast_S16500000x1_S16500000x16_0_1
      (broadcastInDim Cert.ReferenceIdeal.S16500000x1 ![0] Cert.ReferenceIdeal.Gen.bcast_S16500000_S16500000x1_0 n) i
        = n (fun a => match a with | ⟨0, _⟩ => ⟨(i 0).val, (i 0).isLt⟩) := by
    rw [broadcastInDim_apply _ Cert.ReferenceIdeal.Gen.bcast_S16500000x1_S16500000x16_0_1 _ i (edgeOf i) (fun a => match a with
      | ⟨0, _⟩ => by show (i 0).val = if (16500000 : Nat) = 1 then 0 else (i 0).val; rw [if_neg (by decide)]
      | ⟨1, _⟩ => by show 0 = if (1 : Nat) = 1 then 0 else (i 1).val; rw [if_pos rfl])]
    exact broadcastInDim_apply _ Cert.ReferenceIdeal.Gen.bcast_S16500000_S16500000x1_0 n (edgeOf i) _ (fun a => match a with
      | ⟨0, _⟩ => by show (i 0).val = if (16500000 : Nat) = 1 then 0 else (i 0).val; rw [if_neg (by decide)])
  have hrow : shapeCast S16500000x1 n shapeCasts_S16500000_S16500000x1 (edgeOf i)
      = n (fun a => match a with | ⟨0, _⟩ => ⟨(i 0).val, (i 0).isLt⟩) :=
    shapeCast_apply n shapeCasts_S16500000_S16500000x1 (edgeOf i) _ (by
      rw [Shape.rowMajor_val_one, Shape.rowMajor_val_two]
      show (i 0).val = (i 0).val * 1 + 0
      omega)
  show FloatOps.mulf (F := Ideal) (g i) (shapeCast S16500000x1 n shapeCasts_S16500000_S16500000x1 (edgeOf i))
    = FloatOps.mulf (F := Ideal) (broadcastInDim Cert.ReferenceIdeal.S16500000x16 ![0, 1] Cert.ReferenceIdeal.Gen.bcast_S16500000x1_S16500000x16_0_1
          (broadcastInDim Cert.ReferenceIdeal.S16500000x1 ![0] Cert.ReferenceIdeal.Gen.bcast_S16500000_S16500000x1_0 n) i) (g i)
  rw [hcol, hrow, Ideal.mulf_def, Ideal.mulf_def]
  exact mul_comm _ _

end Cert.KernelIdeal.Scale16

end
-- ==== Proof.Scale7.lean ====
import proofs.«156346_j3951369912440_2_alg».proof.Proof.Gen.KernelIdeal.Frame
import proofs.«156346_j3951369912440_2_alg».proof.Proof.Gen.ReferenceIdeal
import Idealize.ShloMosaic.Lib.Pipeline.Value
import Idealize.ShloMosaic.Lib.ValueIdx
import Idealize.ShloMosaic.Lib.ValueLayout

/-!
# The second edge-wise scaling, as one function of its two arrays

The kernel walks the 16,500,000 gathered rows (7 features each) in 2750 blocks of 6000 rows; block `t` of the
output holds, at row `r` and feature `f`, the gathered value at `(6000 t + r, f)` times the edge coefficient at
`(6000 t + r, 0)`. The blocks tile the array, so the array after the region is, at every `(e, f)`,
the gathered value at `(e, f)` times the coefficient of edge `e`.
-/

noncomputable section

namespace Cert.KernelIdeal.Scale7

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The coefficient column's index for the edge of `i`: same row, column 0. -/
abbrev edgeOf (i : S16500000x7.Idx) : S16500000x1.Idx := fun a => match a with
  | ⟨0, _⟩ => ⟨(i 0).val, (i 0).isLt⟩
  | ⟨1, _⟩ => ⟨0, Nat.one_pos⟩

/-- Every gathered row times its edge's coefficient. -/
def scaled (h : FVec Ideal S16500000x7 .f32) (n : FVec Ideal S16500000x1 .f32) : FVec Ideal S16500000x7 .f32 :=
  fun i => FloatOps.mulf (F := Ideal) (h i) (n (edgeOf i))

/-- Inside a block: the product of the row's entry with the block's coefficient in that row. -/
theorem payload_apply (x0 : FVec Ideal S6000x7 .f32) (x1 : FVec Ideal S6000x1 .f32) (j : S6000x7.Idx) :
    k4_pay1 (F := Ideal) x0 x1 j = FloatOps.mulf (F := Ideal) (x0 j) (x1 (fun a => match a with
      | ⟨0, _⟩ => ⟨(j 0).val, (j 0).isLt⟩
      | ⟨1, _⟩ => ⟨0, Nat.one_pos⟩)) := by
  unfold k4_pay1
  show FloatOps.mulf (F := Ideal) (shapeCast S6000x7 x0 shapeCasts_S6000x7_S6000x7 j)
    (broadcastTo S6000x7 (shapeCast S6000x1 x1 shapeCasts_S6000x1_S6000x1) broadcasts_S6000x1_S6000x7 j) = _
  rw [shapeCast_self, shapeCast_self]
  refine congrArg (FloatOps.mulf (F := Ideal) (x0 j)) ?_
  exact broadcastTo_apply x1 broadcasts_S6000x1_S6000x7 j _ (fun a => match a with
    | ⟨0, _⟩ => by show (j 0).val = if (6000 : Nat) = 1 then 0 else (j 0).val; rw [if_neg (by decide)]
    | ⟨1, _⟩ => by show 0 = if (1 : Nat) = 1 then 0 else (j 1).val; rw [if_pos rfl])

/-- The three windows move together: at point `t` each is at block row `t`, column block 0. -/
theorem index_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of `scaled` of the two arrays as the region finds them. -/
theorem flushed_eq (c : Dev nD) (t : Fin cfg4.N) :
    (dat4 V c).flushed 2 t = ((cfg4.win 2).blk t).view.read (Elt Ideal) (scaled (V c main_v52) (V c main_v53)) := by
  show (cfg4.win 2).cut (grid4.coords t) ((dat4 V c).after 2 t) = _
  rw [after4_2]
  unfold out4_2
  rw [View.canon_unit_zero zero_offsets]
  simp only [View.ld_unit_zero (S := S6000x7) zero_offsets, View.ld_unit_zero (S := S6000x1) zero_offsets]
  obtain ⟨e0, e1, e2, e3, e4, e5⟩ := index_facts t
  funext j
  show k4_pay1 (F := Ideal) (iblk4 V c 0 t) (iblk4 V c 1 t) j
    = scaled (V c main_v52) (V c main_v53) (((cfg4.win 2).blk t).view.emb j)
  refine (payload_apply _ _ j).trans ?_
  show _ = FloatOps.mulf (F := Ideal) (V c main_v52 (((cfg4.win 2).blk t).view.emb j))
    (V c main_v53 (edgeOf (((cfg4.win 2).blk t).view.emb j)))
  have h0 : iblk4 V c 0 t j = V c main_v52 (((cfg4.win 2).blk t).view.emb j) := by
    show V c main_v52 (((cfg4.win 0).blk t).view.emb j) = _
    refine congrArg (V c main_v52) ?_
    funext a; apply Fin.ext
    match a with
    | ⟨0, _⟩ => show win4_0.index t (0 : Fin 2) * 6000 + 1 * (j 0).val = win4_2.index t (0 : Fin 2) * 6000 + 1 * (j 0).val; omega
    | ⟨1, _⟩ => show win4_0.index t (1 : Fin 2) * 7 + 1 * (j 1).val = win4_2.index t (1 : Fin 2) * 7 + 1 * (j 1).val; omega
  have h1 : ∀ k : S6000x1.Idx, (k 0).val = (j 0).val → (k 1).val = 0 →
      iblk4 V c 1 t k = V c main_v53 (edgeOf (((cfg4.win 2).blk t).view.emb j)) := by
    intro k hk0 hk1
    show V c main_v53 (((cfg4.win 1).blk t).view.emb k) = _
    refine congrArg (V c main_v53) ?_
    funext a; apply Fin.ext
    match a with
    | ⟨0, _⟩ => show win4_1.index t (0 : Fin 2) * 6000 + 1 * (k 0).val = win4_2.index t (0 : Fin 2) * 6000 + 1 * (j 0).val; omega
    | ⟨1, _⟩ => show win4_1.index t (1 : Fin 2) * 1 + 1 * (k 1).val = 0; omega
  rw [h0]
  exact congrArg (FloatOps.mulf (F := Ideal) _) (h1 _ rfl rfl)

/-- An index is in point `t`'s block iff each coordinate is in the block's range on its axis. -/
theorem mem_block (t : Fin cfg4.N) (i : S16500000x7.Idx) :
    i ∈ ((cfg4.win 2).blk t).view.set ↔ ∀ a : Fin 2, win4_2.index t a * S6000x7.size a ≤ (i a).val ∧ (i a).val < win4_2.index t a * S6000x7.size a + S6000x7.size a := by
  show i ∈ ((View.whole main_v54).slice (win4_2.rect t)).set ↔ _
  rw [View.set_slice_whole, Rect.mem_set_unit]
  exact Iff.rfl

/-- Every index is in the block of the point its row falls in. -/
theorem covered (i : S16500000x7.Idx) :
    ∃ t : Fin cfg4.N, (cfg4.win 2).flush t = true ∧ i ∈ ((cfg4.win 2).blk t).view.set := by
  have hi0 : (i 0).val < 16500000 := (i 0).isLt
  have hi1 : (i 1).val < 7 := (i 1).isLt
  have hN : cfg4.N = 2750 := N_4
  let t : Fin cfg4.N := ⟨(i 0).val / 6000, by rw [hN]; omega⟩
  obtain ⟨e0, e1, e2, e3, e4, e5⟩ := index_facts t
  have ht : t.val = (i 0).val / 6000 := rfl
  refine ⟨t, flush4_2 t, ?_⟩
  rw [mem_block]
  intro a
  match a with
  | ⟨0, _⟩ => show win4_2.index t (0 : Fin 2) * 6000 ≤ (i 0).val ∧ (i 0).val < win4_2.index t (0 : Fin 2) * 6000 + 6000; omega
  | ⟨1, _⟩ => show win4_2.index t (1 : Fin 2) * 7 ≤ (i 1).val ∧ (i 1).val < win4_2.index t (1 : Fin 2) * 7 + 7; omega

/-- The array after the region: `scaled` of the two arrays the region was entered with. -/
theorem final (c : Dev nD) :
    (dat4 V c).arrAt 2 cfg4.N = scaled (V c main_v52) (V c main_v53) :=
  (dat4 V c).arrAt_eq_of_cover 2 _ (fun t _ => flushed_eq V c t) covered

/-- The reference multiplies the other way round, `coefficient × row`, with the coefficient vector broadcast twice
    (to a column, then along the features) where the kernel reshapes it to a column and broadcasts inside each block:
    at every `(e, f)` both are the product of the gathered value and the coefficient of edge `e`, and the product of
    extended reals commutes. -/
theorem scaled_eq_ref (g : FVec Ideal S16500000x7 .f32) (n : FVec Ideal S16500000 .f32) :
    scaled g (shapeCast S16500000x1 n shapeCasts_S16500000_S16500000x1)
      = mulf (F := Ideal) (broadcastInDim Cert.ReferenceIdeal.S16500000x7 ![0, 1] Cert.ReferenceIdeal.Gen.bcast_S16500000x1_S16500000x7_0_1
          (broadcastInDim Cert.ReferenceIdeal.S16500000x1 ![0] Cert.ReferenceIdeal.Gen.bcast_S16500000_S16500000x1_0 n)) g := by
  funext i
  have hcol : broadcastInDim Cert.ReferenceIdeal.S16500000x7 ![0, 1] Cert.ReferenceIdeal.Gen.bcast_S16500000x1_S16500000x7_0_1
      (broadcastInDim Cert.ReferenceIdeal.S16500000x1 ![0] Cert.ReferenceIdeal.Gen.bcast_S16500000_S16500000x1_0 n) i
        = n (fun a => match a with | ⟨0, _⟩ => ⟨(i 0).val, (i 0).isLt⟩) := by
    rw [broadcastInDim_apply _ Cert.ReferenceIdeal.Gen.bcast_S16500000x1_S16500000x7_0_1 _ i (edgeOf i) (fun a => match a with
      | ⟨0, _⟩ => by show (i 0).val = if (16500000 : Nat) = 1 then 0 else (i 0).val; rw [if_neg (by decide)]
      | ⟨1, _⟩ => by show 0 = if (1 : Nat) = 1 then 0 else (i 1).val; rw [if_pos rfl])]
    exact broadcastInDim_apply _ Cert.ReferenceIdeal.Gen.bcast_S16500000_S16500000x1_0 n (edgeOf i) _ (fun a => match a with
      | ⟨0, _⟩ => by show (i 0).val = if (16500000 : Nat) = 1 then 0 else (i 0).val; rw [if_neg (by decide)])
  have hrow : shapeCast S16500000x1 n shapeCasts_S16500000_S16500000x1 (edgeOf i)
      = n (fun a => match a with | ⟨0, _⟩ => ⟨(i 0).val, (i 0).isLt⟩) :=
    shapeCast_apply n shapeCasts_S16500000_S16500000x1 (edgeOf i) _ (by
      rw [Shape.rowMajor_val_one, Shape.rowMajor_val_two]
      show (i 0).val = (i 0).val * 1 + 0
      omega)
  show FloatOps.mulf (F := Ideal) (g i) (shapeCast S16500000x1 n shapeCasts_S16500000_S16500000x1 (edgeOf i))
    = FloatOps.mulf (F := Ideal) (broadcastInDim Cert.ReferenceIdeal.S16500000x7 ![0, 1] Cert.ReferenceIdeal.Gen.bcast_S16500000x1_S16500000x7_0_1
          (broadcastInDim Cert.ReferenceIdeal.S16500000x1 ![0] Cert.ReferenceIdeal.Gen.bcast_S16500000_S16500000x1_0 n) i) (g i)
  rw [hcol, hrow, Ideal.mulf_def, Ideal.mulf_def]
  exact mul_comm _ _

end Cert.KernelIdeal.Scale7

end
-- ==== Proof.BiasRelu.lean ====
import proofs.«156346_j3951369912440_2_alg».proof.Proof.Gen.KernelIdeal.Frame
import proofs.«156346_j3951369912440_2_alg».proof.Proof.Gen.ReferenceIdeal
import Idealize.ShloMosaic.Lib.Pipeline.Value
import Idealize.ShloMosaic.Lib.ValueIdx
import Idealize.ShloMosaic.Lib.ValueLayout

/-!
# The first layer's bias and rectifier, as one function of its two arrays

The kernel walks the 500,000 node rows (16 features each) in 100 blocks of 5000 rows; every point sees the whole
1×16 bias row. Block `t` of the output holds, at row `r` and feature `f`, the larger of zero and the aggregated
value at `(5000 t + r, f)` plus the bias of feature `f`. The blocks tile the array, so the array after the region
is, at every `(n, f)`, the larger of zero and the aggregated value at `(n, f)` plus the bias of feature `f`.
The reference computes the same thing with the bias given as a vector of 16 entries, broadcast along the rows.
-/

noncomputable section

namespace Cert.KernelIdeal.BiasRelu

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row's index for the feature of `i`: row 0, same column. -/
abbrev biasOf (i : S500000x16.Idx) : S1x16.Idx := fun a => match a with
  | ⟨0, _⟩ => ⟨0, Nat.one_pos⟩
  | ⟨1, _⟩ => ⟨(i 1).val, (i 1).isLt⟩

/-- Every entry plus its feature's bias, then the larger of that and zero. -/
def biasRelu (s : FVec Ideal S500000x16 .f32) (b : FVec Ideal S1x16 .f32) : FVec Ideal S500000x16 .f32 :=
  fun i => FloatOps.maximumf (F := Ideal) (FloatOps.addf (F := Ideal) (s i) (b (biasOf i))) (FloatOps.ofBits (F := Ideal) .f32 0x00000000#32)

/-- Inside a block: the row's entry plus the bias of its column, then the larger of that and zero. -/
theorem payload_apply (x0 : FVec Ideal S5000x16 .f32) (x1 : FVec Ideal S1x16 .f32) (j : S5000x16.Idx) :
    k2_pay1 (F := Ideal) x0 x1 j = FloatOps.maximumf (F := Ideal) (FloatOps.addf (F := Ideal) (x0 j) (x1 (fun a => match a with
      | ⟨0, _⟩ => ⟨0, Nat.one_pos⟩
      | ⟨1, _⟩ => ⟨(j 1).val, (j 1).isLt⟩))) (FloatOps.ofBits (F := Ideal) .f32 0x00000000#32) := by
  unfold k2_pay1
  show FloatOps.maximumf (F := Ideal) (FloatOps.addf (F := Ideal) (shapeCast S5000x16 x0 shapeCasts_S5000x16_S5000x16 j)
    (broadcastTo S5000x16 (shapeCast S1x16 x1 shapeCasts_S1x16_S1x16) broadcasts_S1x16_S5000x16 j))
    (FloatOps.ofBits (F := Ideal) .f32 0x00000000#32) = _
  rw [shapeCast_self, shapeCast_self]
  refine congrArg (fun y => FloatOps.maximumf (F := Ideal) (FloatOps.addf (F := Ideal) (x0 j) y) (FloatOps.ofBits (F := Ideal) .f32 0x00000000#32)) ?_
  exact broadcastTo_apply x1 broadcasts_S1x16_S5000x16 j _ (fun a => match a with
    | ⟨0, _⟩ => by show 0 = if (1 : Nat) = 1 then 0 else (j 0).val; rw [if_pos rfl]
    | ⟨1, _⟩ => by show (j 1).val = if (16 : Nat) = 1 then 0 else (j 1).val; rw [if_neg (by decide)])

/-- The input and output windows move together: at point `t` each is at block row `t`, column block 0; the bias
    window stays at block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `biasRelu` of the two arrays as the region finds them. -/
theorem flushed_eq (c : Dev nD) (t : Fin cfg2.N) :
    (dat2 V c).flushed 2 t = ((cfg2.win 2).blk t).view.read (Elt Ideal) (biasRelu (V c main_v42) (V c main_v43)) := by
  show (cfg2.win 2).cut (grid2.coords t) ((dat2 V c).after 2 t) = _
  rw [after2_2]
  unfold out2_2
  rw [View.canon_unit_zero zero_offsets]
  simp only [View.ld_unit_zero (S := S5000x16) zero_offsets, View.ld_unit_zero (S := S1x16) zero_offsets]
  obtain ⟨e0, e1, e2, e3, e4, e5⟩ := index_facts t
  funext j
  show k2_pay1 (F := Ideal) (iblk2 V c 0 t) (iblk2 V c 1 t) j
    = biasRelu (V c main_v42) (V c main_v43) (((cfg2.win 2).blk t).view.emb j)
  refine (payload_apply _ _ j).trans ?_
  show _ = FloatOps.maximumf (F := Ideal) (FloatOps.addf (F := Ideal) (V c main_v42 (((cfg2.win 2).blk t).view.emb j))
    (V c main_v43 (biasOf (((cfg2.win 2).blk t).view.emb j)))) (FloatOps.ofBits (F := Ideal) .f32 0x00000000#32)
  have h0 : iblk2 V c 0 t j = V c main_v42 (((cfg2.win 2).blk t).view.emb j) := by
    show V c main_v42 (((cfg2.win 0).blk t).view.emb j) = _
    refine congrArg (V c main_v42) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 16 + 1 * (j 1).val = win2_2.index t (1 : Fin 2) * 16 + 1 * (j 1).val; omega
  have h1 : ∀ k : S1x16.Idx, (k 0).val = 0 → (k 1).val = (j 1).val →
      iblk2 V c 1 t k = V c main_v43 (biasOf (((cfg2.win 2).blk t).view.emb j)) := by
    intro k hk0 hk1
    show V c main_v43 (((cfg2.win 1).blk t).view.emb k) = _
    refine congrArg (V c main_v43) ?_
    funext a; apply Fin.ext
    match a with
    | ⟨0, _⟩ => show win2_1.index t (0 : Fin 2) * 1 + 1 * (k 0).val = 0; omega
    | ⟨1, _⟩ => show win2_1.index t (1 : Fin 2) * 16 + 1 * (k 1).val = win2_2.index t (1 : Fin 2) * 16 + 1 * (j 1).val; omega
  rw [h0]
  exact congrArg (fun y => FloatOps.maximumf (F := Ideal) (FloatOps.addf (F := Ideal) (V c main_v42 (((cfg2.win 2).blk t).view.emb j)) y)
    (FloatOps.ofBits (F := Ideal) .f32 0x00000000#32)) (h1 _ rfl rfl)

/-- An index is in point `t`'s block iff each coordinate is in the block's range on its axis. -/
theorem mem_block (t : Fin cfg2.N) (i : S500000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v44).slice (win2_2.rect t)).set ↔ _
  rw [View.set_slice_whole, Rect.mem_set_unit]
  exact Iff.rfl

/-- Every index is in the block of the point its row falls in. -/
theorem covered (i : S500000x16.Idx) :
    ∃ t : Fin cfg2.N, (cfg2.win 2).flush t = true ∧ i ∈ ((cfg2.win 2).blk t).view.set := by
  have hi0 : (i 0).val < 500000 := (i 0).isLt
  have hi1 : (i 1).val < 16 := (i 1).isLt
  have hN : cfg2.N = 100 := N_2
  let t : Fin cfg2.N := ⟨(i 0).val / 5000, by rw [hN]; omega⟩
  obtain ⟨e0, e1, e2, e3, e4, e5⟩ := index_facts t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- The array after the region: `biasRelu` of the two arrays the region was entered with. -/
theorem final (c : Dev nD) :
    (dat2 V c).arrAt 2 cfg2.N = biasRelu (V c main_v42) (V c main_v43) :=
  (dat2 V c).arrAt_eq_of_cover 2 _ (fun t _ => flushed_eq V c t) covered

/-- Against the reference: with the bias row the 16-vector given a leading unit axis, `biasRelu` is the reference's
    sum with the vector broadcast along the rows, then its larger-of with the broadcast zero. -/
theorem biasRelu_eq_ref (s : FVec Ideal S500000x16 .f32) (b : FVec Ideal S16 .f32) :
    biasRelu s (shapeCast S1x16 b shapeCasts_S16_S1x16)
      = maximumf (F := Ideal)
          (addf s (broadcastInDim Cert.ReferenceIdeal.S500000x16 ![0, 1] Cert.ReferenceIdeal.Gen.bcast_S1x16_S500000x16_0_1
            (broadcastInDim Cert.ReferenceIdeal.S1x16 ![1] Cert.ReferenceIdeal.Gen.bcast_S16_S1x16_1 b)))
          (broadcastInDim Cert.ReferenceIdeal.S500000x16 ![] Cert.ReferenceIdeal.Gen.bcast_S_S500000x16 (constant (F := Ideal) Cert.ReferenceIdeal.S_ .f32 0x00000000#32)) := by
  funext i
  have hL : shapeCast S1x16 b shapeCasts_S16_S1x16 (biasOf i) = b (fun a => match a with
      | ⟨0, _⟩ => ⟨(i 1).val, (i 1).isLt⟩) := by
    refine (shapeCast_addUnit_apply ![16] b shapeCasts_S16_S1x16 (biasOf i)).trans ?_
    refine congrArg b ?_
    funext a; apply Fin.ext
    match a with
    | ⟨0, _⟩ => rfl
  have hR : broadcastInDim Cert.ReferenceIdeal.S500000x16 ![0, 1] Cert.ReferenceIdeal.Gen.bcast_S1x16_S500000x16_0_1
      (broadcastInDim Cert.ReferenceIdeal.S1x16 ![1] Cert.ReferenceIdeal.Gen.bcast_S16_S1x16_1 b) i = b (fun a => match a with
      | ⟨0, _⟩ => ⟨(i 1).val, (i 1).isLt⟩) := by
    refine (broadcastInDim_apply _ Cert.ReferenceIdeal.Gen.bcast_S1x16_S500000x16_0_1 _ i (biasOf i) (fun a => match a with
      | ⟨0, _⟩ => by show 0 = if (1 : Nat) = 1 then 0 else (i 0).val; rw [if_pos rfl]
      | ⟨1, _⟩ => by show (i 1).val = if (16 : Nat) = 1 then 0 else (i 1).val; rw [if_neg (by decide)])).trans ?_
    exact broadcastInDim_apply _ Cert.ReferenceIdeal.Gen.bcast_S16_S1x16_1 b (biasOf i) _ (fun a => match a with
      | ⟨0, _⟩ => by show (i 1).val = if (16 : Nat) = 1 then 0 else (i 1).val; rw [if_neg (by decide)])
  show FloatOps.maximumf (F := Ideal) (FloatOps.addf (F := Ideal) (s i) (shapeCast S1x16 b shapeCasts_S16_S1x16 (biasOf i)))
      (FloatOps.ofBits (F := Ideal) .f32 0x00000000#32)
    = FloatOps.maximumf (F := Ideal) (FloatOps.addf (F := Ideal) (s i)
        (broadcastInDim Cert.ReferenceIdeal.S500000x16 ![0, 1] Cert.ReferenceIdeal.Gen.bcast_S1x16_S500000x16_0_1
          (broadcastInDim Cert.ReferenceIdeal.S1x16 ![1] Cert.ReferenceIdeal.Gen.bcast_S16_S1x16_1 b) i))
      (FloatOps.ofBits (F := Ideal) .f32 0x00000000#32)
  rw [hL, hR]

end Cert.KernelIdeal.BiasRelu

end
-- ==== Proof.Stages.lean ====
import proofs.«156346_j3951369912440_2_alg».proof.Proof.Gen.KernelIdeal.Frame
import proofs.«156346_j3951369912440_2_alg».proof.Proof.RefRead
import proofs.«156346_j3951369912440_2_alg».proof.Proof.Matmul16
import proofs.«156346_j3951369912440_2_alg».proof.Proof.Matmul7
import proofs.«156346_j3951369912440_2_alg».proof.Proof.Scale16
import proofs.«156346_j3951369912440_2_alg».proof.Proof.Scale7
import proofs.«156346_j3951369912440_2_alg».proof.Proof.BiasRelu
import Idealize.ShloMosaic.Lib.StableHlo.Run

/-!
# The kernel program, stage by stage, against the reference's stages

Each region's output array and each stretch of host operations between two regions, read as the reference's value
of the same stage (a function of the six argument arrays): the matrix products are the reference's `dot_general`s,
the edge-wise scalings its broadcast products, the two epilogues its `relu (out + b)` and `log_softmax (out + b)`,
and the gathers and scatter-adds in between are the same host operations on both sides.
-/

noncomputable section

namespace Cert.KernelIdeal.Stages

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The second layer's edge coefficients are the first layer's: the reference computes them twice, from the same
    edge lists by the same operations. -/
theorem coefficients_again (x1 : (⟨Cert.ReferenceIdeal.S2x16000000, .i32⟩ : BufTy).Contents (Elt Ideal)) :
    Cert.ReferenceIdeal.ReadP.val_main_v71 (F := Ideal) x1 = Cert.ReferenceIdeal.ReadP.val_main_v30 (F := Ideal) x1 := rfl

/-- Region 0's output is the reference's first `dot_general`. -/
theorem product1 (hx : W3 m ρ c (Proc.devRef .tc main_arg0) = (m ((c : Thread nD τ).loc main_arg0))) (hw : W3 m ρ c (Proc.devRef .tc main_arg2) = (m ((c : Thread nD τ).loc main_arg2))) :
    W4 m ρ c (Proc.devRef .tc main_v30) = Cert.ReferenceIdeal.ReadP.val_main_v7 (F := Ideal) (m ((c : Thread nD τ).loc main_arg0)) (m ((c : Thread nD τ).loc main_arg2)) := by
  refine (W4_arr m ρ c 2).trans ?_
  rw [Matmul16.final (V3 m ρ) c]
  rw [show V3 m ρ c main_arg0 = _ from hx, show V3 m ρ c main_arg2 = _ from hw]
  exact Matmul16.product_eq_dot _ _

/-- The rows gathered for the first layer. -/
theorem gathered1 (h : W4 m ρ c (Proc.devRef .tc main_v30) = Cert.ReferenceIdeal.ReadP.val_main_v7 (F := Ideal) (m ((c : Thread nD τ).loc main_arg0)) (m ((c : Thread nD τ).loc main_arg2)))
    (hrow : W4 m ρ c (Proc.devRef .tc main_v3) = Cert.ReferenceIdeal.ReadP.val_main_v3 (F := Ideal) (m ((c : Thread nD τ).loc main_arg1))) :
    W5 m ρ c (Proc.devRef .tc main_v37) = Cert.ReferenceIdeal.ReadP.val_main_v38 (F := Ideal) (m ((c : Thread nD τ).loc main_arg0)) (m ((c : Thread nD τ).loc main_arg1)) (m ((c : Thread nD τ).loc main_arg2)) := by
  show StableHlo.after hostOps1 (W4 m ρ c) (Proc.devRef .tc main_v37) = _
  after_results
  rw [h, hrow]
  rfl

/-- The edge coefficients as the column the first scaling reads. -/
theorem column1 (hn : W4 m ρ c (Proc.devRef .tc main_v29) = Cert.ReferenceIdeal.ReadP.val_main_v30 (F := Ideal) (m ((c : Thread nD τ).loc main_arg1))) :
    W5 m ρ c (Proc.devRef .tc main_v38) = shapeCast S16500000x1 (Cert.ReferenceIdeal.ReadP.val_main_v30 (F := Ideal) (m ((c : Thread nD τ).loc main_arg1))) shapeCasts_S16500000_S16500000x1 := by
  show StableHlo.after hostOps1 (W4 m ρ c) (Proc.devRef .tc main_v38) = _
  after_results
  rw [hn]
  rfl

/-- Region 1's output is the reference's first broadcast product. -/
theorem scaled1 (hg : W5 m ρ c (Proc.devRef .tc main_v37) = Cert.ReferenceIdeal.ReadP.val_main_v38 (F := Ideal) (m ((c : Thread nD τ).loc main_arg0)) (m ((c : Thread nD τ).loc main_arg1)) (m ((c : Thread nD τ).loc main_arg2)))
    (hc : W5 m ρ c (Proc.devRef .tc main_v38) = shapeCast S16500000x1 (Cert.ReferenceIdeal.ReadP.val_main_v30 (F := Ideal) (m ((c : Thread nD τ).loc main_arg1))) shapeCasts_S16500000_S16500000x1) :
    W6 m ρ c (Proc.devRef .tc main_v39) = Cert.ReferenceIdeal.ReadP.val_main_v40 (F := Ideal) (m ((c : Thread nD τ).loc main_arg0)) (m ((c : Thread nD τ).loc main_arg1)) (m ((c : Thread nD τ).loc main_arg2)) := by
  refine (W6_arr m ρ c 2).trans ?_
  rw [Scale16.final (V5 m ρ) c]
  rw [show V5 m ρ c main_v37 = _ from hg, show V5 m ρ c main_v38 = _ from hc]
  rw [Scale16.scaled_eq_ref]
  rfl

/-- The first layer's scatter-add over the target nodes. -/
theorem summed1 (h : W6 m ρ c (Proc.devRef .tc main_v39) = Cert.ReferenceIdeal.ReadP.val_main_v40 (F := Ideal) (m ((c : Thread nD τ).loc main_arg0)) (m ((c : Thread nD τ).loc main_arg1)) (m ((c : Thread nD τ).loc main_arg2)))
    (hcol : W6 m ρ c (Proc.devRef .tc main_v6) = Cert.ReferenceIdeal.ReadP.val_main_v6 (F := Ideal) (m ((c : Thread nD τ).loc main_arg1))) :
    W7 m ρ c (Proc.devRef .tc main_v42) = Cert.ReferenceIdeal.ReadP.val_main_v43 (F := Ideal) (m ((c : Thread nD τ).loc main_arg0)) (m ((c : Thread nD τ).loc main_arg1)) (m ((c : Thread nD τ).loc main_arg2)) := by
  show StableHlo.after hostOps2 (W6 m ρ c) (Proc.devRef .tc main_v42) = _
  after_results
  rw [h, hcol]
  rfl

/-- The first bias as the row region 2 reads. -/
theorem biasRow1 (hb : W6 m ρ c (Proc.devRef .tc main_arg3) = (m ((c : Thread nD τ).loc main_arg3))) :
    W7 m ρ c (Proc.devRef .tc main_v43) = shapeCast S1x16 (m ((c : Thread nD τ).loc main_arg3)) shapeCasts_S16_S1x16 := by
  show StableHlo.after hostOps2 (W6 m ρ c) (Proc.devRef .tc main_v43) = _
  after_results
  rw [hb]
  rfl

/-- Region 2's output is the reference's `relu (out + b1)`. -/
theorem hidden (hs : W7 m ρ c (Proc.devRef .tc main_v42) = Cert.ReferenceIdeal.ReadP.val_main_v43 (F := Ideal) (m ((c : Thread nD τ).loc main_arg0)) (m ((c : Thread nD τ).loc main_arg1)) (m ((c : Thread nD τ).loc main_arg2)))
    (hb : W7 m ρ c (Proc.devRef .tc main_v43) = shapeCast S1x16 (m ((c : Thread nD τ).loc main_arg3)) shapeCasts_S16_S1x16) :
    W8 m ρ c (Proc.devRef .tc main_v44) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (W8_arr m ρ c 2).trans ?_
  rw [BiasRelu.final (V7 m ρ) c]
  rw [show V7 m ρ c main_v42 = _ from hs, show V7 m ρ c main_v43 = _ from hb]
  rw [BiasRelu.biasRelu_eq_ref]
  rfl

/-- Region 3's output is the reference's second `dot_general`. -/
theorem product2 (hh : W8 m ρ c (Proc.devRef .tc main_v44) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)))
    (hw : W8 m ρ c (Proc.devRef .tc main_arg4) = (m ((c : Thread nD τ).loc main_arg4))) :
    W9 m ρ c (Proc.devRef .tc main_v45) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W9_arr m ρ c 2).trans ?_
  rw [Matmul7.final (V8 m ρ) c]
  rw [show V8 m ρ c main_v44 = _ from hh, show V8 m ρ c main_arg4 = _ from hw]
  exact Matmul7.product_eq_dot _ _

/-- The rows gathered for the second layer. -/
theorem gathered2 (h : W9 m ρ c (Proc.devRef .tc main_v45) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (hrow : W9 m ρ c (Proc.devRef .tc main_v3) = Cert.ReferenceIdeal.ReadP.val_main_v3 (F := Ideal) (m ((c : Thread nD τ).loc main_arg1))) :
    W10 m ρ c (Proc.devRef .tc main_v52) = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps4 (W9 m ρ c) (Proc.devRef .tc main_v52) = _
  after_results
  rw [h, hrow]
  rfl

/-- The edge coefficients as the column the second scaling reads. -/
theorem column2 (hn : W9 m ρ c (Proc.devRef .tc main_v29) = Cert.ReferenceIdeal.ReadP.val_main_v30 (F := Ideal) (m ((c : Thread nD τ).loc main_arg1))) :
    W10 m ρ c (Proc.devRef .tc main_v53) = shapeCast S16500000x1 (Cert.ReferenceIdeal.ReadP.val_main_v71 (F := Ideal) (m ((c : Thread nD τ).loc main_arg1))) shapeCasts_S16500000_S16500000x1 := by
  show StableHlo.after hostOps4 (W9 m ρ c) (Proc.devRef .tc main_v53) = _
  after_results
  rw [hn, coefficients_again]
  rfl

/-- Region 4's output is the reference's second broadcast product. -/
theorem scaled2 (hg : W10 m ρ c (Proc.devRef .tc main_v52) = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (hc : W10 m ρ c (Proc.devRef .tc main_v53) = shapeCast S16500000x1 (Cert.ReferenceIdeal.ReadP.val_main_v71 (F := Ideal) (m ((c : Thread nD τ).loc main_arg1))) shapeCasts_S16500000_S16500000x1) :
    W11 m ρ c (Proc.devRef .tc main_v54) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W11_arr m ρ c 2).trans ?_
  rw [Scale7.final (V10 m ρ) c]
  rw [show V10 m ρ c main_v52 = _ from hg, show V10 m ρ c main_v53 = _ from hc]
  rw [Scale7.scaled_eq_ref]
  rfl

/-- The second layer's scatter-add over the target nodes. -/
theorem summed2 (h : W11 m ρ c (Proc.devRef .tc main_v54) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (hcol : W11 m ρ c (Proc.devRef .tc main_v6) = Cert.ReferenceIdeal.ReadP.val_main_v6 (F := Ideal) (m ((c : Thread nD τ).loc main_arg1))) :
    W12 m ρ c (Proc.devRef .tc main_v57) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps5 (W11 m ρ c) (Proc.devRef .tc main_v57) = _
  after_results
  rw [h, hcol]
  rfl

/-- The second bias as the row region 5 reads. -/
theorem biasRow2 (hb : W11 m ρ c (Proc.devRef .tc main_arg5) = (m ((c : Thread nD τ).loc main_arg5))) :
    W12 m ρ c (Proc.devRef .tc main_v58) = shapeCast S1x7 (m ((c : Thread nD τ).loc main_arg5)) shapeCasts_S7_S1x7 := by
  show StableHlo.after hostOps5 (W11 m ρ c) (Proc.devRef .tc main_v58) = _
  after_results
  rw [hb]
  rfl

end Cert.KernelIdeal.Stages

end
-- ==== Proof.BiasLogSoftmax.lean ====
import proofs.«156346_j3951369912440_2_alg».proof.Proof.Gen.KernelIdeal.Frame
import proofs.«156346_j3951369912440_2_alg».proof.ReferenceIdeal
import proofs.«156346_j3951369912440_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-!
# The bias and the row-wise log-softmax, as one function of its two arrays

The kernel walks the 500,000 rows (7 classes each) in 100 blocks of 5000 rows; at every point the whole 1×7 bias row
is in its second window. Block `t` of the output holds, at row `r` and class `f`, with `z = x + b` the biased row
`5000 t + r`: `(z f − m) − log (∑ k, exp (z k − m))`, where `m` is the maximum of the row's seven entries (taken from −∞).
The blocks tile the array, so the array after the region is that function of the whole array and the bias row. The
same function is what the reference's `log_softmax` computes of the biased array, one operation at a time.
-/

noncomputable section

namespace Cert.KernelIdeal.BiasLogSoftmax

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row's index for the class of `i`: row 0, same column. -/
abbrev biasOf (i : S500000x7.Idx) : S1x7.Idx := fun a => match a with
  | ⟨0, _⟩ => ⟨0, Nat.one_pos⟩
  | ⟨1, _⟩ => ⟨(i 1).val, (i 1).isLt⟩

/-- The entry of `i`'s row in column `k`. -/
abbrev inRow (i : S500000x7.Idx) (k : Fin 7) : S500000x7.Idx := fun a => match a with
  | ⟨0, _⟩ => ⟨(i 0).val, (i 0).isLt⟩
  | ⟨1, _⟩ => ⟨k.val, k.isLt⟩

/-- Every row plus the bias row. -/
def shifted (s : FVec Ideal S500000x7 .f32) (b : FVec Ideal S1x7 .f32) : FVec Ideal S500000x7 .f32 :=
  fun i => FloatOps.addf (F := Ideal) (s i) (b (biasOf i))

/-- The maximum of `i`'s row, taken from −∞. -/
def rowMax (z : FVec Ideal S500000x7 .f32) (i : S500000x7.Idx) : Ideal .f32 :=
  (Finset.univ : Finset (Fin 7)).fold max (FloatOps.ofBits (F := Ideal) .f32 0xFF800000#32) (fun k => z (inRow i k))

/-- The row-wise log-softmax: each entry less its row's maximum, less the logarithm of the row's sum of exponentials of
    the entries less the maximum. -/
def logSoftmax (z : FVec Ideal S500000x7 .f32) : FVec Ideal S500000x7 .f32 := fun i =>
  FloatOps.subf (F := Ideal) (FloatOps.subf (F := Ideal) (z i) (rowMax z i))
    (FloatOps.log (F := Ideal) (∑ k : Fin 7, FloatOps.exp (F := Ideal) (FloatOps.subf (F := Ideal) (z (inRow i k)) (rowMax z i))))

/-! ## The block's operations read at an index -/

/-- Column `k` of the row of `j`, inside a block. -/
abbrev blkRow (r : Fin 5000) (k : Fin 7) : S5000x7.Idx := fun a => match a with
  | ⟨0, _⟩ => ⟨r.val, r.isLt⟩
  | ⟨1, _⟩ => ⟨k.val, k.isLt⟩

/-- The bias row broadcast down the block's rows. -/
theorem bias_bcast (x : FVec Ideal S1x7 .f32) (j : S5000x7.Idx) :
    broadcastTo S5000x7 x broadcasts_S1x7_S5000x7 j = x (fun a => match a with
      | ⟨0, _⟩ => ⟨0, Nat.one_pos⟩
      | ⟨1, _⟩ => ⟨(j 1).val, (j 1).isLt⟩) :=
  broadcastTo_apply x broadcasts_S1x7_S5000x7 j _ (fun a => match a with
    | ⟨0, _⟩ => by show 0 = if (1 : Nat) = 1 then 0 else (j 0).val; rw [if_pos rfl]
    | ⟨1, _⟩ => by show (j 1).val = if (7 : Nat) = 1 then 0 else (j 1).val; rw [if_neg (by decide)])

/-- A column broadcast across the block's seven columns. -/
theorem col_bcast (x : FVec Ideal S5000x1 .f32) (j : S5000x7.Idx) :
    broadcastTo S5000x7 x broadcasts_S5000x1_S5000x7 j = x (fun a => match a with
      | ⟨0, _⟩ => ⟨(j 0).val, (j 0).isLt⟩
      | ⟨1, _⟩ => ⟨0, Nat.one_pos⟩) :=
  broadcastTo_apply x broadcasts_S5000x1_S5000x7 j _ (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- A vector of 5000 entries recast as a column: entry `r` is at `(r, 0)`. -/
theorem keep_cast (x : FVec Ideal S5000 .f32) (j : S5000x1.Idx) (hj : (j 1).val = 0) :
    shapeCast S5000x1 x shapeCasts_S5000_S5000x1 j = x (fun a => match a with
      | ⟨0, _⟩ => ⟨(j 0).val, (j 0).isLt⟩) := by
  refine shapeCast_apply x shapeCasts_S5000_S5000x1 j _ ?_
  rw [Shape.rowMajor_val_one, Shape.rowMajor_val_two]
  show (j 0).val = (j 0).val * 1 + (j 1).val
  omega

/-- The row maximum of a block, from −∞, at row `j`. -/
theorem rowmax_apply (x : FVec Ideal S5000x7 .f32) (j : S5000.Idx) :
    multiReduction .maximumf [1] S5000 x 0xFF800000#32 reduces_S5000x7_S5000 (.inl rfl) rfl j
      = (Finset.univ : Finset (Fin 7)).fold max (FloatOps.ofBits (F := Ideal) .f32 0xFF800000#32)
          (fun k => x (blkRow ⟨(j 0).val, (j 0).isLt⟩ k)) := by
  refine (Ideal.multiReduction_maximumf_single x 0xFF800000#32 reduces_S5000x7_S5000 (.inl rfl) rfl j).trans ?_
  refine congrArg (fun f => Finset.fold max (FloatOps.ofBits (F := Ideal) .f32 0xFF800000#32) f (Finset.univ : Finset (Fin 7))) ?_
  funext k
  refine congrArg x ?_
  funext a; apply Fin.ext
  match a with
  | ⟨0, _⟩ => rfl
  | ⟨1, _⟩ => rfl

/-- The row sum of a block at row `j`. -/
theorem rowsum_apply (x : FVec Ideal S5000x7 .f32) (j : S5000.Idx) :
    multiReduction .add [1] S5000 x 0x00000000#32 reduces_S5000x7_S5000 (.inl rfl) rfl j
      = ∑ k : Fin 7, x (blkRow ⟨(j 0).val, (j 0).isLt⟩ k) := by
  refine (Ideal.multiReduction_add_single x 0x00000000#32 reduces_S5000x7_S5000 (.inl rfl) rfl j).trans ?_
  refine Finset.sum_congr rfl fun k _ => ?_
  refine congrArg x ?_
  funext a; apply Fin.ext
  match a with
  | ⟨0, _⟩ => rfl
  | ⟨1, _⟩ => rfl

/-- The biased block: every row of the block plus the bias row. -/
def blkShift (x0 : FVec Ideal S5000x7 .f32) (x1 : FVec Ideal S1x7 .f32) : FVec Ideal S5000x7 .f32 :=
  fun j => FloatOps.addf (F := Ideal) (x0 j) (x1 (fun a => match a with
    | ⟨0, _⟩ => ⟨0, Nat.one_pos⟩
    | ⟨1, _⟩ => ⟨(j 1).val, (j 1).isLt⟩))

/-- The maximum of row `r` of a block, taken from −∞. -/
def blkMax (z : FVec Ideal S5000x7 .f32) (r : Fin 5000) : Ideal .f32 :=
  (Finset.univ : Finset (Fin 7)).fold max (FloatOps.ofBits (F := Ideal) .f32 0xFF800000#32) (fun k => z (blkRow r k))

/-- The row maxima of a block, kept as a column and broadcast back over the block. -/
def maxB (z : FVec Ideal S5000x7 .f32) : FVec Ideal S5000x7 .f32 :=
  broadcastTo S5000x7 (shapeCast S5000x1 (multiReduction .maximumf [1] S5000 z 0xFF800000#32 reduces_S5000x7_S5000 (.inl rfl) rfl)
    shapeCasts_S5000_S5000x1) broadcasts_S5000x1_S5000x7

/-- The logarithms of the row sums of a block, kept as a column and broadcast back over the block. -/
def lseB (w : FVec Ideal S5000x7 .f32) : FVec Ideal S5000x7 .f32 :=
  broadcastTo S5000x7 (log (F := Ideal) (shapeCast S5000x1 (multiReduction .add [1] S5000 w 0x00000000#32 reduces_S5000x7_S5000 (.inl rfl) rfl)
    shapeCasts_S5000_S5000x1)) broadcasts_S5000x1_S5000x7

/-- What the body computes of the biased block. -/
def blkTail (z : FVec Ideal S5000x7 .f32) : FVec Ideal S5000x7 .f32 :=
  subf (F := Ideal) (subf (F := Ideal) z (maxB z)) (lseB (exp (F := Ideal) (subf (F := Ideal) z (maxB z))))

theorem pay_eq (x0 : FVec Ideal S5000x7 .f32) (x1 : FVec Ideal S1x7 .f32) :
    k5_pay1 (F := Ideal) x0 x1 = blkTail (addf (F := Ideal) (shapeCast S5000x7 x0 shapeCasts_S5000x7_S5000x7)
      (broadcastTo S5000x7 (shapeCast S1x7 x1 shapeCasts_S1x7_S1x7) broadcasts_S1x7_S5000x7)) := rfl

theorem shift_eq (x0 : FVec Ideal S5000x7 .f32) (x1 : FVec Ideal S1x7 .f32) :
    addf (F := Ideal) (shapeCast S5000x7 x0 shapeCasts_S5000x7_S5000x7)
      (broadcastTo S5000x7 (shapeCast S1x7 x1 shapeCasts_S1x7_S1x7) broadcasts_S1x7_S5000x7) = blkShift x0 x1 := by
  rw [shapeCast_self, shapeCast_self]
  funext j
  exact congrArg (FloatOps.addf (F := Ideal) (x0 j)) (bias_bcast x1 j)

theorem maxB_apply (z : FVec Ideal S5000x7 .f32) (j : S5000x7.Idx) :
    maxB z j = blkMax z ⟨(j 0).val, (j 0).isLt⟩ := by
  unfold maxB
  refine (col_bcast _ j).trans ?_
  refine (keep_cast _ _ rfl).trans ?_
  exact rowmax_apply z _

theorem lseB_apply (w : FVec Ideal S5000x7 .f32) (j : S5000x7.Idx) :
    lseB w j = FloatOps.log (F := Ideal) (∑ k : Fin 7, w (blkRow ⟨(j 0).val, (j 0).isLt⟩ k)) := by
  unfold lseB
  refine (col_bcast _ j).trans ?_
  refine congrArg (FloatOps.log (F := Ideal)) ?_
  refine (keep_cast _ _ rfl).trans ?_
  exact rowsum_apply w _

theorem tail_apply (z : FVec Ideal S5000x7 .f32) (j : S5000x7.Idx) :
    blkTail z j = FloatOps.subf (F := Ideal) (FloatOps.subf (F := Ideal) (z j) (blkMax z ⟨(j 0).val, (j 0).isLt⟩))
      (FloatOps.log (F := Ideal) (∑ k : Fin 7, FloatOps.exp (F := Ideal)
        (FloatOps.subf (F := Ideal) (z (blkRow ⟨(j 0).val, (j 0).isLt⟩ k)) (blkMax z ⟨(j 0).val, (j 0).isLt⟩)))) := by
  show FloatOps.subf (F := Ideal) (FloatOps.subf (F := Ideal) (z j) (maxB z j)) (lseB (exp (F := Ideal) (subf (F := Ideal) z (maxB z))) j) = _
  rw [maxB_apply, lseB_apply]
  refine congrArg (FloatOps.subf (F := Ideal) _) (congrArg (FloatOps.log (F := Ideal)) ?_)
  refine Finset.sum_congr rfl fun k _ => ?_
  show FloatOps.exp (F := Ideal) (FloatOps.subf (F := Ideal) (z (blkRow ⟨(j 0).val, (j 0).isLt⟩ k)) (maxB z (blkRow ⟨(j 0).val, (j 0).isLt⟩ k))) = _
  rw [maxB_apply]

/-- Inside a block: the log-softmax of the biased row. -/
theorem payload_apply (x0 : FVec Ideal S5000x7 .f32) (x1 : FVec Ideal S1x7 .f32) (j : S5000x7.Idx) :
    k5_pay1 (F := Ideal) x0 x1 j
      = FloatOps.subf (F := Ideal) (FloatOps.subf (F := Ideal) (blkShift x0 x1 j) (blkMax (blkShift x0 x1) ⟨(j 0).val, (j 0).isLt⟩))
        (FloatOps.log (F := Ideal) (∑ k : Fin 7, FloatOps.exp (F := Ideal)
          (FloatOps.subf (F := Ideal) (blkShift x0 x1 (blkRow ⟨(j 0).val, (j 0).isLt⟩ k)) (blkMax (blkShift x0 x1) ⟨(j 0).val, (j 0).isLt⟩)))) := by
  rw [pay_eq, shift_eq]
  exact tail_apply _ j

/-- A block whose biased entries are those of `Z` along an embedding that keeps rows together computes `Z`'s log-softmax there. -/
theorem block_eq (x0 : FVec Ideal S5000x7 .f32) (x1 : FVec Ideal S1x7 .f32) (Z : FVec Ideal S500000x7 .f32)
    (e : S5000x7.Idx → S500000x7.Idx) (hz : ∀ j, blkShift x0 x1 j = Z (e j))
    (hrow : ∀ (j : S5000x7.Idx) (k : Fin 7), e (blkRow ⟨(j 0).val, (j 0).isLt⟩ k) = inRow (e j) k) (j : S5000x7.Idx) :
    k5_pay1 (F := Ideal) x0 x1 j = logSoftmax Z (e j) := by
  refine (payload_apply x0 x1 j).trans ?_
  have hm : blkMax (blkShift x0 x1) ⟨(j 0).val, (j 0).isLt⟩ = rowMax Z (e j) := by
    unfold blkMax rowMax
    refine congrArg (fun f => Finset.fold max (FloatOps.ofBits (F := Ideal) .f32 0xFF800000#32) f (Finset.univ : Finset (Fin 7))) (funext fun k => ?_)
    exact (hz _).trans (congrArg Z (hrow j k))
  rw [hm, hz j]
  unfold logSoftmax
  refine congrArg (FloatOps.subf (F := Ideal) _) (congrArg (FloatOps.log (F := Ideal)) ?_)
  refine Finset.sum_congr rfl fun k _ => ?_
  rw [hz, hrow]

/-! ## The region -/

/-- The array's window and the output's move together, at block row `t`, column block 0; the bias window stays at (0, 0). -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the log-softmax of the biased array as the region finds it. -/
theorem flushed_eq (c : Dev nD) (t : Fin cfg5.N) :
    (dat5 V c).flushed 2 t
      = ((cfg5.win 2).blk t).view.read (Elt Ideal) (logSoftmax (shifted (V c main_v57) (V c main_v58))) := by
  show (cfg5.win 2).cut (grid5.coords t) ((dat5 V c).after 2 t) = _
  rw [after5_2]
  unfold out5_2
  rw [View.canon_unit_zero zero_offsets]
  simp only [View.ld_unit_zero (S := S5000x7) zero_offsets, View.ld_unit_zero (S := S1x7) zero_offsets]
  obtain ⟨e0, e1, e2, e3, e4, e5⟩ := index_facts t
  funext j
  show k5_pay1 (F := Ideal) (iblk5 V c 0 t) (iblk5 V c 1 t) j
    = logSoftmax (shifted (V c main_v57) (V c main_v58)) (((cfg5.win 2).blk t).view.emb j)
  refine block_eq (iblk5 V c 0 t) (iblk5 V c 1 t) (shifted (V c main_v57) (V c main_v58)) (((cfg5.win 2).blk t).view.emb) ?_ ?_ j
  · intro j'
    have h0 : iblk5 V c 0 t j' = V c main_v57 (((cfg5.win 2).blk t).view.emb j') := by
      show V c main_v57 (((cfg5.win 0).blk t).view.emb j') = _
      refine congrArg (V c main_v57) ?_
      funext a; apply Fin.ext
      match a with
      | ⟨0, _⟩ => show win5_0.index t (0 : Fin 2) * 5000 + 1 * (j' 0).val = win5_2.index t (0 : Fin 2) * 5000 + 1 * (j' 0).val; omega
      | ⟨1, _⟩ => show win5_0.index t (1 : Fin 2) * 7 + 1 * (j' 1).val = win5_2.index t (1 : Fin 2) * 7 + 1 * (j' 1).val; omega
    have h1 : ∀ k : S1x7.Idx, (k 0).val = 0 → (k 1).val = (j' 1).val →
        iblk5 V c 1 t k = V c main_v58 (biasOf (((cfg5.win 2).blk t).view.emb j')) := by
      intro k hk0 hk1
      show V c main_v58 (((cfg5.win 1).blk t).view.emb k) = _
      refine congrArg (V c main_v58) ?_
      funext a; apply Fin.ext
      match a with
      | ⟨0, _⟩ => show win5_1.index t (0 : Fin 2) * 1 + 1 * (k 0).val = 0; omega
      | ⟨1, _⟩ => show win5_1.index t (1 : Fin 2) * 7 + 1 * (k 1).val = win5_2.index t (1 : Fin 2) * 7 + 1 * (j' 1).val; omega
    unfold blkShift shifted
    rw [h0]
    exact congrArg (FloatOps.addf (F := Ideal) _) (h1 _ rfl rfl)
  · intro j' k
    funext a; apply Fin.ext
    match a with
    | ⟨0, _⟩ => show win5_2.index t (0 : Fin 2) * 5000 + 1 * (j' 0).val = win5_2.index t (0 : Fin 2) * 5000 + 1 * (j' 0).val; rfl
    | ⟨1, _⟩ => show win5_2.index t (1 : Fin 2) * 7 + 1 * k.val = k.val; omega

/-- An index is in point `t`'s block iff each coordinate is in the block's range on its axis. -/
theorem mem_block (t : Fin cfg5.N) (i : S500000x7.Idx) :
    i ∈ ((cfg5.win 2).blk t).view.set ↔ ∀ a : Fin 2, win5_2.index t a * S5000x7.size a ≤ (i a).val ∧ (i a).val < win5_2.index t a * S5000x7.size a + S5000x7.size a := by
  show i ∈ ((View.whole main_v59).slice (win5_2.rect t)).set ↔ _
  rw [View.set_slice_whole, Rect.mem_set_unit]
  exact Iff.rfl

/-- Every index is in the block of the point its row falls in. -/
theorem covered (i : S500000x7.Idx) :
    ∃ t : Fin cfg5.N, (cfg5.win 2).flush t = true ∧ i ∈ ((cfg5.win 2).blk t).view.set := by
  have hi0 : (i 0).val < 500000 := (i 0).isLt
  have hi1 : (i 1).val < 7 := (i 1).isLt
  have hN : cfg5.N = 100 := N_5
  let t : Fin cfg5.N := ⟨(i 0).val / 5000, by rw [hN]; omega⟩
  obtain ⟨e0, e1, e2, e3, e4, e5⟩ := index_facts t
  have ht : t.val = (i 0).val / 5000 := rfl
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 7 ≤ (i 1).val ∧ (i 1).val < win5_2.index t (1 : Fin 2) * 7 + 7; omega

/-- The array after the region: the log-softmax of the array it was entered with plus the bias row. -/
theorem final (c : Dev nD) :
    (dat5 V c).arrAt 2 cfg5.N = logSoftmax (shifted (V c main_v57) (V c main_v58)) :=
  (dat5 V c).arrAt_eq_of_cover 2 _ (fun t _ => flushed_eq V c t) covered

/-! ## The reference's side

The reference adds the bias by two `broadcast_in_dim`s of the 7-vector and then calls jax's `log_softmax`: the row maximum
by a host reduce from −∞ (and one more maximum with a −∞ splat), the centred array, the host sum of its exponentials from
0, the logarithm, the last subtraction. Read at an index each is the corresponding piece of `logSoftmax`. -/

/-- The kernel's bias row is the 7-vector recast as one row; adding it along the rows is the reference's addition of
    the vector broadcast to the array's shape. -/
theorem shifted_eq_ref (s : FVec Ideal S500000x7 .f32) (b : FVec Ideal S7 .f32) :
    shifted s (shapeCast S1x7 b shapeCasts_S7_S1x7)
      = addf (F := Ideal) s (broadcastInDim Cert.ReferenceIdeal.S500000x7 ![0, 1] Cert.ReferenceIdeal.Gen.bcast_S1x7_S500000x7_0_1
          (broadcastInDim Cert.ReferenceIdeal.S1x7 ![1] Cert.ReferenceIdeal.Gen.bcast_S7_S1x7_1 b)) := by
  funext i
  show FloatOps.addf (F := Ideal) (s i) (shapeCast S1x7 b shapeCasts_S7_S1x7 (biasOf i))
    = FloatOps.addf (F := Ideal) (s i) (broadcastInDim Cert.ReferenceIdeal.S500000x7 ![0, 1] Cert.ReferenceIdeal.Gen.bcast_S1x7_S500000x7_0_1
        (broadcastInDim Cert.ReferenceIdeal.S1x7 ![1] Cert.ReferenceIdeal.Gen.bcast_S7_S1x7_1 b) i)
  refine congrArg (FloatOps.addf (F := Ideal) (s i)) ?_
  have hl : shapeCast S1x7 b shapeCasts_S7_S1x7 (biasOf i) = b (fun a => match a with
      | ⟨0, _⟩ => ⟨(i 1).val, (i 1).isLt⟩) := by
    refine shapeCast_apply b shapeCasts_S7_S1x7 (biasOf i) _ ?_
    rw [Shape.rowMajor_val_one, Shape.rowMajor_val_two]
    show (i 1).val = 0 * 7 + (i 1).val
    omega
  refine hl.trans ?_
  symm
  refine (broadcastInDim_apply _ Cert.ReferenceIdeal.Gen.bcast_S1x7_S500000x7_0_1 _ i (biasOf i) (fun a => match a with
    | ⟨0, _⟩ => by show 0 = if (1 : Nat) = 1 then 0 else (i 0).val; rw [if_pos rfl]
    | ⟨1, _⟩ => by show (i 1).val = if (7 : Nat) = 1 then 0 else (i 1).val; rw [if_neg (by decide)])).trans ?_
  exact broadcastInDim_apply _ Cert.ReferenceIdeal.Gen.bcast_S7_S1x7_1 b (biasOf i) _ (fun a => match a with
    | ⟨0, _⟩ => by show (i 1).val = if (7 : Nat) = 1 then 0 else (i 1).val; rw [if_neg (by decide)])

/-- The reference's row maxima: the host reduce with a maximum body from −∞ over the columns, and one more maximum with a
    −∞ splat (`log_softmax`'s %cst … %2). -/
def refMax (y : FVec Ideal Cert.ReferenceIdeal.S500000x7 .f32) : FVec Ideal Cert.ReferenceIdeal.S500000 .f32 :=
  maximumf (F := Ideal)
    (broadcastInDim Cert.ReferenceIdeal.S500000 ![] Cert.ReferenceIdeal.Gen.bcast_S_S500000 (constant (F := Ideal) Cert.ReferenceIdeal.S_ .f32 0xFF800000#32))
    (Host.reduce (FloatOps.maximumf (F := Ideal) (φ := .f32)) y (constant (F := Ideal) Cert.ReferenceIdeal.S_ .f32 0xFF800000#32)
      Cert.ReferenceIdeal.Gen.reducesTo_S500000x7_S500000_d1 Cert.ReferenceIdeal.Gen.h_S_)

/-- The reference's centred array: each entry less its row's maximum (`log_softmax`'s %3 … %5). -/
def refCentered (y : FVec Ideal Cert.ReferenceIdeal.S500000x7 .f32) : FVec Ideal Cert.ReferenceIdeal.S500000x7 .f32 :=
  subf (F := Ideal) y (broadcastInDim Cert.ReferenceIdeal.S500000x7 ![0, 1] Cert.ReferenceIdeal.Gen.bcast_S500000x1_S500000x7_0_1
    (broadcastInDim Cert.ReferenceIdeal.S500000x1 ![0] Cert.ReferenceIdeal.Gen.bcast_S500000_S500000x1_0 (refMax y)))

/-- jax's `log_softmax` as the reference prints it (its operations %cst … %11), of one array. -/
def refLogSoftmax (y : FVec Ideal Cert.ReferenceIdeal.S500000x7 .f32) : FVec Ideal Cert.ReferenceIdeal.S500000x7 .f32 :=
  subf (F := Ideal) (refCentered y) (broadcastInDim Cert.ReferenceIdeal.S500000x7 ![0, 1] Cert.ReferenceIdeal.Gen.bcast_S500000x1_S500000x7_0_1
    (Host.log (F := Ideal) (broadcastInDim Cert.ReferenceIdeal.S500000x1 ![0] Cert.ReferenceIdeal.Gen.bcast_S500000_S500000x1_0
      (Host.reduceAdd (F := Ideal) (Host.exp (F := Ideal) (refCentered y)) (constant (F := Ideal) Cert.ReferenceIdeal.S_ .f32 0x00000000#32)
        Cert.ReferenceIdeal.Gen.reducesTo_S500000x7_S500000_d1 Cert.ReferenceIdeal.Gen.h_S_))))

/-- The row of `i` as an index of the reduced shape. -/
abbrev rowOf (i : S500000x7.Idx) : Cert.ReferenceIdeal.S500000.Idx := fun a => match a with
  | ⟨0, _⟩ => ⟨(i 0).val, (i 0).isLt⟩

/-- A row value kept as a column and broadcast back over the array, read at `i`: the value of `i`'s row. -/
theorem keep_bcast (x : FVec Ideal Cert.ReferenceIdeal.S500000 .f32) (i : S500000x7.Idx) :
    broadcastInDim Cert.ReferenceIdeal.S500000x7 ![0, 1] Cert.ReferenceIdeal.Gen.bcast_S500000x1_S500000x7_0_1
      (broadcastInDim Cert.ReferenceIdeal.S500000x1 ![0] Cert.ReferenceIdeal.Gen.bcast_S500000_S500000x1_0 x) i = x (rowOf i) := by
  refine (broadcastInDim_apply _ Cert.ReferenceIdeal.Gen.bcast_S500000x1_S500000x7_0_1 _ i (fun a => match a with
    | ⟨0, _⟩ => ⟨(i 0).val, (i 0).isLt⟩
    | ⟨1, _⟩ => ⟨0, Nat.one_pos⟩) (fun a => match a with
    | ⟨0, _⟩ => by show (i 0).val = if (500000 : Nat) = 1 then 0 else (i 0).val; rw [if_neg (by decide)]
    | ⟨1, _⟩ => by show 0 = if (1 : Nat) = 1 then 0 else (i 1).val; rw [if_pos rfl])).trans ?_
  exact broadcastInDim_apply _ Cert.ReferenceIdeal.Gen.bcast_S500000_S500000x1_0 x _ (rowOf i) (fun a => match a with
    | ⟨0, _⟩ => by show (i 0).val = if (500000 : Nat) = 1 then 0 else (i 0).val; rw [if_neg (by decide)])

/-- The host's reduce with a maximum body from −∞ over the columns, at `i`'s row, is `rowMax`. -/
theorem refReduce_apply (y : FVec Ideal S500000x7 .f32) (i : S500000x7.Idx) :
    Host.reduce (FloatOps.maximumf (F := Ideal) (φ := .f32)) y (constant (F := Ideal) Cert.ReferenceIdeal.S_ .f32 0xFF800000#32)
      Cert.ReferenceIdeal.Gen.reducesTo_S500000x7_S500000_d1 Cert.ReferenceIdeal.Gen.h_S_ (rowOf i) = rowMax y i := by
  have hR : S500000x7.Reduces [1] Cert.ReferenceIdeal.S500000 := by decide
  refine (Host.reduce_eq_fold_single (FloatOps.maximumf (F := Ideal) (φ := .f32)) y _ Cert.ReferenceIdeal.Gen.reducesTo_S500000x7_S500000_d1
      hR Cert.ReferenceIdeal.Gen.h_S_ (rowOf i)).trans ?_
  have hf : (y ∘ hR.lift (rowOf i)) = fun k : Fin 7 => y (inRow i k) :=
    funext fun k => congrArg y (funext fun a => Fin.ext (by match a with | ⟨0, _⟩ => rfl | ⟨1, _⟩ => rfl))
  unfold rowMax
  exact congrArg (fun f => Finset.fold max (FloatOps.ofBits (F := Ideal) .f32 0xFF800000#32) f (Finset.univ : Finset (Fin 7))) hf

/-- The maximum of two vectors, read at an index. -/
theorem vmax_apply (X Y : FVec Ideal Cert.ReferenceIdeal.S500000 .f32) (r : Cert.ReferenceIdeal.S500000.Idx) :
    maximumf (F := Ideal) X Y r = max (X r) (Y r) := rfl

/-- The reference's row maximum at `i`'s row is `rowMax`: the fold starts from −∞, so the extra maximum with −∞ changes nothing. -/
theorem refMax_apply (y : FVec Ideal S500000x7 .f32) (i : S500000x7.Idx) : refMax y (rowOf i) = rowMax y i := by
  have hb : broadcastInDim Cert.ReferenceIdeal.S500000 ![] Cert.ReferenceIdeal.Gen.bcast_S_S500000
      (constant (F := Ideal) Cert.ReferenceIdeal.S_ .f32 0xFF800000#32) (rowOf i) = FloatOps.ofBits (F := Ideal) .f32 0xFF800000#32 := rfl
  unfold refMax
  rw [vmax_apply, hb, refReduce_apply]
  refine max_eq_right ?_
  unfold rowMax
  exact (Finset.le_fold_max _).2 (Or.inl le_rfl)

/-- The host's exponential of a vector, read at an index. -/
theorem hexp_apply (X : FVec Ideal S500000x7 .f32) (i : S500000x7.Idx) :
    Host.exp (F := Ideal) X i = FloatOps.exp (F := Ideal) (X i) := rfl

/-- The difference of two vectors, read at an index. -/
theorem vsub_apply (X Y : FVec Ideal S500000x7 .f32) (i : S500000x7.Idx) :
    subf (F := Ideal) X Y i = FloatOps.subf (F := Ideal) (X i) (Y i) := rfl

theorem refCentered_apply (y : FVec Ideal S500000x7 .f32) (i : S500000x7.Idx) :
    refCentered y i = FloatOps.subf (F := Ideal) (y i) (rowMax y i) := by
  unfold refCentered
  rw [vsub_apply, keep_bcast, refMax_apply]

/-- Entries of one row have the same row maximum. -/
theorem rowMax_inRow (y : FVec Ideal S500000x7 .f32) (i : S500000x7.Idx) (k : Fin 7) : rowMax y (inRow i k) = rowMax y i := rfl

/-- The reference's row sums from 0, kept as a column, their logarithm taken and broadcast back over the array
    (`log_softmax`'s %cst_1 … %10), read at `i`: the logarithm of the sum over `i`'s row. -/
theorem refLse_apply (w : FVec Ideal S500000x7 .f32) (i : S500000x7.Idx) :
    broadcastInDim Cert.ReferenceIdeal.S500000x7 ![0, 1] Cert.ReferenceIdeal.Gen.bcast_S500000x1_S500000x7_0_1
      (Host.log (F := Ideal) (broadcastInDim Cert.ReferenceIdeal.S500000x1 ![0] Cert.ReferenceIdeal.Gen.bcast_S500000_S500000x1_0
        (Host.reduceAdd (F := Ideal) w (constant (F := Ideal) Cert.ReferenceIdeal.S_ .f32 0x00000000#32)
          Cert.ReferenceIdeal.Gen.reducesTo_S500000x7_S500000_d1 Cert.ReferenceIdeal.Gen.h_S_))) i
      = FloatOps.log (F := Ideal) (∑ k : Fin 7, w (inRow i k)) := by
  have hR : S500000x7.Reduces [1] Cert.ReferenceIdeal.S500000 := by decide
  have hSr : Host.reduceAdd (F := Ideal) w (constant (F := Ideal) Cert.ReferenceIdeal.S_ .f32 0x00000000#32)
      Cert.ReferenceIdeal.Gen.reducesTo_S500000x7_S500000_d1 Cert.ReferenceIdeal.Gen.h_S_ (rowOf i) = ∑ k : Fin 7, w (inRow i k) := by
    simp only [Host.reduceAdd, Ideal.hostReduceAdd_def]
    rw [Ideal.hostReduceAdd_single Cert.ReferenceIdeal.Gen.reducesTo_S500000x7_S500000_d1 hR]
    have h0 : constant (F := Ideal) Cert.ReferenceIdeal.S_ .f32 0x00000000#32 (Shape.Idx.first Cert.ReferenceIdeal.Gen.h_S_) = (0 : Ideal .f32) :=
      Ideal.ofBits_zero_f32
    rw [h0, zero_add]
    refine Finset.sum_congr rfl fun k _ => ?_
    exact congrArg w (funext fun a => Fin.ext (by match a with | ⟨0, _⟩ => rfl | ⟨1, _⟩ => rfl))
  generalize Host.reduceAdd (F := Ideal) w (constant (F := Ideal) Cert.ReferenceIdeal.S_ .f32 0x00000000#32)
      Cert.ReferenceIdeal.Gen.reducesTo_S500000x7_S500000_d1 Cert.ReferenceIdeal.Gen.h_S_ = S at hSr ⊢
  refine (broadcastInDim_apply _ Cert.ReferenceIdeal.Gen.bcast_S500000x1_S500000x7_0_1 _ i (fun a => match a with
    | ⟨0, _⟩ => ⟨(i 0).val, (i 0).isLt⟩
    | ⟨1, _⟩ => ⟨0, Nat.one_pos⟩) (fun a => match a with
    | ⟨0, _⟩ => by show (i 0).val = if (500000 : Nat) = 1 then 0 else (i 0).val; rw [if_neg (by decide)]
    | ⟨1, _⟩ => by show 0 = if (1 : Nat) = 1 then 0 else (i 1).val; rw [if_pos rfl])).trans ?_
  show FloatOps.hostUnary (F := Ideal) .log (broadcastInDim Cert.ReferenceIdeal.S500000x1 ![0] Cert.ReferenceIdeal.Gen.bcast_S500000_S500000x1_0 S _) = _
  rw [Ideal.hostUnary_log_def, Ideal.log_def]
  refine congrArg Ideal.log ?_
  exact (broadcastInDim_apply _ Cert.ReferenceIdeal.Gen.bcast_S500000_S500000x1_0 S _ (rowOf i) (fun a => match a with
    | ⟨0, _⟩ => by show (i 0).val = if (500000 : Nat) = 1 then 0 else (i 0).val; rw [if_neg (by decide)])).trans hSr

/-- The kernel's function of the biased array is jax's `log_softmax` of it, as the reference prints it. -/
theorem logSoftmax_eq_ref (y : FVec Ideal S500000x7 .f32) : logSoftmax y = refLogSoftmax y := by
  funext i
  symm
  unfold refLogSoftmax
  rw [vsub_apply, refLse_apply, refCentered_apply]
  unfold logSoftmax
  refine congrArg (FloatOps.subf (F := Ideal) _) (congrArg (FloatOps.log (F := Ideal)) ?_)
  refine Finset.sum_congr rfl fun k _ => ?_
  rw [hexp_apply, refCentered_apply, rowMax_inRow]

end Cert.KernelIdeal.BiasLogSoftmax

end
-- ==== Proof.Stage5.lean ====
import proofs.«156346_j3951369912440_2_alg».proof.Proof.Gen.KernelIdeal.Frame
import proofs.«156346_j3951369912440_2_alg».proof.Proof.RefRead
import proofs.«156346_j3951369912440_2_alg».proof.Proof.BiasLogSoftmax

/-!
# The last region against the reference's `log_softmax (out + b2)`
-/

noncomputable section

namespace Cert.KernelIdeal.Stages

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- Region 5's output is the reference's `log_softmax` of the second layer's sums plus the second bias. -/
theorem logits (hs : W12 m ρ c (Proc.devRef .tc main_v57) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (hb : W12 m ρ c (Proc.devRef .tc main_v58) = shapeCast S1x7 (m ((c : Thread nD τ).loc main_arg5)) shapeCasts_S7_S1x7) :
    W13 m ρ c (Proc.devRef .tc main_v59) = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W13_arr m ρ c 2).trans ?_
  rw [BiasLogSoftmax.final (V12 m ρ) c]
  rw [show V12 m ρ c main_v57 = _ from hs, show V12 m ρ c main_v58 = _ from hb]
  rw [BiasLogSoftmax.shifted_eq_ref, BiasLogSoftmax.logSoftmax_eq_ref]
  rfl

end Cert.KernelIdeal.Stages

end
-- ==== Proof.Kept.lean ====
import proofs.«156346_j3951369912440_2_alg».proof.Proof.Gen.KernelIdeal.Frame

/-!
# Which buffers each stretch of host operations and each region leaves alone

A buffer that a stretch of host operations does not write holds after the stretch what it held before; a buffer that
is not one of a region's three arrays holds after the region what it held before. Chained, these carry the edge
lists, the edge coefficients and the argument arrays from where they are computed to where they are next read.
-/

noncomputable section

namespace Cert.KernelIdeal.Kept

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The buffers the operations of `hostOps0` write. -/
abbrev written0 : List (Ref sig .tc) := [main_v0, main_v1, main_v2, main_v3, main_v4, main_v5, main_v6, main_cst, main_v7, main_cst_0, main_v8, main_v9, main_v10, main_cst_1, main_v11, main_v12, main_v13, main_cst_2]
theorem written0_sub : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps1` write. -/
abbrev written1 : List (Ref sig .tc) := [main_c_6, main_v31, main_v32, main_c_7, main_v33, main_v34, main_v35, main_v36, main_v37, main_v38]
theorem written1_sub : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps2` write. -/
abbrev written2 : List (Ref sig .tc) := [main_cst_8, main_v40, main_v41, main_v42, main_v43]
theorem written2_sub : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4` write. -/
abbrev written4 : List (Ref sig .tc) := [main_c_9, main_v46, main_v47, main_c_10, main_v48, main_v49, main_v50, main_v51, main_v52, main_v53]
theorem written4_sub : (hostOps4 : List (HloOp τ sig (Elt F))).Forall fun op => op.writes ⊆ (written4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps5` write. -/
abbrev written5 : List (Ref sig .tc) := [main_cst_11, main_v55, main_v56, main_v57, main_v58]
theorem written5_sub : (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps0_1` write. -/
abbrev written0_1 : List (Ref sig .tc) := [main_call0_v0, main_call0_v1, main_v14]
theorem written0_1_sub : (hostOps0_1 : List (HloOp τ sig (Elt F))).Forall fun op => op.writes ⊆ (written0_1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps0_2` write. -/
abbrev written0_2 : List (Ref sig .tc) := [main_c, main_v15, main_v16, main_c_3, main_v17, main_v18, main_v19, main_v20, main_v21, main_c_4, main_v22, main_v23, main_c_5, main_v24, main_v25, main_v26, main_v27, main_v28, main_v29]
theorem written0_2_sub : (hostOps0_2 : List (HloOp τ sig (Elt F))).Forall fun op => op.writes ⊆ (written0_2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem host1 {r : Ref sig .tc} (h : r ∉ written0) : W1 m ρ c (Proc.devRef .tc r) = W0 m ρ c (Proc.devRef .tc r) :=
  StableHlo.after_of_writes_sub hostOps0 _ written0_sub h
theorem host2 {r : Ref sig .tc} (h : r ∉ written0_1) : W2 m ρ c (Proc.devRef .tc r) = W1 m ρ c (Proc.devRef .tc r) :=
  StableHlo.after_of_writes_sub hostOps0_1 _ written0_1_sub h
theorem host3 {r : Ref sig .tc} (h : r ∉ written0_2) : W3 m ρ c (Proc.devRef .tc r) = W2 m ρ c (Proc.devRef .tc r) :=
  StableHlo.after_of_writes_sub hostOps0_2 _ written0_2_sub h
theorem host5 {r : Ref sig .tc} (h : r ∉ written1) : W5 m ρ c (Proc.devRef .tc r) = W4 m ρ c (Proc.devRef .tc r) :=
  StableHlo.after_of_writes_sub hostOps1 _ written1_sub h
theorem host7 {r : Ref sig .tc} (h : r ∉ written2) : W7 m ρ c (Proc.devRef .tc r) = W6 m ρ c (Proc.devRef .tc r) :=
  StableHlo.after_of_writes_sub hostOps2 _ written2_sub h
theorem host10 {r : Ref sig .tc} (h : r ∉ written4) : W10 m ρ c (Proc.devRef .tc r) = W9 m ρ c (Proc.devRef .tc r) :=
  StableHlo.after_of_writes_sub hostOps4 _ written4_sub h
theorem host12 {r : Ref sig .tc} (h : r ∉ written5) : W12 m ρ c (Proc.devRef .tc r) = W11 m ρ c (Proc.devRef .tc r) :=
  StableHlo.after_of_writes_sub hostOps5 _ written5_sub h
theorem region4 {r : Ref sig .tc} (h : ∀ w, Pipeline.arrRef spec0 w ≠ r) : W4 m ρ c (Proc.devRef .tc r) = W3 m ρ c (Proc.devRef .tc r) :=
  W4_of_ne m ρ c r h
theorem region6 {r : Ref sig .tc} (h : ∀ w, Pipeline.arrRef spec1 w ≠ r) : W6 m ρ c (Proc.devRef .tc r) = W5 m ρ c (Proc.devRef .tc r) :=
  W6_of_ne m ρ c r h
theorem region8 {r : Ref sig .tc} (h : ∀ w, Pipeline.arrRef spec2 w ≠ r) : W8 m ρ c (Proc.devRef .tc r) = W7 m ρ c (Proc.devRef .tc r) :=
  W8_of_ne m ρ c r h
theorem region9 {r : Ref sig .tc} (h : ∀ w, Pipeline.arrRef spec3 w ≠ r) : W9 m ρ c (Proc.devRef .tc r) = W8 m ρ c (Proc.devRef .tc r) :=
  W9_of_ne m ρ c r h
theorem region11 {r : Ref sig .tc} (h : ∀ w, Pipeline.arrRef spec4 w ≠ r) : W11 m ρ c (Proc.devRef .tc r) = W10 m ρ c (Proc.devRef .tc r) :=
  W11_of_ne m ρ c r h
theorem region13 {r : Ref sig .tc} (h : ∀ w, Pipeline.arrRef spec5 w ≠ r) : W13 m ρ c (Proc.devRef .tc r) = W12 m ρ c (Proc.devRef .tc r) :=
  W13_of_ne m ρ c r h

end Cert.KernelIdeal.Kept

end
-- ==== Proof.KernelInputs.lean ====
import proofs.«156346_j3951369912440_2_alg».proof.Proof.Kept
import proofs.«156346_j3951369912440_2_alg».proof.Proof.RefRead

/-!
# What the kernel program's regions find in the buffers they read

Before the first region the kernel program computes, on the host, the two edge lists (the sources and the targets of
the edges, each with the self loops appended), the degree of every node, its inverse square root where the degree is
positive and zero elsewhere, and for every edge the product of the two values at its endpoints: the edge's
coefficient. The reference computes the same values by the same operations in the same order, so each of these
buffers holds, when the first region is entered, the reference's value of the same stage, as a function of the edge
array alone. Nothing after that writes these buffers, nor the argument arrays, so every later region that reads one
of them finds the same contents.
-/

noncomputable section

namespace Cert.KernelIdeal.Inputs

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## After the first stretch of host operations: the edge lists and the degree side -/

/-- The sources of the edges, self loops appended. -/
theorem row1 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results
  rfl

/-- The targets of the edges, self loops appended. -/
theorem col1 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results
  rfl

/-- Where the degree is positive. -/
theorem pos1 : W1 m ρ c (Proc.devRef .tc main_v12) = Cert.ReferenceIdeal.ReadP.val_main_v13 (F := Ideal) (m ((c : Thread nD τ).loc main_arg1)) := by
  show StableHlo.after hostOps0 (W0 m ρ c) (Proc.devRef .tc main_v12) = _
  after_results
  rfl

/-- The inverse square root of the degree. -/
theorem rsqrt1 : W1 m ρ c (Proc.devRef .tc main_v13) = Cert.ReferenceIdeal.ReadP.val_main_v14 (F := Ideal) (m ((c : Thread nD τ).loc main_arg1)) := by
  show StableHlo.after hostOps0 (W0 m ρ c) (Proc.devRef .tc main_v13) = _
  after_results
  rfl

/-- The zero that stands where the degree is not positive. -/
theorem zero1 : W1 m ρ c (Proc.devRef .tc main_cst_2) = Cert.ReferenceIdeal.ReadP.val_main_cst_2 (F := Ideal) := by
  show StableHlo.after hostOps0 (W0 m ρ c) (Proc.devRef .tc main_cst_2) = _
  after_results
  rfl

/-! ## After the selection: the inverse square roots of the degrees, zero where the degree is not positive -/

theorem row2 : W2 m ρ c (Proc.devRef .tc main_v3) = Cert.ReferenceIdeal.ReadP.val_main_v3 (F := Ideal) (m ((c : Thread nD τ).loc main_arg1)) :=
  (Kept.host2 m ρ c (r := main_v3) (by decide)).trans (row1 m ρ c)

theorem col2 : W2 m ρ c (Proc.devRef .tc main_v6) = Cert.ReferenceIdeal.ReadP.val_main_v6 (F := Ideal) (m ((c : Thread nD τ).loc main_arg1)) :=
  (Kept.host2 m ρ c (r := main_v6) (by decide)).trans (col1 m ρ c)

theorem isd2 : W2 m ρ c (Proc.devRef .tc main_v14) = Cert.ReferenceIdeal.ReadP.val_main_v15 (F := Ideal) (m ((c : Thread nD τ).loc main_arg1)) := by
  have h12 := pos1 m ρ c
  have h13 := rsqrt1 m ρ c
  have hz := zero1 m ρ c
  show StableHlo.after hostOps0_1 (W1 m ρ c) (Proc.devRef .tc main_v14) = _
  generalize W1 m ρ c = Vv at h12 h13 hz ⊢
  after_results
  show select (Vv (Proc.devRef .tc main_v12)) (Vv (Proc.devRef .tc main_v13))
    (broadcastInDim S500000 ![] bcast_S_S500000 (id (Vv (Proc.devRef .tc main_cst_2)))) = _
  rw [h12, h13, hz]
  unfold Cert.ReferenceIdeal.ReadP.val_main_v15 Cert.ReferenceIdeal.ReadP.val_main_call0_v1 Cert.ReferenceIdeal.ReadP.val_main_call0_v0
  rfl

/-! ## At the first region's entry -/

theorem row3 : W3 m ρ c (Proc.devRef .tc main_v3) = Cert.ReferenceIdeal.ReadP.val_main_v3 (F := Ideal) (m ((c : Thread nD τ).loc main_arg1)) :=
  (Kept.host3 m ρ c (r := main_v3) (by decide)).trans (row2 m ρ c)

theorem col3 : W3 m ρ c (Proc.devRef .tc main_v6) = Cert.ReferenceIdeal.ReadP.val_main_v6 (F := Ideal) (m ((c : Thread nD τ).loc main_arg1)) :=
  (Kept.host3 m ρ c (r := main_v6) (by decide)).trans (col2 m ρ c)

/-- The edge coefficients: the product of the two endpoints' inverse square roots. -/
theorem norm3 : W3 m ρ c (Proc.devRef .tc main_v29) = Cert.ReferenceIdeal.ReadP.val_main_v30 (F := Ideal) (m ((c : Thread nD τ).loc main_arg1)) := by
  have hr := row2 m ρ c
  have hc := col2 m ρ c
  have hi := isd2 m ρ c
  show StableHlo.after hostOps0_2 (W2 m ρ c) (Proc.devRef .tc main_v29) = _
  generalize W2 m ρ c = Vv at hr hc hi ⊢
  after_results_simp
  rw [hr, hc, hi]
  unfold Cert.ReferenceIdeal.ReadP.val_main_v30 Cert.ReferenceIdeal.ReadP.val_main_v22 Cert.ReferenceIdeal.ReadP.val_main_v29 Cert.ReferenceIdeal.ReadP.val_main_v21 Cert.ReferenceIdeal.ReadP.val_main_v28
    Cert.ReferenceIdeal.ReadP.val_main_v20 Cert.ReferenceIdeal.ReadP.val_main_v27 Cert.ReferenceIdeal.ReadP.val_main_v17 Cert.ReferenceIdeal.ReadP.val_main_v19 Cert.ReferenceIdeal.ReadP.val_main_v24 Cert.ReferenceIdeal.ReadP.val_main_v26
    Cert.ReferenceIdeal.ReadP.val_main_v16 Cert.ReferenceIdeal.ReadP.val_main_v18 Cert.ReferenceIdeal.ReadP.val_main_v23 Cert.ReferenceIdeal.ReadP.val_main_v25
    Cert.ReferenceIdeal.ReadP.val_main_c Cert.ReferenceIdeal.ReadP.val_main_c_3 Cert.ReferenceIdeal.ReadP.val_main_c_4 Cert.ReferenceIdeal.ReadP.val_main_c_5
  rfl

/-- The two arrays of the first product are as launched. -/
theorem x3 : W3 m ρ c (Proc.devRef .tc main_arg0) = m ((c : Thread nD τ).loc main_arg0) :=
  (((Kept.host3 m ρ c (r := main_arg0) (by decide)).trans (Kept.host2 m ρ c (r := main_arg0) (by decide))).trans (Kept.host1 m ρ c (r := main_arg0) (by decide)))

theorem w3 : W3 m ρ c (Proc.devRef .tc main_arg2) = m ((c : Thread nD τ).loc main_arg2) :=
  (((Kept.host3 m ρ c (r := main_arg2) (by decide)).trans (Kept.host2 m ρ c (r := main_arg2) (by decide))).trans (Kept.host1 m ρ c (r := main_arg2) (by decide)))

/-! ## The same values where they are next read -/

theorem row4 : W4 m ρ c (Proc.devRef .tc main_v3) = Cert.ReferenceIdeal.ReadP.val_main_v3 (F := Ideal) (m ((c : Thread nD τ).loc main_arg1)) :=
  (Kept.region4 m ρ c (r := main_v3) (by decide)).trans (row3 m ρ c)

theorem norm4 : W4 m ρ c (Proc.devRef .tc main_v29) = Cert.ReferenceIdeal.ReadP.val_main_v30 (F := Ideal) (m ((c : Thread nD τ).loc main_arg1)) :=
  (Kept.region4 m ρ c (r := main_v29) (by decide)).trans (norm3 m ρ c)

theorem col6 : W6 m ρ c (Proc.devRef .tc main_v6) = Cert.ReferenceIdeal.ReadP.val_main_v6 (F := Ideal) (m ((c : Thread nD τ).loc main_arg1)) :=
  (((Kept.region6 m ρ c (r := main_v6) (by decide)).trans (Kept.host5 m ρ c (r := main_v6) (by decide))).trans (Kept.region4 m ρ c (r := main_v6) (by decide))).trans (col3 m ρ c)

theorem row9 : W9 m ρ c (Proc.devRef .tc main_v3) = Cert.ReferenceIdeal.ReadP.val_main_v3 (F := Ideal) (m ((c : Thread nD τ).loc main_arg1)) :=
  (((((Kept.region9 m ρ c (r := main_v3) (by decide)).trans (Kept.region8 m ρ c (r := main_v3) (by decide))).trans (Kept.host7 m ρ c (r := main_v3) (by decide))).trans (Kept.region6 m ρ c (r := main_v3) (by decide))).trans (Kept.host5 m ρ c (r := main_v3) (by decide))).trans (row4 m ρ c)

theorem norm9 : W9 m ρ c (Proc.devRef .tc main_v29) = Cert.ReferenceIdeal.ReadP.val_main_v30 (F := Ideal) (m ((c : Thread nD τ).loc main_arg1)) :=
  (((((Kept.region9 m ρ c (r := main_v29) (by decide)).trans (Kept.region8 m ρ c (r := main_v29) (by decide))).trans (Kept.host7 m ρ c (r := main_v29) (by decide))).trans (Kept.region6 m ρ c (r := main_v29) (by decide))).trans (Kept.host5 m ρ c (r := main_v29) (by decide))).trans (norm4 m ρ c)

theorem col11 : W11 m ρ c (Proc.devRef .tc main_v6) = Cert.ReferenceIdeal.ReadP.val_main_v6 (F := Ideal) (m ((c : Thread nD τ).loc main_arg1)) :=
  (((((Kept.region11 m ρ c (r := main_v6) (by decide)).trans (Kept.host10 m ρ c (r := main_v6) (by decide))).trans (Kept.region9 m ρ c (r := main_v6) (by decide))).trans (Kept.region8 m ρ c (r := main_v6) (by decide))).trans (Kept.host7 m ρ c (r := main_v6) (by decide))).trans (col6 m ρ c)

/-- The first bias, the second weight and the second bias are as launched where their regions read them. -/
theorem b1_6 : W6 m ρ c (Proc.devRef .tc main_arg3) = m ((c : Thread nD τ).loc main_arg3) :=
  ((((((Kept.region6 m ρ c (r := main_arg3) (by decide)).trans (Kept.host5 m ρ c (r := main_arg3) (by decide))).trans (Kept.region4 m ρ c (r := main_arg3) (by decide))).trans (Kept.host3 m ρ c (r := main_arg3) (by decide))).trans (Kept.host2 m ρ c (r := main_arg3) (by decide))).trans (Kept.host1 m ρ c (r := main_arg3) (by decide)))

theorem w2_8 : W8 m ρ c (Proc.devRef .tc main_arg4) = m ((c : Thread nD τ).loc main_arg4) :=
  ((((((((Kept.region8 m ρ c (r := main_arg4) (by decide)).trans (Kept.host7 m ρ c (r := main_arg4) (by decide))).trans (Kept.region6 m ρ c (r := main_arg4) (by decide))).trans (Kept.host5 m ρ c (r := main_arg4) (by decide))).trans (Kept.region4 m ρ c (r := main_arg4) (by decide))).trans (Kept.host3 m ρ c (r := main_arg4) (by decide))).trans (Kept.host2 m ρ c (r := main_arg4) (by decide))).trans (Kept.host1 m ρ c (r := main_arg4) (by decide)))

theorem b2_11 : W11 m ρ c (Proc.devRef .tc main_arg5) = m ((c : Thread nD τ).loc main_arg5) :=
  (((((((((((Kept.region11 m ρ c (r := main_arg5) (by decide)).trans (Kept.host10 m ρ c (r := main_arg5) (by decide))).trans (Kept.region9 m ρ c (r := main_arg5) (by decide))).trans (Kept.region8 m ρ c (r := main_arg5) (by decide))).trans (Kept.host7 m ρ c (r := main_arg5) (by decide))).trans (Kept.region6 m ρ c (r := main_arg5) (by decide))).trans (Kept.host5 m ρ c (r := main_arg5) (by decide))).trans (Kept.region4 m ρ c (r := main_arg5) (by decide))).trans (Kept.host3 m ρ c (r := main_arg5) (by decide))).trans (Kept.host2 m ρ c (r := main_arg5) (by decide))).trans (Kept.host1 m ρ c (r := main_arg5) (by decide)))

end Cert.KernelIdeal.Inputs

end
-- ==== Proof.KernelValue.lean ====
import proofs.«156346_j3951369912440_2_alg».proof.Proof.Stages
import proofs.«156346_j3951369912440_2_alg».proof.Proof.Stage5
import proofs.«156346_j3951369912440_2_alg».proof.Proof.KernelInputs

/-!
# The kernel program's result as the reference's last stage

The stages chained: the result buffer after the last region holds the reference's `log_softmax` stage of the
six argument arrays as launched.
-/

noncomputable section

namespace Cert.KernelIdeal.Stages

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

theorem result_eq : W13 m ρ c (Proc.devRef .tc main_v59) = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h30 := product1 m ρ c (Inputs.x3 m ρ c) (Inputs.w3 m ρ c)
  have h37 := gathered1 m ρ c h30 (Inputs.row4 m ρ c)
  have h38 := column1 m ρ c (Inputs.norm4 m ρ c)
  have h39 := scaled1 m ρ c h37 h38
  have h42 := summed1 m ρ c h39 (Inputs.col6 m ρ c)
  have h43 := biasRow1 m ρ c (Inputs.b1_6 m ρ c)
  have h44 := hidden m ρ c h42 h43
  have h45 := product2 m ρ c h44 (Inputs.w2_8 m ρ c)
  have h52 := gathered2 m ρ c h45 (Inputs.row9 m ρ c)
  have h53 := column2 m ρ c (Inputs.norm9 m ρ c)
  have h54 := scaled2 m ρ c h52 h53
  have h57 := summed2 m ρ c h54 (Inputs.col11 m ρ c)
  have h58 := biasRow2 m ρ c (Inputs.b2_11 m ρ c)
  exact logits m ρ c h57 h58

end Cert.KernelIdeal.Stages

end
-- ==== Proof.lean ====
/-
  A two-layer graph convolution over 500,000 nodes and 16,500,000 edges (16,000,000 given, one self loop per node):
  per layer  out = scatter_add over targets of (coefficient[e] · (h·W)[source e]) + b,  relu after the first layer and
  log_softmax after the second, the edge coefficients the products of the inverse square roots of the two endpoints'
  in-degrees. The kernel program keeps the gathers and scatter-adds on the host and runs six pipelined regions: the two
  matrix products (bf16 operands into an f32 accumulator), the two edge-wise scalings, bias + relu and
  bias + log_softmax; the reference does all of it on the host.

  Over the extended reals the two programs are the same function of the six argument arrays, stage by stage:
  * a change of float format is the identity, so each region's matrix product is the host's `dot_general` (the same
    sum of products over the contraction index), block row by block row;
  * the kernel scales `row · coefficient` where the reference scales `coefficient · row`: the product of extended
    reals commutes (the only algebraic law used; no finiteness is needed, and the precondition is never opened);
  * the epilogues are the same pointwise expressions; the row maximum and the row sum of the log-softmax are the same
    fold and the same sum over the seven classes, and the reference's extra `max` with `-∞` changes nothing;
  * the edge lists, the degrees, the coefficients, the gathers and the scatter-adds are the same host operations on
    both sides, and the reference computes the coefficients twice from the same data.
  The frames of the two kernel programs are the generated ones; the reference's frame is its run with the result
  dropped; the ideal pass rewrote nothing, so the idealization claim is trivial.
-/
import proofs.«156346_j3951369912440_2_alg».proof.Defs
import proofs.«156346_j3951369912440_2_alg».proof.Proof.Gen.Kernel
import proofs.«156346_j3951369912440_2_alg».proof.Proof.Gen.Kernel.Skeleton
import proofs.«156346_j3951369912440_2_alg».proof.Proof.Gen.Kernel.Launch
import proofs.«156346_j3951369912440_2_alg».proof.Proof.Gen.Kernel.Points
import proofs.«156346_j3951369912440_2_alg».proof.Proof.Gen.Kernel.Frame
import proofs.«156346_j3951369912440_2_alg».proof.Proof.Gen.KernelIdeal
import proofs.«156346_j3951369912440_2_alg».proof.Proof.Gen.KernelIdeal.Skeleton
import proofs.«156346_j3951369912440_2_alg».proof.Proof.Gen.KernelIdeal.Launch
import proofs.«156346_j3951369912440_2_alg».proof.Proof.Gen.KernelIdeal.Points
import proofs.«156346_j3951369912440_2_alg».proof.Proof.Gen.KernelIdeal.Frame
import proofs.«156346_j3951369912440_2_alg».proof.Proof.Gen.ReferenceIdeal
import proofs.«156346_j3951369912440_2_alg».proof.Proof.Gen.Pre_finite_inputs
import proofs.«156346_j3951369912440_2_alg».proof.Proof.RefRun
import proofs.«156346_j3951369912440_2_alg».proof.Proof.RefRead
import proofs.«156346_j3951369912440_2_alg».proof.Proof.RefValue
import proofs.«156346_j3951369912440_2_alg».proof.Proof.KernelRun
import proofs.«156346_j3951369912440_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the reference's last stage of the argument arrays in their result buffers: the kernel
    program by the chain of its stages, the reference by its own operations read back; the memories agree on the
    arguments. -/
theorem algebraic : Cert.algebraic_KernelIdeal_ReferenceIdeal := by
  intro m ρ m' ρ' _ hagree
  refine ⟨fun c => Cert.ReferenceIdeal.ReadP.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result_eq m ρ c), (h c).2⟩)
      (Cert.KernelIdeal.NamedRun.run_named m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
